-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8 : Shape := ⟨1, ![8]⟩
abbrev S_ : Shape := ⟨0, ![]⟩
abbrev S1x8 : Shape := ⟨2, ![1, 8]⟩
abbrev S8192x1 : Shape := ⟨2, ![8192, 1]⟩
abbrev S8192x8 : Shape := ⟨2, ![8192, 8]⟩
abbrev S8192x8192 : Shape := ⟨2, ![8192, 8192]⟩
abbrev S1024x8 : Shape := ⟨2, ![1024, 8]⟩
abbrev S1024x1024 : Shape := ⟨2, ![1024, 1024]⟩
abbrev S1024x4096 : Shape := ⟨2, ![1024, 4096]⟩
abbrev S1024x512 : Shape := ⟨2, ![1024, 512]⟩
abbrev S1024x1 : Shape := ⟨2, ![1024, 1]⟩

abbrev nBuf : Space → Nat
  | .hbm => 129
  | .vmem => 20
  | .smem => 0
  | _ => 0

abbrev hbmTy0_0 (i : Nat) : BufTy := match i % 128 with
  | 0 => ⟨S8192, .f32⟩
  | 1 => ⟨S8, .i32⟩
  | 2 => ⟨S_, .i32⟩
  | 3 => ⟨S_, .i32⟩
  | 4 => ⟨S8, .i32⟩
  | 5 => ⟨S8, .i32⟩
  | 6 => ⟨S8, .i32⟩
  | 7 => ⟨S_, .i32⟩
  | 8 => ⟨S8, .i32⟩
  | 9 => ⟨S8, .i1⟩
  | 10 => ⟨S8, .i32⟩
  | 11 => ⟨S8, .i32⟩
  | 12 => ⟨S_, .i32⟩
  | 13 => ⟨S8, .i32⟩
  | 14 => ⟨S8, .i1⟩
  | 15 => ⟨S8, .i1⟩
  | 16 => ⟨S_, .i32⟩
  | 17 => ⟨S8, .i32⟩
  | 18 => ⟨S8, .i32⟩
  | 19 => ⟨S8, .i32⟩
  | 20 => ⟨S_, .i32⟩
  | 21 => ⟨S8, .i32⟩
  | 22 => ⟨S8, .i32⟩
  | 23 => ⟨S8, .f32⟩
  | 24 => ⟨S1x8, .f32⟩
  | 25 => ⟨S_, .f32⟩
  | 26 => ⟨S1x8, .f32⟩
  | 27 => ⟨S1x8, .f32⟩
  | 28 => ⟨S8192x1, .f32⟩
  | 29 => ⟨S8192x8, .f32⟩
  | 30 => ⟨S8192x8, .f32⟩
  | 31 => ⟨S8192x8, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S8, .i32⟩
  | 39 => ⟨S8, .i32⟩
  | 40 => ⟨S_, .i32⟩
  | 41 => ⟨S8, .i32⟩
  | 42 => ⟨S8, .i1⟩
  | 43 => ⟨S_, .i32⟩
  | 44 => ⟨S8, .i32⟩
  | 45 => ⟨S8, .i1⟩
  | 46 => ⟨S_, .i32⟩
  | 47 => ⟨S_, .i1⟩
  | 48 => ⟨S8, .i1⟩
  | 49 => ⟨S8, .i1⟩
  | 50 => ⟨S8, .i1⟩
  | 51 => ⟨S8, .i32⟩
  | 52 => ⟨S8, .i32⟩
  | 53 => ⟨S8, .i32⟩
  | 54 => ⟨S_, .i32⟩
  | 55 => ⟨S8, .i32⟩
  | 56 => ⟨S8, .i1⟩
  | 57 => ⟨S8192x8, .f32⟩
  | 58 => ⟨S8192x8, .f32⟩
  | 59 => ⟨S8192x8, .i1⟩
  | 60 => ⟨S8192x8, .f32⟩
  | 61 => ⟨S_, .f32⟩
  | 62 => ⟨S8192x8, .f32⟩
  | 63 => ⟨S8192x8, .f32⟩
  | 64 => ⟨S_, .f32⟩
  | 65 => ⟨S8192x8, .f32⟩
  | 66 => ⟨S8192x8, .f32⟩
  | 67 => ⟨S_, .f32⟩
  | 68 => ⟨S8192x8, .f32⟩
  | 69 => ⟨S8192x8, .f32⟩
  | 70 => ⟨S8192x8, .f32⟩
  | 71 => ⟨S_, .f32⟩
  | 72 => ⟨S8192x8, .f32⟩
  | 73 => ⟨S8192x8, .f32⟩
  | 74 => ⟨S_, .f32⟩
  | 75 => ⟨S8192x8, .f32⟩
  | 76 => ⟨S8192x8, .f32⟩
  | 77 => ⟨S8192x8, .f32⟩
  | 78 => ⟨S8192x8, .f32⟩
  | 79 => ⟨S_, .f32⟩
  | 80 => ⟨S8192x8, .f32⟩
  | 81 => ⟨S8192x8, .f32⟩
  | 82 => ⟨S_, .f32⟩
  | 83 => ⟨S8192x8, .f32⟩
  | 84 => ⟨S8192x8, .f32⟩
  | 85 => ⟨S8192x8, .f32⟩
  | 86 => ⟨S8192x8, .f32⟩
  | 87 => ⟨S_, .f32⟩
  | 88 => ⟨S8192x8, .f32⟩
  | 89 => ⟨S8192x8, .f32⟩
  | 90 => ⟨S8192x8, .i32⟩
  | 91 => ⟨S_, .i32⟩
  | 92 => ⟨S8192x8, .i32⟩
  | 93 => ⟨S8192x8, .i32⟩
  | 94 => ⟨S_, .i32⟩
  | 95 => ⟨S8192x8, .i32⟩
  | 96 => ⟨S8192x8, .i1⟩
  | 97 => ⟨S_, .i32⟩
  | 98 => ⟨S8192x8, .i32⟩
  | 99 => ⟨S8192x8, .i1⟩
  | 100 => ⟨S8192x8, .i1⟩
  | 101 => ⟨S_, .i32⟩
  | 102 => ⟨S8192x8, .i32⟩
  | 103 => ⟨S8192x8, .i1⟩
  | 104 => ⟨S_, .f32⟩
  | 105 => ⟨S_, .f32⟩
  | 106 => ⟨S8192x8, .f32⟩
  | 107 => ⟨S8192x8, .f32⟩
  | 108 => ⟨S_, .f32⟩
  | 109 => ⟨S_, .f32⟩
  | 110 => ⟨S8192x8, .f32⟩
  | 111 => ⟨S8192x8, .f32⟩
  | 112 => ⟨S_, .i32⟩
  | 113 => ⟨S_, .i32⟩
  | 114 => ⟨S_, .i32⟩
  | 115 => ⟨S8192x8, .i32⟩
  | 116 => ⟨S8192x8, .i32⟩
  | 117 => ⟨S_, .i32⟩
  | 118 => ⟨S8192x8, .i32⟩
  | 119 => ⟨S8192x8, .i32⟩
  | 120 => ⟨S_, .i32⟩
  | 121 => ⟨S_, .i32⟩
  | 122 => ⟨S_, .i32⟩
  | 123 => ⟨S8192x8, .i32⟩
  | 124 => ⟨S8192x8, .i32⟩
  | 125 => ⟨S_, .i32⟩
  | 126 => ⟨S8192x8, .i32⟩
  | 127 => ⟨S8192x8, .i32⟩
  | _ => ⟨S8192, .f32⟩

abbrev hbmTy0_1 (i : Nat) : BufTy := match i % 128 with
  | 0 => ⟨S8192x8192, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | .local _ .vmem, ⟨0, _⟩ => ⟨S1024x8, .i32⟩
  | .local _ .vmem, ⟨1, _⟩ => ⟨S1024x8, .i32⟩
  | .local _ .vmem, ⟨2, _⟩ => ⟨S1024x8, .i32⟩
  | .local _ .vmem, ⟨3, _⟩ => ⟨S1024x8, .i32⟩
  | .local _ .vmem, ⟨4, _⟩ => ⟨S1024x8, .f32⟩
  | .local _ .vmem, ⟨5, _⟩ => ⟨S1024x8, .f32⟩
  | .local _ .vmem, ⟨6, _⟩ => ⟨S1024x8, .f32⟩
  | .local _ .vmem, ⟨7, _⟩ => ⟨S1024x8, .f32⟩
  | .local _ .vmem, ⟨8, _⟩ => ⟨S1024x8, .i32⟩
  | .local _ .vmem, ⟨9, _⟩ => ⟨S1024x8, .i32⟩
  | .local _ .vmem, ⟨10, _⟩ => ⟨S1024x8, .i32⟩
  | .local _ .vmem, ⟨11, _⟩ => ⟨S1024x8, .i32⟩
  | .local _ .vmem, ⟨12, _⟩ => ⟨S1024x8, .f32⟩
  | .local _ .vmem, ⟨13, _⟩ => ⟨S1024x8, .f32⟩
  | .local _ .vmem, ⟨14, _⟩ => ⟨S1024x8, .f32⟩
  | .local _ .vmem, ⟨15, _⟩ => ⟨S1024x8, .f32⟩
  | .local _ .vmem, ⟨16, _⟩ => ⟨S1024x1024, .f32⟩
  | .local _ .vmem, ⟨17, _⟩ => ⟨S1024x1024, .f32⟩
  | .local _ .vmem, ⟨18, _⟩ => ⟨S1024x4096, .f32⟩
  | .local _ .vmem, ⟨19, _⟩ => ⟨S1024x4096, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v12 : Ref sig .tc := ⟨.hbm, 53, rfl⟩
abbrev main_c_2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_call2_v0 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_v21 : Ref sig .tc := ⟨.hbm, 66, rfl⟩
abbrev main_cst_5 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_6 : Ref sig .tc := ⟨.hbm, 71, rfl⟩
abbrev main_v25 : Ref sig .tc := ⟨.hbm, 72, rfl⟩
abbrev main_v26 : Ref sig .tc := ⟨.hbm, 73, rfl⟩
abbrev main_cst_7 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_8 : Ref sig .tc := ⟨.hbm, 79, rfl⟩
abbrev main_v31 : Ref sig .tc := ⟨.hbm, 80, rfl⟩
abbrev main_v32 : Ref sig .tc := ⟨.hbm, 81, rfl⟩
abbrev main_cst_9 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_10 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_11 : Ref sig .tc := ⟨.hbm, 91, rfl⟩
abbrev main_v40 : Ref sig .tc := ⟨.hbm, 92, rfl⟩
abbrev main_v41 : Ref sig .tc := ⟨.hbm, 93, rfl⟩
abbrev main_c_12 : Ref sig .tc := ⟨.hbm, 94, rfl⟩
abbrev main_v42 : Ref sig .tc := ⟨.hbm, 95, rfl⟩
abbrev main_v43 : Ref sig .tc := ⟨.hbm, 96, rfl⟩
abbrev main_c_13 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_c_14 : Ref sig .tc := ⟨.hbm, 101, rfl⟩
abbrev main_v47 : Ref sig .tc := ⟨.hbm, 102, rfl⟩
abbrev main_v48 : Ref sig .tc := ⟨.hbm, 103, rfl⟩
abbrev main_cst_15 : Ref sig .tc := ⟨.hbm, 104, rfl⟩
abbrev main_call3_v0 : Ref sig .tc := ⟨.hbm, 105, rfl⟩
abbrev main_call3_v1 : Ref sig .tc := ⟨.hbm, 106, rfl⟩
abbrev main_v49 : Ref sig .tc := ⟨.hbm, 107, rfl⟩
abbrev main_cst_16 : Ref sig .tc := ⟨.hbm, 108, rfl⟩
abbrev main_call4_v0 : Ref sig .tc := ⟨.hbm, 109, rfl⟩
abbrev main_call4_v1 : Ref sig .tc := ⟨.hbm, 110, rfl⟩
abbrev main_v50 : Ref sig .tc := ⟨.hbm, 111, rfl⟩
abbrev main_c_17 : Ref sig .tc := ⟨.hbm, 112, rfl⟩
abbrev main_c_18 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_v51 : Ref sig .tc := ⟨.hbm, 119, rfl⟩
abbrev main_c_19 : Ref sig .tc := ⟨.hbm, 120, rfl⟩
abbrev main_c_20 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v52 : Ref sig .tc := ⟨.hbm, 127, rfl⟩
abbrev main_v53 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x8 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S_S8 : S_.BroadcastsInDim S8 (![] : Fin 0 → Fin S8.rank)
  bcast_S8_S1x8_1 : S8.BroadcastsInDim S1x8 (![1] : Fin 1 → Fin S1x8.rank)
  bcast_S_S1x8 : S_.BroadcastsInDim S1x8 (![] : Fin 0 → Fin S1x8.rank)
  bcast_S8192_S8192x1_0 : S8192.BroadcastsInDim S8192x1 (![0] : Fin 1 → Fin S8192x1.rank)
  bcast_S1x8_S8192x8_0_1 : S1x8.BroadcastsInDim S8192x8 (![0, 1] : Fin 2 → Fin S8192x8.rank)
  bcast_S8192x1_S8192x8_0_1 : S8192x1.BroadcastsInDim S8192x8 (![0, 1] : Fin 2 → Fin S8192x8.rank)
  bcast_S8_S8192x8_1 : S8.BroadcastsInDim S8192x8 (![1] : Fin 1 → Fin S8192x8.rank)
  bcast_S_S8192x8 : S_.BroadcastsInDim S8192x8 (![] : Fin 0 → Fin S8192x8.rank)
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  iota_S1024x512_d1_w32 : S1024x512.Iotas .tc 32 [1]
  slices_S1024x8_o0_0_S1024x1 : S1024x8.Slices ![0, 0] S1024x1
  broadcasts_S1024x1_S1024x512 : S1024x1.Broadcasts S1024x512
  shapeCasts_S1024x1_S1024x1 : S1024x1.ShapeCasts S1024x1
  inb_S1024x4096_S1024x512_0_0 : ∀ a, (![0, 0] : Fin 2 → Nat) a + S1024x512.size a ≤ S1024x4096.size a
  h_S1024x512 : 0 < S1024x512.numel
  shapeCasts_S1024x512_S1024x512 : S1024x512.ShapeCasts S1024x512
  slices_S1024x8_o0_1_S1024x1 : S1024x8.Slices ![0, 1] S1024x1
  inb_S1024x4096_S1024x512_0_512 : ∀ a, (![0, 512] : Fin 2 → Nat) a + S1024x512.size a ≤ S1024x4096.size a
  slices_S1024x8_o0_2_S1024x1 : S1024x8.Slices ![0, 2] S1024x1
  inb_S1024x4096_S1024x512_0_1024 : ∀ a, (![0, 1024] : Fin 2 → Nat) a + S1024x512.size a ≤ S1024x4096.size a
  slices_S1024x8_o0_3_S1024x1 : S1024x8.Slices ![0, 3] S1024x1
  inb_S1024x4096_S1024x512_0_1536 : ∀ a, (![0, 1536] : Fin 2 → Nat) a + S1024x512.size a ≤ S1024x4096.size a
  slices_S1024x8_o0_4_S1024x1 : S1024x8.Slices ![0, 4] S1024x1
  inb_S1024x4096_S1024x512_0_2048 : ∀ a, (![0, 2048] : Fin 2 → Nat) a + S1024x512.size a ≤ S1024x4096.size a
  slices_S1024x8_o0_5_S1024x1 : S1024x8.Slices ![0, 5] S1024x1
  inb_S1024x4096_S1024x512_0_2560 : ∀ a, (![0, 2560] : Fin 2 → Nat) a + S1024x512.size a ≤ S1024x4096.size a
  slices_S1024x8_o0_6_S1024x1 : S1024x8.Slices ![0, 6] S1024x1
  inb_S1024x4096_S1024x512_0_3072 : ∀ a, (![0, 3072] : Fin 2 → Nat) a + S1024x512.size a ≤ S1024x4096.size a
  slices_S1024x8_o0_7_S1024x1 : S1024x8.Slices ![0, 7] S1024x1
  inb_S1024x4096_S1024x512_0_3584 : ∀ a, (![0, 3584] : Fin 2 → Nat) a + S1024x512.size a ≤ S1024x4096.size a
  inb_S1024x4096_S1024x4096_0_0 : ∀ a, (![0, 0] : Fin 2 → Nat) a + S1024x4096.size a ≤ S1024x4096.size a
  h_S1024x4096 : 0 < S1024x4096.numel
  inb_S1024x1024_S1024x1024_0_0 : ∀ a, (![0, 0] : Fin 2 → Nat) a + S1024x1024.size a ≤ S1024x1024.size a
  h_S1024x1024 : 0 < S1024x1024.numel
  dot_S1024x4096_S1024x4096_S1024x1024_1_1_0_0_n_n_wf : DotDims.WF S1024x4096 S1024x4096 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S8192x8.size a
  hwx0_0 : ∀ i : grid0.Coords, EltTy.bits .i32 = 32 ∨ (Rect.block (s := S8192x8) S1024x8.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S8192x8.size a
  hwx0_1 : ∀ i : grid0.Coords, EltTy.bits .i32 = 32 ∨ (Rect.block (s := S8192x8) S1024x8.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x8.size a ≤ S8192x8.size a
  hwx0_2 : ∀ i : grid0.Coords, EltTy.bits .f32 = 32 ∨ (Rect.block (s := S8192x8) S1024x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S8192x8.size a
  hwx0_3 : ∀ i : grid0.Coords, EltTy.bits .f32 = 32 ∨ (Rect.block (s := S8192x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x8.size a ≤ S8192x8.size a
  hwx0_4 : ∀ i : grid0.Coords, EltTy.bits .i32 = 32 ∨ (Rect.block (s := S8192x8) S1024x8.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x8.size a ≤ S8192x8.size a
  hwx0_5 : ∀ i : grid0.Coords, EltTy.bits .i32 = 32 ∨ (Rect.block (s := S8192x8) S1024x8.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x8.size a ≤ S8192x8.size a
  hwx0_6 : ∀ i : grid0.Coords, EltTy.bits .f32 = 32 ∨ (Rect.block (s := S8192x8) S1024x8.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x8.size a ≤ S8192x8.size a
  hwx0_7 : ∀ i : grid0.Coords, EltTy.bits .f32 = 32 ∨ (Rect.block (s := S8192x8) S1024x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S8192x8192.size a
  hwx0_8 : ∀ i : grid0.Coords, EltTy.bits .f32 = 32 ∨ (Rect.block (s := S8192x8192) S1024x1024.size (cc0_transform_8 i) (hinb0_8 i)).WholeWords (EltTy.packing .f32)

variable [Facts₀]

def dot_S1024x4096_S1024x4096_S1024x1024_1_1_0_0_n_n : DotDims S1024x4096 S1024x4096 S1024x1024 where
  lhsContracting := [1]
  rhsContracting := [1]
  lhsNonContracting := [0]
  rhsNonContracting := [0]
  lhsBatch := []
  rhsBatch := []
  wf := dot_S1024x4096_S1024x4096_S1024x1024_1_1_0_0_n_n_wf

abbrev win0_0 : Pipeline.Window sig grid0 :=
  Pipeline.Window.ofSpec (Memref.whole main_v51) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1024x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1024x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v52) S1024x8.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v49) S1024x8.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1024x8.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v53) S1024x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192 : Shape := ⟨1, ![8192]⟩
abbrev S8 : Shape := ⟨1, ![8]⟩
abbrev S_ : Shape := ⟨0, ![]⟩
abbrev S1x8 : Shape := ⟨2, ![1, 8]⟩
abbrev S8192x1 : Shape := ⟨2, ![8192, 1]⟩
abbrev S8192x8 : Shape := ⟨2, ![8192, 8]⟩
abbrev S8192x4096 : Shape := ⟨2, ![8192, 4096]⟩
abbrev S8192x8x1 : Shape := ⟨3, ![8192, 8, 1]⟩
abbrev S8192x8x2 : Shape := ⟨3, ![8192, 8, 2]⟩
abbrev S4096x8192 : Shape := ⟨2, ![4096, 8192]⟩
abbrev S8192x8192 : Shape := ⟨2, ![8192, 8192]⟩

abbrev nBuf : Space → Nat
  | .hbm => 179
  | .vmem => 0
  | .smem => 0
  | _ => 0

abbrev hbmTy0_0 (i : Nat) : BufTy := match i % 128 with
  | 0 => ⟨S8192, .f32⟩
  | 1 => ⟨S8, .i32⟩
  | 2 => ⟨S_, .i32⟩
  | 3 => ⟨S_, .i32⟩
  | 4 => ⟨S8, .i32⟩
  | 5 => ⟨S8, .i32⟩
  | 6 => ⟨S8, .i32⟩
  | 7 => ⟨S_, .i32⟩
  | 8 => ⟨S8, .i32⟩
  | 9 => ⟨S8, .i1⟩
  | 10 => ⟨S8, .i32⟩
  | 11 => ⟨S8, .i32⟩
  | 12 => ⟨S_, .i32⟩
  | 13 => ⟨S8, .i32⟩
  | 14 => ⟨S8, .i1⟩
  | 15 => ⟨S8, .i1⟩
  | 16 => ⟨S_, .i32⟩
  | 17 => ⟨S8, .i32⟩
  | 18 => ⟨S8, .i32⟩
  | 19 => ⟨S8, .i32⟩
  | 20 => ⟨S_, .i32⟩
  | 21 => ⟨S8, .i32⟩
  | 22 => ⟨S8, .i32⟩
  | 23 => ⟨S8, .f32⟩
  | 24 => ⟨S1x8, .f32⟩
  | 25 => ⟨S_, .f32⟩
  | 26 => ⟨S1x8, .f32⟩
  | 27 => ⟨S1x8, .f32⟩
  | 28 => ⟨S8192x1, .f32⟩
  | 29 => ⟨S8192x8, .f32⟩
  | 30 => ⟨S8192x8, .f32⟩
  | 31 => ⟨S8192x8, .f32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S8, .i32⟩
  | 39 => ⟨S8, .i32⟩
  | 40 => ⟨S_, .i32⟩
  | 41 => ⟨S8, .i32⟩
  | 42 => ⟨S8, .i1⟩
  | 43 => ⟨S_, .i32⟩
  | 44 => ⟨S8, .i32⟩
  | 45 => ⟨S8, .i1⟩
  | 46 => ⟨S_, .i32⟩
  | 47 => ⟨S_, .i1⟩
  | 48 => ⟨S8, .i1⟩
  | 49 => ⟨S8, .i1⟩
  | 50 => ⟨S8, .i1⟩
  | 51 => ⟨S8, .i32⟩
  | 52 => ⟨S8, .i32⟩
  | 53 => ⟨S8, .i32⟩
  | 54 => ⟨S_, .i32⟩
  | 55 => ⟨S8, .i32⟩
  | 56 => ⟨S8, .i1⟩
  | 57 => ⟨S8192x8, .f32⟩
  | 58 => ⟨S8192x8, .f32⟩
  | 59 => ⟨S8192x8, .i1⟩
  | 60 => ⟨S8192x8, .f32⟩
  | 61 => ⟨S_, .f32⟩
  | 62 => ⟨S8192x8, .f32⟩
  | 63 => ⟨S8192x8, .f32⟩
  | 64 => ⟨S_, .f32⟩
  | 65 => ⟨S8192x8, .f32⟩
  | 66 => ⟨S8192x8, .f32⟩
  | 67 => ⟨S_, .f32⟩
  | 68 => ⟨S8192x8, .f32⟩
  | 69 => ⟨S8192x8, .f32⟩
  | 70 => ⟨S8192x8, .f32⟩
  | 71 => ⟨S_, .f32⟩
  | 72 => ⟨S8192x8, .f32⟩
  | 73 => ⟨S8192x8, .f32⟩
  | 74 => ⟨S_, .f32⟩
  | 75 => ⟨S8192x8, .f32⟩
  | 76 => ⟨S8192x8, .f32⟩
  | 77 => ⟨S8192x8, .f32⟩
  | 78 => ⟨S8192x8, .f32⟩
  | 79 => ⟨S_, .f32⟩
  | 80 => ⟨S8192x8, .f32⟩
  | 81 => ⟨S8192x8, .f32⟩
  | 82 => ⟨S_, .f32⟩
  | 83 => ⟨S8192x8, .f32⟩
  | 84 => ⟨S8192x8, .f32⟩
  | 85 => ⟨S8192x8, .f32⟩
  | 86 => ⟨S8192x8, .f32⟩
  | 87 => ⟨S_, .f32⟩
  | 88 => ⟨S8192x8, .f32⟩
  | 89 => ⟨S8192x8, .f32⟩
  | 90 => ⟨S8192x8, .i32⟩
  | 91 => ⟨S_, .i32⟩
  | 92 => ⟨S8192x8, .i32⟩
  | 93 => ⟨S8192x8, .i32⟩
  | 94 => ⟨S_, .i32⟩
  | 95 => ⟨S8192x8, .i32⟩
  | 96 => ⟨S8192x8, .i1⟩
  | 97 => ⟨S_, .i32⟩
  | 98 => ⟨S8192x8, .i32⟩
  | 99 => ⟨S8192x8, .i1⟩
  | 100 => ⟨S8192x8, .i1⟩
  | 101 => ⟨S_, .i32⟩
  | 102 => ⟨S8192x8, .i32⟩
  | 103 => ⟨S8192x8, .i1⟩
  | 104 => ⟨S_, .f32⟩
  | 105 => ⟨S_, .f32⟩
  | 106 => ⟨S8192x8, .f32⟩
  | 107 => ⟨S8192x8, .f32⟩
  | 108 => ⟨S_, .f32⟩
  | 109 => ⟨S_, .f32⟩
  | 110 => ⟨S8192x8, .f32⟩
  | 111 => ⟨S8192x8, .f32⟩
  | 112 => ⟨S1x8, .i32⟩
  | 113 => ⟨S_, .i32⟩
  | 114 => ⟨S1x8, .i32⟩
  | 115 => ⟨S1x8, .i32⟩
  | 116 => ⟨S_, .i32⟩
  | 117 => ⟨S_, .i32⟩
  | 118 => ⟨S_, .i32⟩
  | 119 => ⟨S8192x8, .i32⟩
  | 120 => ⟨S8192x8, .i32⟩
  | 121 => ⟨S_, .i32⟩
  | 122 => ⟨S8192x8, .i32⟩
  | 123 => ⟨S8192x8, .i32⟩
  | 124 => ⟨S8192x8, .i32⟩
  | 125 => ⟨S8192x8, .i32⟩
  | 126 => ⟨S_, .i32⟩
  | 127 => ⟨S_, .i32⟩
  | _ => ⟨S8192, .f32⟩

abbrev hbmTy0_1 (i : Nat) : BufTy := match i % 128 with
  | 0 => ⟨S_, .i32⟩
  | 1 => ⟨S8192x8, .i32⟩
  | 2 => ⟨S8192x8, .i32⟩
  | 3 => ⟨S_, .i32⟩
  | 4 => ⟨S8192x8, .i32⟩
  | 5 => ⟨S8192x8, .i32⟩
  | 6 => ⟨S8192x8, .i32⟩
  | 7 => ⟨S8192x8, .i32⟩
  | 8 => ⟨S8192, .i32⟩
  | 9 => ⟨S8192x1, .i32⟩
  | 10 => ⟨S8192x8, .i32⟩
  | 11 => ⟨S_, .f32⟩
  | 12 => ⟨S8192x4096, .f32⟩
  | 13 => ⟨S_, .i32⟩
  | 14 => ⟨S8192x8, .i32⟩
  | 15 => ⟨S8192x8, .i1⟩
  | 16 => ⟨S_, .i32⟩
  | 17 => ⟨S8192x8, .i32⟩
  | 18 => ⟨S8192x8, .i32⟩
  | 19 => ⟨S8192x8, .i32⟩
  | 20 => ⟨S_, .i32⟩
  | 21 => ⟨S8192x8, .i32⟩
  | 22 => ⟨S8192x8, .i1⟩
  | 23 => ⟨S_, .i32⟩
  | 24 => ⟨S8192x8, .i32⟩
  | 25 => ⟨S8192x8, .i32⟩
  | 26 => ⟨S8192x8, .i32⟩
  | 27 => ⟨S8192x8x1, .i32⟩
  | 28 => ⟨S8192x8x1, .i32⟩
  | 29 => ⟨S8192x8x2, .i32⟩
  | 30 => ⟨S8192x4096, .f32⟩
  | 31 => ⟨S_, .i32⟩
  | 32 => ⟨S8192x8, .i32⟩
  | 33 => ⟨S8192x8, .i1⟩
  | 34 => ⟨S_, .i32⟩
  | 35 => ⟨S8192x8, .i32⟩
  | 36 => ⟨S8192x8, .i32⟩
  | 37 => ⟨S8192x8, .i32⟩
  | 38 => ⟨S_, .i32⟩
  | 39 => ⟨S8192x8, .i32⟩
  | 40 => ⟨S8192x8, .i1⟩
  | 41 => ⟨S_, .i32⟩
  | 42 => ⟨S8192x8, .i32⟩
  | 43 => ⟨S8192x8, .i32⟩
  | 44 => ⟨S8192x8, .i32⟩
  | 45 => ⟨S8192x8x1, .i32⟩
  | 46 => ⟨S8192x8x1, .i32⟩
  | 47 => ⟨S8192x8x2, .i32⟩
  | 48 => ⟨S8192x4096, .f32⟩
  | 49 => ⟨S4096x8192, .f32⟩
  | 50 => ⟨S8192x8192, .f32⟩
  | _ => ⟨S8192, .f32⟩

abbrev hbmTy (i : Nat) : BufTy := match i / 128 with
  | 0 => hbmTy0_0 i
  | 1 => hbmTy0_1 i
  | _ => ⟨S8192, .f32⟩

abbrev bufTy : (tb : Table) → Fin (tcTables nBuf tb) → BufTy
  | .hbm, ⟨i, _⟩ => hbmTy i
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v12 : Ref sig .tc := ⟨.hbm, 53, rfl⟩
abbrev main_c_2 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_call2_v0 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_cst_4 : Ref sig .tc := ⟨.hbm, 64, rfl⟩
abbrev main_v20 : Ref sig .tc := ⟨.hbm, 65, rfl⟩
abbrev main_v21 : Ref sig .tc := ⟨.hbm, 66, rfl⟩
abbrev main_cst_5 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_cst_6 : Ref sig .tc := ⟨.hbm, 71, rfl⟩
abbrev main_v25 : Ref sig .tc := ⟨.hbm, 72, rfl⟩
abbrev main_v26 : Ref sig .tc := ⟨.hbm, 73, rfl⟩
abbrev main_cst_7 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_8 : Ref sig .tc := ⟨.hbm, 79, rfl⟩
abbrev main_v31 : Ref sig .tc := ⟨.hbm, 80, rfl⟩
abbrev main_v32 : Ref sig .tc := ⟨.hbm, 81, rfl⟩
abbrev main_cst_9 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_10 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_11 : Ref sig .tc := ⟨.hbm, 91, rfl⟩
abbrev main_v40 : Ref sig .tc := ⟨.hbm, 92, rfl⟩
abbrev main_v41 : Ref sig .tc := ⟨.hbm, 93, rfl⟩
abbrev main_c_12 : Ref sig .tc := ⟨.hbm, 94, rfl⟩
abbrev main_v42 : Ref sig .tc := ⟨.hbm, 95, rfl⟩
abbrev main_v43 : Ref sig .tc := ⟨.hbm, 96, rfl⟩
abbrev main_c_13 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_c_14 : Ref sig .tc := ⟨.hbm, 101, rfl⟩
abbrev main_v47 : Ref sig .tc := ⟨.hbm, 102, rfl⟩
abbrev main_v48 : Ref sig .tc := ⟨.hbm, 103, rfl⟩
abbrev main_cst_15 : Ref sig .tc := ⟨.hbm, 104, rfl⟩
abbrev main_call3_v0 : Ref sig .tc := ⟨.hbm, 105, rfl⟩
abbrev main_call3_v1 : Ref sig .tc := ⟨.hbm, 106, rfl⟩
abbrev main_v49 : Ref sig .tc := ⟨.hbm, 107, rfl⟩
abbrev main_cst_16 : Ref sig .tc := ⟨.hbm, 108, rfl⟩
abbrev main_call4_v0 : Ref sig .tc := ⟨.hbm, 109, rfl⟩
abbrev main_call4_v1 : Ref sig .tc := ⟨.hbm, 110, rfl⟩
abbrev main_v50 : Ref sig .tc := ⟨.hbm, 111, rfl⟩
abbrev main_v51 : Ref sig .tc := ⟨.hbm, 112, rfl⟩
abbrev main_c_17 : Ref sig .tc := ⟨.hbm, 113, rfl⟩
abbrev main_v52 : Ref sig .tc := ⟨.hbm, 114, rfl⟩
abbrev main_v53 : Ref sig .tc := ⟨.hbm, 115, rfl⟩
abbrev main_c_18 : Ref sig .tc := ⟨.hbm, 116, rfl⟩
abbrev main_c_19 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_c_20 : Ref sig .tc := ⟨.hbm, 126, rfl⟩
abbrev main_c_21 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_cst_22 : Ref sig .tc := ⟨.hbm, 139, rfl⟩
abbrev main_v63 : Ref sig .tc := ⟨.hbm, 140, rfl⟩
abbrev main_c_23 : Ref sig .tc := ⟨.hbm, 141, rfl⟩
abbrev main_v64 : Ref sig .tc := ⟨.hbm, 142, rfl⟩
abbrev main_v65 : Ref sig .tc := ⟨.hbm, 143, rfl⟩
abbrev main_c_24 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_c_25 : Ref sig .tc := ⟨.hbm, 148, rfl⟩
abbrev main_v69 : Ref sig .tc := ⟨.hbm, 149, rfl⟩
abbrev main_v70 : Ref sig .tc := ⟨.hbm, 150, rfl⟩
abbrev main_c_26 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_c_27 : Ref sig .tc := ⟨.hbm, 159, rfl⟩
abbrev main_v78 : Ref sig .tc := ⟨.hbm, 160, rfl⟩
abbrev main_v79 : Ref sig .tc := ⟨.hbm, 161, rfl⟩
abbrev main_c_28 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_c_29 : Ref sig .tc := ⟨.hbm, 166, rfl⟩
abbrev main_v83 : Ref sig .tc := ⟨.hbm, 167, rfl⟩
abbrev main_v84 : Ref sig .tc := ⟨.hbm, 168, rfl⟩
abbrev main_c_30 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8_1 : S8.BroadcastsInDim S1x8 (![1] : Fin 1 → Fin S1x8.rank)
  bcast_S_S1x8 : S_.BroadcastsInDim S1x8 (![] : Fin 0 → Fin S1x8.rank)
  bcast_S8192_S8192x1_0 : S8192.BroadcastsInDim S8192x1 (![0] : Fin 1 → Fin S8192x1.rank)
  bcast_S1x8_S8192x8_0_1 : S1x8.BroadcastsInDim S8192x8 (![0, 1] : Fin 2 → Fin S8192x8.rank)
  bcast_S8192x1_S8192x8_0_1 : S8192x1.BroadcastsInDim S8192x8 (![0, 1] : Fin 2 → Fin S8192x8.rank)
  bcast_S8_S8192x8_1 : S8.BroadcastsInDim S8192x8 (![1] : Fin 1 → Fin S8192x8.rank)
  bcast_S_S8192x8 : S_.BroadcastsInDim S8192x8 (![] : Fin 0 → Fin S8192x8.rank)
  bcast_S_S8192x4096 : S_.BroadcastsInDim S8192x4096 (![] : Fin 0 → Fin S8192x4096.rank)
  bcast_S8192x8_S8192x8x1_0_1 : S8192x8.BroadcastsInDim S8192x8x1 (![0, 1] : Fin 2 → Fin S8192x8x1.rank)
  concatenates_S8192x8x1_S8192x8x1_S8192x8x2_d2 : Shape.Concatenates [S8192x8x1, S8192x8x1] S8192x8x2 2
  transposes_S8192x4096_S4096x8192_1_0 : S8192x4096.Transposes [1, 0] S4096x8192
  scatter_S8192x4096_S8192x8x2_S8192x8_n_01_01_2_wf : ScatterDims.WF S8192x4096 S8192x8x2 S8192x8 [] [0, 1] [0, 1] 2
  dot_S8192x4096_S4096x8192_S8192x8192_1_0_0_1_n_n_wf : DotDims.WF S8192x4096 S4096x8192 S8192x8192 [1] [0] [0] [1] [] []

variable [Facts₀]

def scatter_S8192x4096_S8192x8x2_S8192x8_n_01_01_2 : ScatterDims S8192x4096 S8192x8x2 S8192x8 where
  updateWindowDims := []
  insertedWindowDims := [0, 1]
  scatterDimsToOperandDims := [0, 1]
  indexVectorDim := 2
  wf := scatter_S8192x4096_S8192x8x2_S8192x8_n_01_01_2_wf
def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.KMain.lean ====
/-
  The host side of the program up to its one kernel launch: the buffers' contents when the launch is reached
  are the launch contents folded through the host operations in order; the argument array is written by none of them.
-/
import proofs.«148301_j79766132621757_2_alg».proof.Proof.Gen.Kernel.Launch
import proofs.«148301_j79766132621757_2_alg».proof.Proof.Gen.Kernel.Skeleton
import proofs.«148301_j79766132621757_2_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

variable (m : (ℓ : Loc nD τ sig) → Buf (Elt F) ℓ) (ρ : Dev nD → PrngReg)

/-- The host operations before the launch, stretch by stretch (a called function's lines are a stretch of their own). -/
abbrev hostStretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13]

/-- Core `c`'s buffers when the launch is reached. -/
abbrev V (c : Dev nD) (b : Ref sig .tc) : Buf (Elt F) ((c : Thread nD τ).loc b) :=
  StableHlo.after (List.flatten (hostStretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor

/-- The program up to the launch is those stretches and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- No host operation writes the argument array: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

end Cert.Kernel.Hand

end
-- ==== Proof.KBody.lean ====
/-
  The kernel body at one grid point, on whole staging buffers: the eight table blocks are read and left as they
  were, the two scratch matrices are overwritten band by band, and the output block is left at the pieces the
  run finds (one store of the product of the two scratch matrices).
-/
import proofs.«148301_j79766132621757_2_alg».proof.Proof.KMain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Facts₀

variable {F : FTy → Type} [FloatOps F]

local notation "𝕄" => MT nD τ sig Unit (Elt F) ℕ (UR sig nD τ) ℕ

set_option maxHeartbeats 4000000 in
/-- The body's run: the pieces the output block ends with (found by the run), and the triple. -/
noncomputable def kernelRun (c : Dev nD) (i : grid0.Coords) (arg2 : Memref sig .tc .vmem S1024x8 .i32) (harg2 : arg2.IsWhole) (arg3 : Memref sig .tc .vmem S1024x8 .i32) (harg3 : arg3.IsWhole) (arg4 : Memref sig .tc .vmem S1024x8 .f32) (harg4 : arg4.IsWhole) (arg5 : Memref sig .tc .vmem S1024x8 .f32) (harg5 : arg5.IsWhole) (arg6 : Memref sig .tc .vmem S1024x8 .i32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1024x4096 .f32) (harg11 : arg11.IsWhole) (arg12 : Memref sig .tc .vmem S1024x4096 .f32) (harg12 : arg12.IsWhole)
    (x0 : Vec F S1024x8 .i32) (x1 : Vec F S1024x8 .i32) (x2 : Vec F S1024x8 .f32) (x3 : Vec F S1024x8 .f32) (x4 : Vec F S1024x8 .i32) (x5 : Vec F S1024x8 .i32) (x6 : Vec F S1024x8 .f32) (x7 : Vec F S1024x8 .f32) :
    { L : List (View.Piece (Elt F) S1024x1024 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L) ∗ (∃ d, owns (c : Thread nD τ) arg11 fullShare d) ∗ (∃ d, owns (c : Thread nD τ) arg12 fullShare d)) -∗ K ⟨⟩))
          ⊢ wp frame (wpE (defs₀ (F := F)) Variants.none c none) Set.univ (cc0__gram_kernel i arg2 harg2 arg3 harg3 arg4 harg4 arg5 harg5 arg6 harg6 arg7 harg7 arg8 harg8 arg9 harg9 arg10 harg10 arg11 harg11 arg12 harg12) K } := by
  refine ⟨?_, fun K => ?run⟩
  case run =>
    simp only [cc0__gram_kernel_eq_skeleton]; unfold cc0__gram_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexists _; isplitr
      swap; · iexact H9
      ipureintro; rfl
    · iexists _; iexists _; isplitr
      swap; · iexact H10
      ipureintro; rfl

end Cert.Kernel.Hand

end
-- ==== Proof.LibSharedLaunch.lean ====
/-
  A pipeline whose windows SHARE ARRAYS (one array handed to the kernel through several input windows,
  as when an attention kernel reads the same tensor as its queries and as its keys/values).

  The library's frame runs ask that the windows' arrays be pairwise distinct.  Here the arrays need not be:
  what the launch needs instead is how the distinct buffers behind the arrays, each whole at the full share,
  make the proof data's per-window holdings (`hsplit`: a buffer read by two windows is split into two
  half shares).  The kernel keeps the invariant "the scoped buffers that are no staging buffer, at some
  contents" (it draws no random bits and has no semaphore of its own).  The conclusion is the library's
  `FramePost`: every window's array ends at what the write-backs computed from the proof data leave, every
  other unscoped buffer at its contents when the region was entered.
-/
import Idealize.ShloMosaic.Lib.Pipeline.Frame

noncomputable section

namespace Cert.Lib.SharedLaunch

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (dats : (p : P) → (c : Dev nD) → Dat τ Val Unit ℕ (UR sig nD τ) ℕ (cfgs p) c) (p : P)
  (defs₀ : Defs nD τ sig Val Λ₀) (𝒱₀ : Variants)

/-- The frame run of a kernel whose input windows may share arrays, its invariant before the first point and
    after the last the scoped rest (`hin`, `hout`), the arrays' buffers split among the windows by `hsplit`. -/
theorem θ_run_frame_shared
    (hinj : Function.Injective (cellOf (nD := nD) (τ := τ) cfgs)) (hw : WinFacts₀ (cfgs p).spec)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp)) (fun c => unscopedRest (Ix := Unit) (Name := ℕ) (U := UR sig nD τ) (Lvl := ℕ) (cfgs p).spec c (V c))
    (fun c => by
      iintro H
      isplitr
      · iempintro
      · iexact H)
    (fun c => (show iprop(iprop(emp) ∗ scopedRest (cfgs p).spec c) ⊢ (scopedRest (cfgs p).spec c : sProp 𝕄) from by
      iintro ⟨-, H⟩; iexact H).trans (hin c))
    (fun c => (hout c).trans (by
      iintro H
      isplitr
      · iempintro
      · iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.Lib.SharedLaunch

end
-- ==== Proof.KRun.lean ====
/-
  The kernel launch as a whole: the proof data (each table window's staging buffer holds its block of the table,
  the output window's the block the body stores; the two scratch matrices are kept at some contents), the body at
  every grid point, the tables' buffers split between the two windows that read each, and the run.
-/
import proofs.«148301_j79766132621757_2_alg».proof.Proof.KBody
import proofs.«148301_j79766132621757_2_alg».proof.Proof.LibSharedLaunch
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pieces the body stores into the output block at point `t`. -/
def outL (c : Dev nD) (t : Fin cfg0.N) : List (View.Piece (Elt F) S1024x1024 .f32) :=
  (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t)).1

/-- They tile the block. -/
theorem outL_cover (c : Dev nD) (t : Fin cfg0.N) (y : S1024x1024.Idx) : ∃ pc ∈ outL m c t, y ∈ pc.1.set :=
  View.cover_of_tiledL (outL m c t) S1024x1024.size (by unfold outL; sl_kernel_rfl) y

/-- The output block after the body at point `t`. -/
def outAt (c : Dev nD) (t : Fin cfg0.N) : Vec F S1024x1024 .f32 := View.canon (outL m c t)

/-- The proof data: the arrays as the launch finds them; every table window's buffer at its block, the output's at
    the stored block; the invariant the two scratch matrices at some contents; the four tables each held in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.scopedRest spec0 c
  q w := match w with
    | ⟨0, _⟩ => fullShare.left
    | ⟨1, _⟩ => fullShare.left
    | ⟨2, _⟩ => fullShare.left
    | ⟨3, _⟩ => fullShare.left
    | _ => fullShare.right
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

/-- Table window 0's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Table window 1's current buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Table window 2's current buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Table window 3's current buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Table window 4's current buffer holds its block at every point, fetched there or not. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Table window 5's current buffer holds its block at every point, fetched there or not. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Table window 6's current buffer holds its block at every point, fetched there or not. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- Table window 7's current buffer holds its block at every point, fetched there or not. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the table windows' buffers hold their blocks, the scratch matrices come out of the
    invariant and go back into it, the output buffer ends at the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = (Pipeline.scopedRest spec0 c : sProp 𝕄) from rfl, scopedRest0_eq c]
  simp only [← owns_whole]
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun (F := F) c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  exact View.read_writes_eq_canon _ _ _ (outL_cover m c t)

/-- The body obligation, at every point. -/
theorem body_obligation (c : Dev nD) : BodyObligation (dats (F := F) m 0 c) (defs₀ (F := F)) Variants.none () Set.univ := fun t => by
  rw [bigSep_W0, bigSep_W0]
  exact sound_body m c t

/-- The share each window holds its array at: the first reader of a table the left half, the second the right
    half, the output window the whole. -/
def winShare : Fin 9 → PosShare TreeShare := fun w => match w with
  | ⟨0, _⟩ => fullShare.left | ⟨1, _⟩ => fullShare.left | ⟨2, _⟩ => fullShare.left | ⟨3, _⟩ => fullShare.left
  | ⟨4, _⟩ => fullShare.right | ⟨5, _⟩ => fullShare.right | ⟨6, _⟩ => fullShare.right | ⟨7, _⟩ => fullShare.right
  | ⟨8, _⟩ => fullShare

theorem share_eq (c : Dev nD) (w : Fin cfg0.W) : (dats m 0 c).share w = winShare w := by
  unfold Dat.share
  match w with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl

theorem arrAt_zero (c : Dev nD) (w : Fin cfg0.W) : (dats m 0 c).arrAt w 0 = V m c (Pipeline.arrRef spec0 w) := A_eq m c w

theorem arrRef0_0 : Pipeline.arrRef spec0 (0 : Fin 9) = main_v51 := rfl
theorem arrRef0_1 : Pipeline.arrRef spec0 (1 : Fin 9) = main_v52 := rfl
theorem arrRef0_2 : Pipeline.arrRef spec0 (2 : Fin 9) = main_v49 := rfl
theorem arrRef0_3 : Pipeline.arrRef spec0 (3 : Fin 9) = main_v50 := rfl
theorem arrRef0_4 : Pipeline.arrRef spec0 (4 : Fin 9) = main_v51 := rfl
theorem arrRef0_5 : Pipeline.arrRef spec0 (5 : Fin 9) = main_v52 := rfl
theorem arrRef0_6 : Pipeline.arrRef spec0 (6 : Fin 9) = main_v49 := rfl
theorem arrRef0_7 : Pipeline.arrRef spec0 (7 : Fin 9) = main_v50 := rfl
theorem arrRef0_8 : Pipeline.arrRef spec0 (8 : Fin 9) = main_v53 := rfl

/-- A buffer's points-to under another name of the same buffer. -/
theorem fac (c : Dev nD) (b b' : Ref sig .tc) (h : b' = b) (q : PosShare TreeShare) :
    ((((c : Thread nD τ).loc b) ↦{q} V m c b) : sProp 𝕄) ⊢ (((c : Thread nD τ).loc b') ↦{q} V m c b') := by
  subst h; exact BI.Entails.refl _

/-- The four tables' buffers, each whole at the launch, are split in halves between the two windows that read
    each; the result's buffer goes whole to the output window. -/
theorem hsplit (c : Dev nD) : (Pipeline.arrBufs spec0 c (V m c) : sProp 𝕄) ⊢ (dats m 0 c).arrays ((dats m 0 c).arrAt · 0) := by
  have e : (dats m 0 c).arrays ((dats m 0 c).arrAt · 0) = bigSep Finset.univ fun w : Fin 9 => ((((c.tc : Thread nD τ).loc (Pipeline.arrRef spec0 w)) ↦{winShare w} V m c (Pipeline.arrRef spec0 w)) : sProp 𝕄) := by
    unfold Dat.arrays
    exact bigSep_congr fun w _ => by
      rw [(arr_whole0 w).set_eq_univ, share_eq]
      dsimp only
      rw [arrAt_zero]
  rw [e, bigSep_W0]
  simp only [winShare]
  refine BIBase.Entails.trans ?_ (BI.sep_mono (fac m c _ _ arrRef0_0 _) (BI.sep_mono (fac m c _ _ arrRef0_1 _) (BI.sep_mono (fac m c _ _ arrRef0_2 _) (BI.sep_mono (fac m c _ _ arrRef0_3 _) (BI.sep_mono (fac m c _ _ arrRef0_4 _) (BI.sep_mono (fac m c _ _ arrRef0_5 _) (BI.sep_mono (fac m c _ _ arrRef0_6 _) (BI.sep_mono (fac m c _ _ arrRef0_7 _) (fac m c _ _ arrRef0_8 _)))))))))
  refine BIBase.Entails.trans ?_ (Entails.of_eq (show (iprop((((c : Thread nD τ).loc main_v51) ↦{fullShare.left} V m c main_v51) ∗ (((c : Thread nD τ).loc main_v52) ↦{fullShare.left} V m c main_v52) ∗ (((c : Thread nD τ).loc main_v49) ↦{fullShare.left} V m c main_v49) ∗ (((c : Thread nD τ).loc main_v50) ↦{fullShare.left} V m c main_v50) ∗ (((c : Thread nD τ).loc main_v51) ↦{fullShare.right} V m c main_v51) ∗ (((c : Thread nD τ).loc main_v52) ↦{fullShare.right} V m c main_v52) ∗ (((c : Thread nD τ).loc main_v49) ↦{fullShare.right} V m c main_v49) ∗ (((c : Thread nD τ).loc main_v50) ↦{fullShare.right} V m c main_v50) ∗ (((c : Thread nD τ).loc main_v53) ↦{fullShare} V m c main_v53)) : sProp 𝕄) = _ from rfl))
  unfold Pipeline.arrBufs
  rw [bigSep_eq_bigSepL_of_eq [main_v51, main_v52, main_v49, main_v50, main_v53] (by decide) (by decide)]
  refine (Entails.of_eq (show _ = iprop((((c : Thread nD τ).loc main_v51) ↦{fullShare} V m c main_v51) ∗ (((c : Thread nD τ).loc main_v52) ↦{fullShare} V m c main_v52)
      ∗ (((c : Thread nD τ).loc main_v49) ↦{fullShare} V m c main_v49) ∗ (((c : Thread nD τ).loc main_v50) ↦{fullShare} V m c main_v50)
      ∗ (((c : Thread nD τ).loc main_v53) ↦{fullShare} V m c main_v53)) from rfl)).trans ?_
  have s51 : (iprop(((c : Thread nD τ).loc main_v51) ↦{fullShare} V m c main_v51) : sProp 𝕄) ⊢ iprop((((c : Thread nD τ).loc main_v51) ↦{fullShare.left} V m c main_v51) ∗ (((c : Thread nD τ).loc main_v51) ↦{fullShare.right} V m c main_v51)) :=
    (pointsTo_share (PosShare.mem_left_op_right fullShare)).1
  have s52 : (iprop(((c : Thread nD τ).loc main_v52) ↦{fullShare} V m c main_v52) : sProp 𝕄) ⊢ iprop((((c : Thread nD τ).loc main_v52) ↦{fullShare.left} V m c main_v52) ∗ (((c : Thread nD τ).loc main_v52) ↦{fullShare.right} V m c main_v52)) :=
    (pointsTo_share (PosShare.mem_left_op_right fullShare)).1
  have s49 : (iprop(((c : Thread nD τ).loc main_v49) ↦{fullShare} V m c main_v49) : sProp 𝕄) ⊢ iprop((((c : Thread nD τ).loc main_v49) ↦{fullShare.left} V m c main_v49) ∗ (((c : Thread nD τ).loc main_v49) ↦{fullShare.right} V m c main_v49)) :=
    (pointsTo_share (PosShare.mem_left_op_right fullShare)).1
  have s50 : (iprop(((c : Thread nD τ).loc main_v50) ↦{fullShare} V m c main_v50) : sProp 𝕄) ⊢ iprop((((c : Thread nD τ).loc main_v50) ↦{fullShare.left} V m c main_v50) ∗ (((c : Thread nD τ).loc main_v50) ↦{fullShare.right} V m c main_v50)) :=
    (pointsTo_share (PosShare.mem_left_op_right fullShare)).1
  iintro ⟨H51, H52, H49, H50, H53⟩
  ihave H51 := s51 $$ H51
  icases H51 with ⟨H51a, H51b⟩
  ihave H52 := s52 $$ H52
  icases H52 with ⟨H52a, H52b⟩
  ihave H49 := s49 $$ H49
  icases H49 with ⟨H49a, H49b⟩
  ihave H50 := s50 $$ H50
  icases H50 with ⟨H50a, H50b⟩
  isplitl [H51a]; · iexact H51a
  isplitl [H52a]; · iexact H52a
  isplitl [H49a]; · iexact H49a
  isplitl [H50a]; · iexact H50a
  isplitl [H51b]; · iexact H51b
  isplitl [H52b]; · iexact H52b
  isplitl [H49b]; · iexact H49b
  isplitl [H50b]; · iexact H50b
  iexact H53

set_option backward.isDefEq.respectTransparency.types false in
/-- Every weakly fair execution of the program terminates; at the end every window's array holds what the
    write-backs leave, and every other buffer that is not scoped what the launch found. -/
theorem run_main : θ_run defs (onTc (τ := τ) (main (F := F))) (s₀ m ρ) (Pipeline.FramePost cfgs (dats m) 0 (V m)) :=
  Cert.Lib.SharedLaunch.θ_run_frame_shared cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (hmain := hmain m Variants.none) (hsplit := hsplit m)
    (hin := fun _ => BI.Entails.refl _) (hout := fun _ => BI.Entails.refl _)

/-- The argument array is no window's array and is not scoped: it ends as the launch found it, which is as the
    program was started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (by decide)).trans (V_main_arg0 m c)) (run_main m ρ)

end Cert.Kernel.Hand

end
-- ==== Proof.KIMain.lean ====
/-
  The host side of the program up to its one kernel launch: the buffers' contents when the launch is reached
  are the launch contents folded through the host operations in order; the argument array is written by none of them.
-/
import proofs.«148301_j79766132621757_2_alg».proof.Proof.Gen.KernelIdeal.Launch
import proofs.«148301_j79766132621757_2_alg».proof.Proof.Gen.KernelIdeal.Skeleton
import proofs.«148301_j79766132621757_2_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

variable (m : (ℓ : Loc nD τ sig) → Buf (Elt F) ℓ) (ρ : Dev nD → PrngReg)

/-- The host operations before the launch, stretch by stretch (a called function's lines are a stretch of their own). -/
abbrev hostStretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13]

/-- Core `c`'s buffers when the launch is reached. -/
abbrev V (c : Dev nD) (b : Ref sig .tc) : Buf (Elt F) ((c : Thread nD τ).loc b) :=
  StableHlo.after (List.flatten (hostStretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor

/-- The program up to the launch is those stretches and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩) main_chain

/-- No host operation writes the argument array: the launch finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

end Cert.KernelIdeal.Hand

end
-- ==== Proof.KIBody.lean ====
/-
  The kernel body at one grid point, on whole staging buffers: the eight table blocks are read and left as they
  were, the two scratch matrices are overwritten band by band, and the output block is left at the pieces the
  run finds (one store of the product of the two scratch matrices).
-/
import proofs.«148301_j79766132621757_2_alg».proof.Proof.KIMain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Facts₀

variable {F : FTy → Type} [FloatOps F]

local notation "𝕄" => MT nD τ sig Unit (Elt F) ℕ (UR sig nD τ) ℕ

set_option maxHeartbeats 4000000 in
/-- The body's run: the pieces the output block ends with (found by the run), and the triple. -/
noncomputable def kernelRun (c : Dev nD) (i : grid0.Coords) (arg2 : Memref sig .tc .vmem S1024x8 .i32) (harg2 : arg2.IsWhole) (arg3 : Memref sig .tc .vmem S1024x8 .i32) (harg3 : arg3.IsWhole) (arg4 : Memref sig .tc .vmem S1024x8 .f32) (harg4 : arg4.IsWhole) (arg5 : Memref sig .tc .vmem S1024x8 .f32) (harg5 : arg5.IsWhole) (arg6 : Memref sig .tc .vmem S1024x8 .i32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1024x4096 .f32) (harg11 : arg11.IsWhole) (arg12 : Memref sig .tc .vmem S1024x4096 .f32) (harg12 : arg12.IsWhole)
    (x0 : Vec F S1024x8 .i32) (x1 : Vec F S1024x8 .i32) (x2 : Vec F S1024x8 .f32) (x3 : Vec F S1024x8 .f32) (x4 : Vec F S1024x8 .i32) (x5 : Vec F S1024x8 .i32) (x6 : Vec F S1024x8 .f32) (x7 : Vec F S1024x8 .f32) :
    { L : List (View.Piece (Elt F) S1024x1024 .f32) //
      ∀ (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L) ∗ (∃ d, owns (c : Thread nD τ) arg11 fullShare d) ∗ (∃ d, owns (c : Thread nD τ) arg12 fullShare d)) -∗ K ⟨⟩))
          ⊢ wp frame (wpE (defs₀ (F := F)) Variants.none c none) Set.univ (cc0__gram_kernel i arg2 harg2 arg3 harg3 arg4 harg4 arg5 harg5 arg6 harg6 arg7 harg7 arg8 harg8 arg9 harg9 arg10 harg10 arg11 harg11 arg12 harg12) K } := by
  refine ⟨?_, fun K => ?run⟩
  case run =>
    simp only [cc0__gram_kernel_eq_skeleton]; unfold cc0__gram_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexists _; isplitr
      swap; · iexact H9
      ipureintro; rfl
    · iexists _; iexists _; isplitr
      swap; · iexact H10
      ipureintro; rfl

end Cert.KernelIdeal.Hand

end
-- ==== Proof.KIRun.lean ====
/-
  The kernel launch as a whole: the proof data (each table window's staging buffer holds its block of the table,
  the output window's the block the body stores; the two scratch matrices are kept at some contents), the body at
  every grid point, the tables' buffers split between the two windows that read each, and the run.
-/
import proofs.«148301_j79766132621757_2_alg».proof.Proof.KIBody
import proofs.«148301_j79766132621757_2_alg».proof.Proof.LibSharedLaunch
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The pieces the body stores into the output block at point `t`. -/
def outL (c : Dev nD) (t : Fin cfg0.N) : List (View.Piece (Elt F) S1024x1024 .f32) :=
  (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t)).1

/-- They tile the block. -/
theorem outL_cover (c : Dev nD) (t : Fin cfg0.N) (y : S1024x1024.Idx) : ∃ pc ∈ outL m c t, y ∈ pc.1.set :=
  View.cover_of_tiledL (outL m c t) S1024x1024.size (by unfold outL; sl_kernel_rfl) y

/-- The output block after the body at point `t`. -/
def outAt (c : Dev nD) (t : Fin cfg0.N) : Vec F S1024x1024 .f32 := View.canon (outL m c t)

/-- The proof data: the arrays as the launch finds them; every table window's buffer at its block, the output's at
    the stored block; the invariant the two scratch matrices at some contents; the four tables each held in two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.scopedRest spec0 c
  q w := match w with
    | ⟨0, _⟩ => fullShare.left
    | ⟨1, _⟩ => fullShare.left
    | ⟨2, _⟩ => fullShare.left
    | ⟨3, _⟩ => fullShare.left
    | _ => fullShare.right
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]

/-- Table window 0's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Table window 1's current buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Table window 2's current buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Table window 3's current buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Table window 4's current buffer holds its block at every point, fetched there or not. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Table window 5's current buffer holds its block at every point, fetched there or not. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Table window 6's current buffer holds its block at every point, fetched there or not. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- Table window 7's current buffer holds its block at every point, fetched there or not. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the table windows' buffers hold their blocks, the scratch matrices come out of the
    invariant and go back into it, the output buffer ends at the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = (Pipeline.scopedRest spec0 c : sProp 𝕄) from rfl, scopedRest0_eq c]
  simp only [← owns_whole]
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun (F := F) c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, ⟨%e8, H8⟩, HS0, HS1⟩
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro
  exact View.read_writes_eq_canon _ _ _ (outL_cover m c t)

/-- The body obligation, at every point. -/
theorem body_obligation (c : Dev nD) : BodyObligation (dats (F := F) m 0 c) (defs₀ (F := F)) Variants.none () Set.univ := fun t => by
  rw [bigSep_W0, bigSep_W0]
  exact sound_body m c t

/-- The share each window holds its array at: the first reader of a table the left half, the second the right
    half, the output window the whole. -/
def winShare : Fin 9 → PosShare TreeShare := fun w => match w with
  | ⟨0, _⟩ => fullShare.left | ⟨1, _⟩ => fullShare.left | ⟨2, _⟩ => fullShare.left | ⟨3, _⟩ => fullShare.left
  | ⟨4, _⟩ => fullShare.right | ⟨5, _⟩ => fullShare.right | ⟨6, _⟩ => fullShare.right | ⟨7, _⟩ => fullShare.right
  | ⟨8, _⟩ => fullShare

theorem share_eq (c : Dev nD) (w : Fin cfg0.W) : (dats m 0 c).share w = winShare w := by
  unfold Dat.share
  match w with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl | ⟨8, _⟩ => rfl

theorem arrAt_zero (c : Dev nD) (w : Fin cfg0.W) : (dats m 0 c).arrAt w 0 = V m c (Pipeline.arrRef spec0 w) := A_eq m c w

theorem arrRef0_0 : Pipeline.arrRef spec0 (0 : Fin 9) = main_v51 := rfl
theorem arrRef0_1 : Pipeline.arrRef spec0 (1 : Fin 9) = main_v52 := rfl
theorem arrRef0_2 : Pipeline.arrRef spec0 (2 : Fin 9) = main_v49 := rfl
theorem arrRef0_3 : Pipeline.arrRef spec0 (3 : Fin 9) = main_v50 := rfl
theorem arrRef0_4 : Pipeline.arrRef spec0 (4 : Fin 9) = main_v51 := rfl
theorem arrRef0_5 : Pipeline.arrRef spec0 (5 : Fin 9) = main_v52 := rfl
theorem arrRef0_6 : Pipeline.arrRef spec0 (6 : Fin 9) = main_v49 := rfl
theorem arrRef0_7 : Pipeline.arrRef spec0 (7 : Fin 9) = main_v50 := rfl
theorem arrRef0_8 : Pipeline.arrRef spec0 (8 : Fin 9) = main_v53 := rfl

/-- A buffer's points-to under another name of the same buffer. -/
theorem fac (c : Dev nD) (b b' : Ref sig .tc) (h : b' = b) (q : PosShare TreeShare) :
    ((((c : Thread nD τ).loc b) ↦{q} V m c b) : sProp 𝕄) ⊢ (((c : Thread nD τ).loc b') ↦{q} V m c b') := by
  subst h; exact BI.Entails.refl _

/-- The four tables' buffers, each whole at the launch, are split in halves between the two windows that read
    each; the result's buffer goes whole to the output window. -/
theorem hsplit (c : Dev nD) : (Pipeline.arrBufs spec0 c (V m c) : sProp 𝕄) ⊢ (dats m 0 c).arrays ((dats m 0 c).arrAt · 0) := by
  have e : (dats m 0 c).arrays ((dats m 0 c).arrAt · 0) = bigSep Finset.univ fun w : Fin 9 => ((((c.tc : Thread nD τ).loc (Pipeline.arrRef spec0 w)) ↦{winShare w} V m c (Pipeline.arrRef spec0 w)) : sProp 𝕄) := by
    unfold Dat.arrays
    exact bigSep_congr fun w _ => by
      rw [(arr_whole0 w).set_eq_univ, share_eq]
      dsimp only
      rw [arrAt_zero]
  rw [e, bigSep_W0]
  simp only [winShare]
  refine BIBase.Entails.trans ?_ (BI.sep_mono (fac m c _ _ arrRef0_0 _) (BI.sep_mono (fac m c _ _ arrRef0_1 _) (BI.sep_mono (fac m c _ _ arrRef0_2 _) (BI.sep_mono (fac m c _ _ arrRef0_3 _) (BI.sep_mono (fac m c _ _ arrRef0_4 _) (BI.sep_mono (fac m c _ _ arrRef0_5 _) (BI.sep_mono (fac m c _ _ arrRef0_6 _) (BI.sep_mono (fac m c _ _ arrRef0_7 _) (fac m c _ _ arrRef0_8 _)))))))))
  refine BIBase.Entails.trans ?_ (Entails.of_eq (show (iprop((((c : Thread nD τ).loc main_v51) ↦{fullShare.left} V m c main_v51) ∗ (((c : Thread nD τ).loc main_v52) ↦{fullShare.left} V m c main_v52) ∗ (((c : Thread nD τ).loc main_v49) ↦{fullShare.left} V m c main_v49) ∗ (((c : Thread nD τ).loc main_v50) ↦{fullShare.left} V m c main_v50) ∗ (((c : Thread nD τ).loc main_v51) ↦{fullShare.right} V m c main_v51) ∗ (((c : Thread nD τ).loc main_v52) ↦{fullShare.right} V m c main_v52) ∗ (((c : Thread nD τ).loc main_v49) ↦{fullShare.right} V m c main_v49) ∗ (((c : Thread nD τ).loc main_v50) ↦{fullShare.right} V m c main_v50) ∗ (((c : Thread nD τ).loc main_v53) ↦{fullShare} V m c main_v53)) : sProp 𝕄) = _ from rfl))
  unfold Pipeline.arrBufs
  rw [bigSep_eq_bigSepL_of_eq [main_v51, main_v52, main_v49, main_v50, main_v53] (by decide) (by decide)]
  refine (Entails.of_eq (show _ = iprop((((c : Thread nD τ).loc main_v51) ↦{fullShare} V m c main_v51) ∗ (((c : Thread nD τ).loc main_v52) ↦{fullShare} V m c main_v52)
      ∗ (((c : Thread nD τ).loc main_v49) ↦{fullShare} V m c main_v49) ∗ (((c : Thread nD τ).loc main_v50) ↦{fullShare} V m c main_v50)
      ∗ (((c : Thread nD τ).loc main_v53) ↦{fullShare} V m c main_v53)) from rfl)).trans ?_
  have s51 : (iprop(((c : Thread nD τ).loc main_v51) ↦{fullShare} V m c main_v51) : sProp 𝕄) ⊢ iprop((((c : Thread nD τ).loc main_v51) ↦{fullShare.left} V m c main_v51) ∗ (((c : Thread nD τ).loc main_v51) ↦{fullShare.right} V m c main_v51)) :=
    (pointsTo_share (PosShare.mem_left_op_right fullShare)).1
  have s52 : (iprop(((c : Thread nD τ).loc main_v52) ↦{fullShare} V m c main_v52) : sProp 𝕄) ⊢ iprop((((c : Thread nD τ).loc main_v52) ↦{fullShare.left} V m c main_v52) ∗ (((c : Thread nD τ).loc main_v52) ↦{fullShare.right} V m c main_v52)) :=
    (pointsTo_share (PosShare.mem_left_op_right fullShare)).1
  have s49 : (iprop(((c : Thread nD τ).loc main_v49) ↦{fullShare} V m c main_v49) : sProp 𝕄) ⊢ iprop((((c : Thread nD τ).loc main_v49) ↦{fullShare.left} V m c main_v49) ∗ (((c : Thread nD τ).loc main_v49) ↦{fullShare.right} V m c main_v49)) :=
    (pointsTo_share (PosShare.mem_left_op_right fullShare)).1
  have s50 : (iprop(((c : Thread nD τ).loc main_v50) ↦{fullShare} V m c main_v50) : sProp 𝕄) ⊢ iprop((((c : Thread nD τ).loc main_v50) ↦{fullShare.left} V m c main_v50) ∗ (((c : Thread nD τ).loc main_v50) ↦{fullShare.right} V m c main_v50)) :=
    (pointsTo_share (PosShare.mem_left_op_right fullShare)).1
  iintro ⟨H51, H52, H49, H50, H53⟩
  ihave H51 := s51 $$ H51
  icases H51 with ⟨H51a, H51b⟩
  ihave H52 := s52 $$ H52
  icases H52 with ⟨H52a, H52b⟩
  ihave H49 := s49 $$ H49
  icases H49 with ⟨H49a, H49b⟩
  ihave H50 := s50 $$ H50
  icases H50 with ⟨H50a, H50b⟩
  isplitl [H51a]; · iexact H51a
  isplitl [H52a]; · iexact H52a
  isplitl [H49a]; · iexact H49a
  isplitl [H50a]; · iexact H50a
  isplitl [H51b]; · iexact H51b
  isplitl [H52b]; · iexact H52b
  isplitl [H49b]; · iexact H49b
  isplitl [H50b]; · iexact H50b
  iexact H53

set_option backward.isDefEq.respectTransparency.types false in
/-- Every weakly fair execution of the program terminates; at the end every window's array holds what the
    write-backs leave, and every other buffer that is not scoped what the launch found. -/
theorem run_main : θ_run defs (onTc (τ := τ) (main (F := F))) (s₀ m ρ) (Pipeline.FramePost cfgs (dats m) 0 (V m)) :=
  Cert.Lib.SharedLaunch.θ_run_frame_shared cfgs (dats m) (0 : Fin 1) defs₀ Variants.none cellOf_inj winFacts₀0 m ρ main
    (hbody := fun c => (body_obligation m c).loose) (hne := block_pos0) (harr := arr_whole0) (hstage := stage_whole0)
    (howed := fun _ _ => rfl) (V := V m) (hmain := hmain m Variants.none) (hsplit := hsplit m)
    (hin := fun _ => BI.Entails.refl _) (hout := fun _ => BI.Entails.refl _)

/-- The argument array is no window's array and is not scoped: it ends as the launch found it, which is as the
    program was started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (by decide)).trans (V_main_arg0 m c)) (run_main m ρ)

end Cert.KernelIdeal.Hand

end
-- ==== Proof.Spec.lean ====
/-
  The Gram matrix of a banded interpolation Jacobian, as a plain function of four tables.

  A data point `P` has, in each of 8 bands `b`, a left cell `li (P, b)` with weight `lw (P, b)` and a right
  cell `ri (P, b)` with weight `rw (P, b)`.  Row `P` of the Jacobian has 8 · 512 columns; column
  `k = 512 · b + g` holds the left weight when `g` is the left cell plus the right weight when `g` is the
  right cell (`hot`).  The result is the matrix of inner products of the rows.
-/
import Idealize.ShloMosaic.PureOps.Ideal
import Idealize.ShloMosaic.Lib.ValueIdx

noncomputable section

open scoped BigOperators

namespace Cert.Gram

open Idealize.ShloMosaic Idealize.ShloMosaic.ValueIdx

/-- The table shape: 8192 points by 8 bands. -/
abbrev ST : Shape := ⟨2, ![8192, 8]⟩

/-- The entry of one band's row at grid cell `g`: the left weight `a` if `g` is the left cell `l`, plus the
    right weight `b` if `g` is the right cell `r` (cells compared as 32-bit words). -/
def hot (l r : BitVec 32) (a b : EReal) (g : Nat) : EReal :=
  (if BitVec.ofNat 32 g = l then a else 0) + (if BitVec.ofNat 32 g = r then b else 0)

/-- The band of column `k`. -/
def band (k : Fin 4096) : Fin 8 := ⟨k.val / 512, by omega⟩

/-- Entry `(P, k)` of the Jacobian. -/
def J (li ri : ST.Idx → BitVec 32) (lw rw : ST.Idx → EReal) (P : Fin 8192) (k : Fin 4096) : EReal :=
  hot (li (ix2 P (band k))) (ri (ix2 P (band k))) (lw (ix2 P (band k))) (rw (ix2 P (band k))) (k.val % 512)

/-- Entry `(P, Q)` of the Gram matrix `J Jᵀ`. -/
def gram (li ri : ST.Idx → BitVec 32) (lw rw : ST.Idx → EReal) (P Q : Fin 8192) : EReal :=
  ∑ k : Fin 4096, J li ri lw rw P k * J li ri lw rw Q k

end Cert.Gram

end
-- ==== Proof.LibMatmulLastAxes.lean ====
/-
  A matrix product of two rank-2 arrays that contracts the LAST axis of both operands, read at coordinates.
  For dimension numbers that contract the left operand's second axis against the right operand's second axis, keep the
  left rows and the right rows and have no batch axis (lhs [a, k], rhs [b, k], result [a, b]: lhs · rhsᵀ without a
  transpose), the entry (p, q) of the product is the sum over the contracted position j of lhs (p, j) · rhs (q, j): the
  inner product of row p of the left operand with row q of the right. Both the matrix unit's product into a zero
  accumulator and the host's dot product are that sum on the extended reals.
-/
import Idealize.ShloMosaic.Lib.ValueIdx
import Idealize.ShloMosaic.PureOps.Ideal.Laws

open scoped BigOperators

namespace Cert.LibMatmulLastAxes

open Idealize.ShloMosaic Idealize.ShloMosaic.ValueIdx

variable {a k b : ℕ} (d : DotDims ⟨2, ![a, k]⟩ ⟨2, ![b, k]⟩ ⟨2, ![a, b]⟩)

/-- One contracted axis. -/
theorem contr_rank (hl : d.lhsContracting = [1]) : d.contr.rank = 1 := by
  rw [d.rank_contr, hl]; rfl

/-- Its extent is the shared inner extent k. -/
theorem contr_size (hl : d.lhsContracting = [1]) :
    d.contr.size ⟨0, by rw [contr_rank d hl]; exact Nat.one_pos⟩ = k := by
  rw [d.size_contr 0 (by rw [hl]; exact Nat.one_pos), List.getElem_of_eq hl]
  rfl

/-- The contraction index is its one coordinate. -/
noncomputable def contrEquiv (hl : d.lhsContracting = [1]) : d.contr.Idx ≃ Fin k :=
  contrEquiv1 d k (contr_rank d hl) (contr_size d hl)

/-- The left operand is read at row p, contracted position j. -/
theorem lhsIdx_ix2 (hl : d.lhsContracting = [1]) (hln : d.lhsNonContracting = [0]) (hlb : d.lhsBatch = [])
    (p : Fin a) (q : Fin b) (j : Fin k) :
    d.lhsIdx (ix2 p q) ((contrEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((contrEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((contrEquiv d hl).symm j) (1 : Fin 2)).val = j.val
    rw [d.lhsIdx_val_of_single hl]
    exact contrEquiv1_symm_val d k (contr_rank d hl) (contr_size d hl) j

/-- The right operand is read at row q, contracted position j. -/
theorem rhsIdx_ix2 (hl : d.lhsContracting = [1]) (hr : d.rhsContracting = [1]) (hln : d.lhsNonContracting = [0])
    (hrn : d.rhsNonContracting = [0]) (hlb : d.lhsBatch = []) (hrb : d.rhsBatch = [])
    (p : Fin a) (q : Fin b) (j : Fin k) :
    d.rhsIdx (ix2 p q) ((contrEquiv d hl).symm j) = ix2 q j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_singleton.mpr rfl
    show (d.rhsIdx (ix2 p q) ((contrEquiv d hl).symm j) (0 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])
  | ⟨1, _⟩ =>
    show (d.rhsIdx (ix2 p q) ((contrEquiv d hl).symm j) (1 : Fin 2)).val = j.val
    rw [d.rhsIdx_val_of_single hr]
    exact contrEquiv1_symm_val d k (contr_rank d hl) (contr_size d hl) j

variable {φ₁ φ₂ : FTy}

/-- The matrix unit's product into the zero accumulator, at (p, q). -/
theorem matmul_zero_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (lhs : FVec Ideal ⟨2, ![a, k]⟩ φ₁) (rhs : FVec Ideal ⟨2, ![b, k]⟩ φ₂)
    (p : Fin a) (q : Fin b) :
    FloatOps.matmul d prec lhs rhs (constant ⟨2, ![a, b]⟩ .f32 0x00000000#32) (ix2 p q)
      = ∑ j : Fin k, lhs (ix2 p j) * rhs (ix2 q j) := by
  rw [Ideal.matmul_constant_zero_apply, ← Equiv.sum_comp (contrEquiv d hl).symm]
  refine Finset.sum_congr rfl fun j _ => ?_
  rw [lhsIdx_ix2 d hl hln hlb p q j, rhsIdx_ix2 d hl hr hln hrn hlb hrb p q j]

/-- The host's dot product, at (p, q). -/
theorem dotGeneral_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![a, k]⟩ φ₁) (rhs : FVec Ideal ⟨2, ![b, k]⟩ φ₂)
    (p : Fin a) (q : Fin b) :
    FloatOps.dotGeneral d prec sched lhs rhs (ix2 p q) = ∑ j : Fin k, lhs (ix2 p j) * rhs (ix2 q j) := by
  rw [Ideal.dotGeneral_apply, ← Equiv.sum_comp (contrEquiv d hl).symm]
  refine Finset.sum_congr rfl fun j _ => ?_
  rw [lhsIdx_ix2 d hl hln hlb p q j, rhsIdx_ix2 d hl hr hln hrn hlb hrb p q j]

end Cert.LibMatmulLastAxes
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.Bands.lean ====
/-
  The kernel body's arithmetic read at an index, on the extended reals.

  Each of the sixteen band values the body stores is, at row `p` and cell `g` of its band `b`, the band's left
  weight when `g` is the left cell plus the band's right weight when `g` is the right cell: the row of the banded
  interpolation matrix. The body's one matrix product is, at `(p, q)`, the inner product of row `p` of its left operand
  with row `q` of its right operand.
-/
import proofs.«148301_j79766132621757_2_alg».proof.Proof.Gen.KernelIdeal.Skeleton
import proofs.«148301_j79766132621757_2_alg».proof.Proof.Spec
import proofs.«148301_j79766132621757_2_alg».proof.Proof.LibMatmulLastAxes
import proofs.«148301_j79766132621757_2_alg».proof.Proof.LibColumns
import Idealize.ShloMosaic.Lib.ValueIdx
import Idealize.ShloMosaic.Lib.Pipeline.Value
import Idealize.ShloMosaic.PureOps.Ideal.Laws

noncomputable section

open scoped BigOperators

namespace Cert.KernelIdeal.Bands

open Idealize.ShloMosaic Idealize.ShloMosaic.ValueIdx
open Cert.KernelIdeal Cert.KernelIdeal.Gen

variable [Cert.KernelIdeal.Facts]

/-- A select on the bit of an equality test is the `if` on the equality. -/
theorem select_cmpi_eq {α : Type} {w : Nat} (x y : BitVec w) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

/-- Column `b` of an 8-column table, sliced out as a one-column table, reads the table at `(p, b)`. -/
theorem slice_col_apply {α : Type} (b : Fin 8) (x : S1024x8.Idx → α) (h : S1024x8.Slices ![0, b.val] S1024x1)
    (p : Fin 1024) (u : Fin 1) : extractStridedSlice S1024x1 ![0, b.val] x h (ix2 p u) = x (ix2 p b) := by
  refine extractStridedSlice_apply _ x h (ix2 p u) (ix2 p b) fun a => ?_
  match a with
  | ⟨0, _⟩ => show p.val = 0 + p.val; omega
  | ⟨1, _⟩ => show b.val = b.val + u.val; omega

/-- The cell counter along a band reads the cell's number. -/
theorem cells_apply (h : S1024x512.Iotas .tc 32 [1]) (p : Fin 1024) (g : Fin 512) :
    iota .tc S1024x512 32 [1] h (ix2 p g) = BitVec.ofNat 32 g.val :=
  iota_single_apply .tc S1024x512 32 1 h (ix2 p g)

/-- One band of one row: the left weight where the cell counter meets the left cell, plus the right weight where it meets
    the right cell. -/
theorem band_apply (b : Fin 8) (cL cR : IVec S1024x8 32) (wL wR : FVec Ideal S1024x8 .f32)
    (h : S1024x8.Slices ![0, b.val] S1024x1) (hio : S1024x512.Iotas .tc 32 [1])
    (hb : S1024x1.Broadcasts S1024x512) (hc1 : S1024x1.ShapeCasts S1024x1) (hc : S1024x512.ShapeCasts S1024x512)
    (z1 z2 : Ideal .f32) (hz1 : z1 = 0) (hz2 : z2 = 0) (p : Fin 1024) (g : Fin 512) :
    shapeCast S1024x512
      (addf
        (select (cmpi .eq (iota .tc S1024x512 32 [1] hio) (broadcastTo S1024x512 (extractStridedSlice S1024x1 ![0, b.val] cL h) hb))
          (broadcastTo S1024x512 (shapeCast S1024x1 (extractStridedSlice S1024x1 ![0, b.val] wL h) hc1) hb)
          (broadcast S1024x512 z1))
        (select (cmpi .eq (iota .tc S1024x512 32 [1] hio) (broadcastTo S1024x512 (extractStridedSlice S1024x1 ![0, b.val] cR h) hb))
          (broadcastTo S1024x512 (shapeCast S1024x1 (extractStridedSlice S1024x1 ![0, b.val] wR h) hc1) hb)
          (broadcast S1024x512 z2))) hc (ix2 p g)
      = Cert.Gram.hot (cL (ix2 p b)) (cR (ix2 p b)) (wL (ix2 p b)) (wR (ix2 p b)) g.val := by
  subst hz1 hz2
  rw [shapeCast_self, addf_apply, select_apply, select_apply, shapeCast_self, shapeCast_self]
  show Scalar.select (IntOp.cmpi .eq (iota .tc S1024x512 32 [1] hio (ix2 p g)) (broadcastTo S1024x512 _ hb (ix2 p g))) (broadcastTo S1024x512 _ hb (ix2 p g)) 0
     + Scalar.select (IntOp.cmpi .eq (iota .tc S1024x512 32 [1] hio (ix2 p g)) (broadcastTo S1024x512 _ hb (ix2 p g))) (broadcastTo S1024x512 _ hb (ix2 p g)) 0 = _
  rw [cells_apply, broadcastTo_a1_ab_apply, broadcastTo_a1_ab_apply, broadcastTo_a1_ab_apply, broadcastTo_a1_ab_apply,
    slice_col_apply, slice_col_apply, slice_col_apply, slice_col_apply, select_cmpi_eq, select_cmpi_eq]
  rfl

/-- The zero pattern of the 32-bit format is the extended real 0. -/
theorem zero_f32 : (Scalar.ofBits .f32 0x00000000#32 : Ideal .f32) = 0 := Ideal.ofBits_zero_f32

/-! ## A loaded table block cast to its own shape is the block -/

theorem k0_pay3_eq (v0 : Vec Ideal S1024x8 .i32) : k0_pay3 (F := Ideal) v0 = v0 := shapeCast_self _ _
theorem k0_pay4_eq (v2 : Vec Ideal S1024x8 .i32) : k0_pay4 (F := Ideal) v2 = v2 := shapeCast_self _ _
theorem k0_pay5_eq (v4 : Vec Ideal S1024x8 .f32) : k0_pay5 (F := Ideal) v4 = v4 := shapeCast_self _ _
theorem k0_pay6_eq (v6 : Vec Ideal S1024x8 .f32) : k0_pay6 (F := Ideal) v6 = v6 := shapeCast_self _ _
theorem k0_pay7_eq (v8 : Vec Ideal S1024x8 .i32) : k0_pay7 (F := Ideal) v8 = v8 := shapeCast_self _ _
theorem k0_pay8_eq (v10 : Vec Ideal S1024x8 .i32) : k0_pay8 (F := Ideal) v10 = v10 := shapeCast_self _ _
theorem k0_pay9_eq (v12 : Vec Ideal S1024x8 .f32) : k0_pay9 (F := Ideal) v12 = v12 := shapeCast_self _ _
theorem k0_pay10_eq (v14 : Vec Ideal S1024x8 .f32) : k0_pay10 (F := Ideal) v14 = v14 := shapeCast_self _ _

/-! ## The eight bands of the first table set -/

/-- Band 0 of the first table set, at row `p`, cell `g`. -/
theorem bandA0 (v0 v2 : Vec Ideal S1024x8 .i32) (v4 v6 : Vec Ideal S1024x8 .f32) (p : Fin 1024) (g : Fin 512) :
    k0_pay11 v0 v2 v4 v6 (ix2 p g)
      = Cert.Gram.hot (v0 (ix2 p (0 : Fin 8))) (v2 (ix2 p (0 : Fin 8))) (v4 (ix2 p (0 : Fin 8))) (v6 (ix2 p (0 : Fin 8))) g.val := by
  unfold k0_pay11
  rw [k0_pay3_eq, k0_pay4_eq, k0_pay5_eq, k0_pay6_eq]
  exact band_apply 0 v0 v2 v4 v6 _ _ _ _ _ _ _ zero_f32 zero_f32 p g

/-- Band 1 of the first table set, at row `p`, cell `g`. -/
theorem bandA1 (v0 v2 : Vec Ideal S1024x8 .i32) (v4 v6 : Vec Ideal S1024x8 .f32) (p : Fin 1024) (g : Fin 512) :
    k0_pay13 (k0_pay3 v0) (k0_pay4 v2) (k0_pay5 v4) (k0_pay6 v6) (iota .tc S1024x512 32 [1] Gen.iota_S1024x512_d1_w32) (ix2 p g)
      = Cert.Gram.hot (v0 (ix2 p (1 : Fin 8))) (v2 (ix2 p (1 : Fin 8))) (v4 (ix2 p (1 : Fin 8))) (v6 (ix2 p (1 : Fin 8))) g.val := by
  rw [k0_pay3_eq, k0_pay4_eq, k0_pay5_eq, k0_pay6_eq]
  unfold k0_pay13
  exact band_apply 1 v0 v2 v4 v6 _ _ _ _ _ _ _ zero_f32 zero_f32 p g

/-- Band 2 of the first table set, at row `p`, cell `g`. -/
theorem bandA2 (v0 v2 : Vec Ideal S1024x8 .i32) (v4 v6 : Vec Ideal S1024x8 .f32) (p : Fin 1024) (g : Fin 512) :
    k0_pay19 (k0_pay3 v0) (k0_pay4 v2) (k0_pay5 v4) (k0_pay6 v6) (iota .tc S1024x512 32 [1] Gen.iota_S1024x512_d1_w32) (ix2 p g)
      = Cert.Gram.hot (v0 (ix2 p (2 : Fin 8))) (v2 (ix2 p (2 : Fin 8))) (v4 (ix2 p (2 : Fin 8))) (v6 (ix2 p (2 : Fin 8))) g.val := by
  rw [k0_pay3_eq, k0_pay4_eq, k0_pay5_eq, k0_pay6_eq]
  unfold k0_pay19
  exact band_apply 2 v0 v2 v4 v6 _ _ _ _ _ _ _ zero_f32 zero_f32 p g

/-- Band 3 of the first table set, at row `p`, cell `g`. -/
theorem bandA3 (v0 v2 : Vec Ideal S1024x8 .i32) (v4 v6 : Vec Ideal S1024x8 .f32) (p : Fin 1024) (g : Fin 512) :
    k0_pay22 (k0_pay3 v0) (k0_pay4 v2) (k0_pay5 v4) (k0_pay6 v6) (iota .tc S1024x512 32 [1] Gen.iota_S1024x512_d1_w32) (ix2 p g)
      = Cert.Gram.hot (v0 (ix2 p (3 : Fin 8))) (v2 (ix2 p (3 : Fin 8))) (v4 (ix2 p (3 : Fin 8))) (v6 (ix2 p (3 : Fin 8))) g.val := by
  rw [k0_pay3_eq, k0_pay4_eq, k0_pay5_eq, k0_pay6_eq]
  unfold k0_pay22
  exact band_apply 3 v0 v2 v4 v6 _ _ _ _ _ _ _ zero_f32 zero_f32 p g

/-- Band 4 of the first table set, at row `p`, cell `g`. -/
theorem bandA4 (v0 v2 : Vec Ideal S1024x8 .i32) (v4 v6 : Vec Ideal S1024x8 .f32) (p : Fin 1024) (g : Fin 512) :
    k0_pay28 (iota .tc S1024x512 32 [1] Gen.iota_S1024x512_d1_w32) (k0_pay24 (k0_pay3 v0)) (k0_pay25 (k0_pay4 v2)) (k0_pay26 (k0_pay5 v4)) (k0_pay27 (k0_pay6 v6)) (ix2 p g)
      = Cert.Gram.hot (v0 (ix2 p (4 : Fin 8))) (v2 (ix2 p (4 : Fin 8))) (v4 (ix2 p (4 : Fin 8))) (v6 (ix2 p (4 : Fin 8))) g.val := by
  rw [k0_pay3_eq, k0_pay4_eq, k0_pay5_eq, k0_pay6_eq]
  unfold k0_pay28 k0_pay24 k0_pay25 k0_pay26 k0_pay27
  exact band_apply 4 v0 v2 v4 v6 _ _ _ _ _ _ _ zero_f32 zero_f32 p g

/-- Band 5 of the first table set, at row `p`, cell `g`. -/
theorem bandA5 (v0 v2 : Vec Ideal S1024x8 .i32) (v4 v6 : Vec Ideal S1024x8 .f32) (p : Fin 1024) (g : Fin 512) :
    k0_pay33 (k0_pay30 (k0_pay6 v6)) (k0_pay31 (k0_pay3 v0) (k0_pay5 v4) (iota .tc S1024x512 32 [1] Gen.iota_S1024x512_d1_w32)) (k0_pay32 (k0_pay4 v2) (iota .tc S1024x512 32 [1] Gen.iota_S1024x512_d1_w32)) (Scalar.ofBits .f32 0x00000000#32) (ix2 p g)
      = Cert.Gram.hot (v0 (ix2 p (5 : Fin 8))) (v2 (ix2 p (5 : Fin 8))) (v4 (ix2 p (5 : Fin 8))) (v6 (ix2 p (5 : Fin 8))) g.val := by
  rw [k0_pay3_eq, k0_pay4_eq, k0_pay5_eq, k0_pay6_eq]
  unfold k0_pay33 k0_pay30 k0_pay31 k0_pay32
  exact band_apply 5 v0 v2 v4 v6 _ _ _ _ _ _ _ zero_f32 zero_f32 p g

/-- Band 6 of the first table set, at row `p`, cell `g`. -/
theorem bandA6 (v0 v2 : Vec Ideal S1024x8 .i32) (v4 v6 : Vec Ideal S1024x8 .f32) (p : Fin 1024) (g : Fin 512) :
    k0_pay35 (k0_pay3 v0) (k0_pay4 v2) (k0_pay5 v4) (k0_pay6 v6) (iota .tc S1024x512 32 [1] Gen.iota_S1024x512_d1_w32) (ix2 p g)
      = Cert.Gram.hot (v0 (ix2 p (6 : Fin 8))) (v2 (ix2 p (6 : Fin 8))) (v4 (ix2 p (6 : Fin 8))) (v6 (ix2 p (6 : Fin 8))) g.val := by
  rw [k0_pay3_eq, k0_pay4_eq, k0_pay5_eq, k0_pay6_eq]
  unfold k0_pay35
  exact band_apply 6 v0 v2 v4 v6 _ _ _ _ _ _ _ zero_f32 zero_f32 p g

/-- Band 7 of the first table set, at row `p`, cell `g`. -/
theorem bandA7 (v0 v2 : Vec Ideal S1024x8 .i32) (v4 v6 : Vec Ideal S1024x8 .f32) (p : Fin 1024) (g : Fin 512) :
    k0_pay37 (k0_pay3 v0) (k0_pay4 v2) (k0_pay5 v4) (k0_pay6 v6) (iota .tc S1024x512 32 [1] Gen.iota_S1024x512_d1_w32) (ix2 p g)
      = Cert.Gram.hot (v0 (ix2 p (7 : Fin 8))) (v2 (ix2 p (7 : Fin 8))) (v4 (ix2 p (7 : Fin 8))) (v6 (ix2 p (7 : Fin 8))) g.val := by
  rw [k0_pay3_eq, k0_pay4_eq, k0_pay5_eq, k0_pay6_eq]
  unfold k0_pay37
  exact band_apply 7 v0 v2 v4 v6 _ _ _ _ _ _ _ zero_f32 zero_f32 p g

/-! ## The eight bands of the second table set -/

/-- Band 0 of the second table set, at row `p`, cell `g`. -/
theorem bandB0 (v8 v10 : Vec Ideal S1024x8 .i32) (v12 v14 : Vec Ideal S1024x8 .f32) (p : Fin 1024) (g : Fin 512) :
    k0_pay12 (k0_pay7 v8) (k0_pay8 v10) (k0_pay9 v12) (k0_pay10 v14) (iota .tc S1024x512 32 [1] Gen.iota_S1024x512_d1_w32) (ix2 p g)
      = Cert.Gram.hot (v8 (ix2 p (0 : Fin 8))) (v10 (ix2 p (0 : Fin 8))) (v12 (ix2 p (0 : Fin 8))) (v14 (ix2 p (0 : Fin 8))) g.val := by
  rw [k0_pay7_eq, k0_pay8_eq, k0_pay9_eq, k0_pay10_eq]
  unfold k0_pay12
  exact band_apply 0 v8 v10 v12 v14 _ _ _ _ _ _ _ zero_f32 zero_f32 p g

/-- Band 1 of the second table set, at row `p`, cell `g`. -/
theorem bandB1 (v8 v10 : Vec Ideal S1024x8 .i32) (v12 v14 : Vec Ideal S1024x8 .f32) (p : Fin 1024) (g : Fin 512) :
    k0_pay18 (iota .tc S1024x512 32 [1] Gen.iota_S1024x512_d1_w32) (k0_pay14 (k0_pay8 v10)) (k0_pay15 (k0_pay10 v14)) (k0_pay16 (k0_pay7 v8) (iota .tc S1024x512 32 [1] Gen.iota_S1024x512_d1_w32)) (Scalar.ofBits .f32 0x00000000#32) (k0_pay17 (k0_pay9 v12)) (ix2 p g)
      = Cert.Gram.hot (v8 (ix2 p (1 : Fin 8))) (v10 (ix2 p (1 : Fin 8))) (v12 (ix2 p (1 : Fin 8))) (v14 (ix2 p (1 : Fin 8))) g.val := by
  rw [k0_pay7_eq, k0_pay8_eq, k0_pay9_eq, k0_pay10_eq]
  unfold k0_pay18 k0_pay14 k0_pay15 k0_pay16 k0_pay17
  exact band_apply 1 v8 v10 v12 v14 _ _ _ _ _ _ _ zero_f32 zero_f32 p g

/-- Band 2 of the second table set, at row `p`, cell `g`. -/
theorem bandB2 (v8 v10 : Vec Ideal S1024x8 .i32) (v12 v14 : Vec Ideal S1024x8 .f32) (p : Fin 1024) (g : Fin 512) :
    k0_pay21 (k0_pay20 (k0_pay7 v8) (k0_pay8 v10) (k0_pay9 v12) (k0_pay10 v14) (iota .tc S1024x512 32 [1] Gen.iota_S1024x512_d1_w32)) (ix2 p g)
      = Cert.Gram.hot (v8 (ix2 p (2 : Fin 8))) (v10 (ix2 p (2 : Fin 8))) (v12 (ix2 p (2 : Fin 8))) (v14 (ix2 p (2 : Fin 8))) g.val := by
  rw [k0_pay7_eq, k0_pay8_eq, k0_pay9_eq, k0_pay10_eq]
  unfold k0_pay21 k0_pay20
  exact band_apply 2 v8 v10 v12 v14 _ _ _ _ _ _ _ zero_f32 zero_f32 p g

/-- Band 3 of the second table set, at row `p`, cell `g`. -/
theorem bandB3 (v8 v10 : Vec Ideal S1024x8 .i32) (v12 v14 : Vec Ideal S1024x8 .f32) (p : Fin 1024) (g : Fin 512) :
    k0_pay23 (k0_pay7 v8) (k0_pay8 v10) (k0_pay9 v12) (k0_pay10 v14) (iota .tc S1024x512 32 [1] Gen.iota_S1024x512_d1_w32) (ix2 p g)
      = Cert.Gram.hot (v8 (ix2 p (3 : Fin 8))) (v10 (ix2 p (3 : Fin 8))) (v12 (ix2 p (3 : Fin 8))) (v14 (ix2 p (3 : Fin 8))) g.val := by
  rw [k0_pay7_eq, k0_pay8_eq, k0_pay9_eq, k0_pay10_eq]
  unfold k0_pay23
  exact band_apply 3 v8 v10 v12 v14 _ _ _ _ _ _ _ zero_f32 zero_f32 p g

/-- Band 4 of the second table set, at row `p`, cell `g`. -/
theorem bandB4 (v8 v10 : Vec Ideal S1024x8 .i32) (v12 v14 : Vec Ideal S1024x8 .f32) (p : Fin 1024) (g : Fin 512) :
    k0_pay29 (k0_pay7 v8) (k0_pay8 v10) (k0_pay9 v12) (k0_pay10 v14) (iota .tc S1024x512 32 [1] Gen.iota_S1024x512_d1_w32) (ix2 p g)
      = Cert.Gram.hot (v8 (ix2 p (4 : Fin 8))) (v10 (ix2 p (4 : Fin 8))) (v12 (ix2 p (4 : Fin 8))) (v14 (ix2 p (4 : Fin 8))) g.val := by
  rw [k0_pay7_eq, k0_pay8_eq, k0_pay9_eq, k0_pay10_eq]
  unfold k0_pay29
  exact band_apply 4 v8 v10 v12 v14 _ _ _ _ _ _ _ zero_f32 zero_f32 p g

/-- Band 5 of the second table set, at row `p`, cell `g`. -/
theorem bandB5 (v8 v10 : Vec Ideal S1024x8 .i32) (v12 v14 : Vec Ideal S1024x8 .f32) (p : Fin 1024) (g : Fin 512) :
    k0_pay34 (k0_pay7 v8) (k0_pay8 v10) (k0_pay9 v12) (k0_pay10 v14) (iota .tc S1024x512 32 [1] Gen.iota_S1024x512_d1_w32) (ix2 p g)
      = Cert.Gram.hot (v8 (ix2 p (5 : Fin 8))) (v10 (ix2 p (5 : Fin 8))) (v12 (ix2 p (5 : Fin 8))) (v14 (ix2 p (5 : Fin 8))) g.val := by
  rw [k0_pay7_eq, k0_pay8_eq, k0_pay9_eq, k0_pay10_eq]
  unfold k0_pay34
  exact band_apply 5 v8 v10 v12 v14 _ _ _ _ _ _ _ zero_f32 zero_f32 p g

/-- Band 6 of the second table set, at row `p`, cell `g`. -/
theorem bandB6 (v8 v10 : Vec Ideal S1024x8 .i32) (v12 v14 : Vec Ideal S1024x8 .f32) (p : Fin 1024) (g : Fin 512) :
    k0_pay36 (k0_pay7 v8) (k0_pay8 v10) (k0_pay9 v12) (k0_pay10 v14) (iota .tc S1024x512 32 [1] Gen.iota_S1024x512_d1_w32) (ix2 p g)
      = Cert.Gram.hot (v8 (ix2 p (6 : Fin 8))) (v10 (ix2 p (6 : Fin 8))) (v12 (ix2 p (6 : Fin 8))) (v14 (ix2 p (6 : Fin 8))) g.val := by
  rw [k0_pay7_eq, k0_pay8_eq, k0_pay9_eq, k0_pay10_eq]
  unfold k0_pay36
  exact band_apply 6 v8 v10 v12 v14 _ _ _ _ _ _ _ zero_f32 zero_f32 p g

/-- Band 7 of the second table set, at row `p`, cell `g`. -/
theorem bandB7 (v8 v10 : Vec Ideal S1024x8 .i32) (v12 v14 : Vec Ideal S1024x8 .f32) (p : Fin 1024) (g : Fin 512) :
    k0_pay1 (iota .tc S1024x512 32 [1] Gen.iota_S1024x512_d1_w32) (k0_pay38 (k0_pay8 v10)) (k0_pay39 (k0_pay10 v14)) (k0_pay40 (k0_pay7 v8) (iota .tc S1024x512 32 [1] Gen.iota_S1024x512_d1_w32)) (Scalar.ofBits .f32 0x00000000#32) (k0_pay41 (k0_pay9 v12)) (ix2 p g)
      = Cert.Gram.hot (v8 (ix2 p (7 : Fin 8))) (v10 (ix2 p (7 : Fin 8))) (v12 (ix2 p (7 : Fin 8))) (v14 (ix2 p (7 : Fin 8))) g.val := by
  rw [k0_pay7_eq, k0_pay8_eq, k0_pay9_eq, k0_pay10_eq]
  unfold k0_pay1 k0_pay38 k0_pay39 k0_pay40 k0_pay41
  exact band_apply 7 v8 v10 v12 v14 _ _ _ _ _ _ _ zero_f32 zero_f32 p g

/-! ## The product of the two row blocks -/

/-- The body's matrix product at `(p, q)`: the inner product of row `p` of the left block with row `q` of the right. -/
theorem gram_apply (A B : Vec Ideal S1024x4096 .f32) (p q : Fin 1024) :
    k0_pay2 (F := Ideal) A B (ix2 p q) = ∑ k : Fin 4096, A (ix2 p k) * B (ix2 q k) := by
  unfold k0_pay2
  exact Cert.LibMatmulLastAxes.matmul_zero_rows dot_S1024x4096_S1024x4096_S1024x1024_1_1_0_0_n_n rfl rfl rfl rfl rfl rfl
    (some .fp32) A B p q

end Cert.KernelIdeal.Bands

end
-- ==== Proof.BlockValue.lean ====
/-
  The two row blocks the body assembles, and their product, read at an index.

  Each scratch matrix of 1024 rows and 4096 columns is written as eight column blocks of 512, block `b` holding band `b`
  of the row's tables. Read back as one matrix, entry `(p, k)` is the band-`k / 512` entry at cell `k % 512`: the row
  of the banded interpolation matrix. The product of the two blocks at `(p, q)` is the inner product of row `p` of the
  first with row `q` of the second.
-/
import proofs.«148301_j79766132621757_2_alg».proof.Proof.Bands
import Idealize.ShloMosaic.Lib.Pipeline.FrameBody
import Idealize.ShloMosaic.Lib.Pipeline.Value
import Idealize.ShloMosaic.Lib.Ring
import Idealize.ShloMosaic.Lib.Tactic

noncomputable section

open scoped BigOperators

namespace Cert.KernelIdeal.Bands

open Idealize.ShloMosaic Idealize.ShloMosaic.ValueIdx
open Cert.KernelIdeal Cert.KernelIdeal.Gen

variable [Cert.KernelIdeal.Facts]

/-- Row `p`, column `k` of the banded matrix of four tables: the band `k / 512` entry at cell `k % 512`. -/
def rowG (vL vR : IVec S1024x8 32) (wL wR : FVec Ideal S1024x8 .f32) (y : S1024x4096.Idx) : EReal :=
  Cert.Gram.hot (vL (ix2 (⟨(y 0).val, idx2_lt0 y⟩ : Fin 1024) (Cert.Gram.band ⟨(y 1).val, idx2_lt1 y⟩)))
    (vR (ix2 (⟨(y 0).val, idx2_lt0 y⟩ : Fin 1024) (Cert.Gram.band ⟨(y 1).val, idx2_lt1 y⟩)))
    (wL (ix2 (⟨(y 0).val, idx2_lt0 y⟩ : Fin 1024) (Cert.Gram.band ⟨(y 1).val, idx2_lt1 y⟩)))
    (wR (ix2 (⟨(y 0).val, idx2_lt0 y⟩ : Fin 1024) (Cert.Gram.band ⟨(y 1).val, idx2_lt1 y⟩)))
    ((y 1).val % 512)

theorem rowG_ix2 (vL vR : IVec S1024x8 32) (wL wR : FVec Ideal S1024x8 .f32) (p : Fin 1024) (k : Fin 4096) :
    rowG vL vR wL wR (ix2 p k)
      = Cert.Gram.hot (vL (ix2 p (Cert.Gram.band k))) (vR (ix2 p (Cert.Gram.band k))) (wL (ix2 p (Cert.Gram.band k)))
          (wR (ix2 p (Cert.Gram.band k))) (k.val % 512) := rfl

/-- A column block of 512 starting at column `512 · b` whose entries are band `b`'s is that part of the banded matrix. -/
theorem piece_apply (b : Fin 8) (o : ℕ) (vL vR : IVec S1024x8 32) (wL wR : FVec Ideal S1024x8 .f32) (ho : o = 512 * b.val)
    (inb : ∀ a, (![0, o] : Fin 2 → ℕ) a + S1024x512.size a ≤ S1024x4096.size a) (w : FVec Ideal S1024x512 .f32)
    (hw : ∀ (p : Fin 1024) (g : Fin 512),
      w (ix2 p g) = Cert.Gram.hot (vL (ix2 p b)) (vR (ix2 p b)) (wL (ix2 p b)) (wR (ix2 p b)) g.val)
    (x : (Rect.unit (s := S1024x4096) ![0, o] S1024x512.size inb).shape.Idx) :
    w x = rowG vL vR wL wR ((Rect.unit (s := S1024x4096) ![0, o] S1024x512.size inb).emb x) := by
  subst ho
  obtain ⟨p, g, rfl⟩ : ∃ (p : Fin 1024) (g : Fin 512), x = ix2 p g := ⟨x 0, x 1, eq_ix2 x⟩
  have hb := b.isLt
  have hg := g.isLt
  have he : (Rect.unit (s := S1024x4096) ![0, 512 * b.val] S1024x512.size inb).emb (ix2 p g)
      = ix2 p (⟨512 * b.val + g.val, by omega⟩ : Fin 4096) := by
    funext a
    apply Fin.ext
    match a with
    | ⟨0, _⟩ => show 0 + 1 * p.val = p.val; omega
    | ⟨1, _⟩ => show 512 * b.val + 1 * g.val = 512 * b.val + g.val; omega
  have hband : Cert.Gram.band (⟨512 * b.val + g.val, by omega⟩ : Fin 4096) = b :=
    Fin.ext (by show (512 * b.val + g.val) / 512 = b.val; omega)
  have hmod : (512 * b.val + g.val) % 512 = g.val := by omega
  rw [he, rowG_ix2, hw, hband]
  show _ = Cert.Gram.hot _ _ _ _ ((512 * b.val + g.val) % 512)
  rw [hmod]

/-- The eight column blocks of the first scratch matrix, the last written first. -/
def piecesA (v0 v2 : Vec Ideal S1024x8 .i32) (v4 v6 : Vec Ideal S1024x8 .f32) : List (View.Piece (Elt Ideal) S1024x4096 .f32) :=
  [
    (⟨Rect.unit (s := S1024x4096) ![0, 3584] S1024x512.size Gen.inb_S1024x4096_S1024x512_0_3584,
      k0_pay37 (k0_pay3 v0) (k0_pay4 v2) (k0_pay5 v4) (k0_pay6 v6) (iota .tc S1024x512 32 [1] Gen.iota_S1024x512_d1_w32)⟩ : View.Piece (Elt Ideal) S1024x4096 .f32),
    (⟨Rect.unit (s := S1024x4096) ![0, 3072] S1024x512.size Gen.inb_S1024x4096_S1024x512_0_3072,
      k0_pay35 (k0_pay3 v0) (k0_pay4 v2) (k0_pay5 v4) (k0_pay6 v6) (iota .tc S1024x512 32 [1] Gen.iota_S1024x512_d1_w32)⟩ : View.Piece (Elt Ideal) S1024x4096 .f32),
    (⟨Rect.unit (s := S1024x4096) ![0, 2560] S1024x512.size Gen.inb_S1024x4096_S1024x512_0_2560,
      k0_pay33 (k0_pay30 (k0_pay6 v6)) (k0_pay31 (k0_pay3 v0) (k0_pay5 v4) (iota .tc S1024x512 32 [1] Gen.iota_S1024x512_d1_w32)) (k0_pay32 (k0_pay4 v2) (iota .tc S1024x512 32 [1] Gen.iota_S1024x512_d1_w32)) (Scalar.ofBits .f32 0x00000000#32)⟩ : View.Piece (Elt Ideal) S1024x4096 .f32),
    (⟨Rect.unit (s := S1024x4096) ![0, 2048] S1024x512.size Gen.inb_S1024x4096_S1024x512_0_2048,
      k0_pay28 (iota .tc S1024x512 32 [1] Gen.iota_S1024x512_d1_w32) (k0_pay24 (k0_pay3 v0)) (k0_pay25 (k0_pay4 v2)) (k0_pay26 (k0_pay5 v4)) (k0_pay27 (k0_pay6 v6))⟩ : View.Piece (Elt Ideal) S1024x4096 .f32),
    (⟨Rect.unit (s := S1024x4096) ![0, 1536] S1024x512.size Gen.inb_S1024x4096_S1024x512_0_1536,
      k0_pay22 (k0_pay3 v0) (k0_pay4 v2) (k0_pay5 v4) (k0_pay6 v6) (iota .tc S1024x512 32 [1] Gen.iota_S1024x512_d1_w32)⟩ : View.Piece (Elt Ideal) S1024x4096 .f32),
    (⟨Rect.unit (s := S1024x4096) ![0, 1024] S1024x512.size Gen.inb_S1024x4096_S1024x512_0_1024,
      k0_pay19 (k0_pay3 v0) (k0_pay4 v2) (k0_pay5 v4) (k0_pay6 v6) (iota .tc S1024x512 32 [1] Gen.iota_S1024x512_d1_w32)⟩ : View.Piece (Elt Ideal) S1024x4096 .f32),
    (⟨Rect.unit (s := S1024x4096) ![0, 512] S1024x512.size Gen.inb_S1024x4096_S1024x512_0_512,
      k0_pay13 (k0_pay3 v0) (k0_pay4 v2) (k0_pay5 v4) (k0_pay6 v6) (iota .tc S1024x512 32 [1] Gen.iota_S1024x512_d1_w32)⟩ : View.Piece (Elt Ideal) S1024x4096 .f32),
    (⟨Rect.unit (s := S1024x4096) ![0, 0] S1024x512.size Gen.inb_S1024x4096_S1024x512_0_0,
      k0_pay11 v0 v2 v4 v6⟩ : View.Piece (Elt Ideal) S1024x4096 .f32) ]

/-- The eight column blocks of the second scratch matrix, the last written first. -/
def piecesB (v8 v10 : Vec Ideal S1024x8 .i32) (v12 v14 : Vec Ideal S1024x8 .f32) : List (View.Piece (Elt Ideal) S1024x4096 .f32) :=
  [
    (⟨Rect.unit (s := S1024x4096) ![0, 3584] S1024x512.size Gen.inb_S1024x4096_S1024x512_0_3584,
      k0_pay1 (iota .tc S1024x512 32 [1] Gen.iota_S1024x512_d1_w32) (k0_pay38 (k0_pay8 v10)) (k0_pay39 (k0_pay10 v14)) (k0_pay40 (k0_pay7 v8) (iota .tc S1024x512 32 [1] Gen.iota_S1024x512_d1_w32)) (Scalar.ofBits .f32 0x00000000#32) (k0_pay41 (k0_pay9 v12))⟩ : View.Piece (Elt Ideal) S1024x4096 .f32),
    (⟨Rect.unit (s := S1024x4096) ![0, 3072] S1024x512.size Gen.inb_S1024x4096_S1024x512_0_3072,
      k0_pay36 (k0_pay7 v8) (k0_pay8 v10) (k0_pay9 v12) (k0_pay10 v14) (iota .tc S1024x512 32 [1] Gen.iota_S1024x512_d1_w32)⟩ : View.Piece (Elt Ideal) S1024x4096 .f32),
    (⟨Rect.unit (s := S1024x4096) ![0, 2560] S1024x512.size Gen.inb_S1024x4096_S1024x512_0_2560,
      k0_pay34 (k0_pay7 v8) (k0_pay8 v10) (k0_pay9 v12) (k0_pay10 v14) (iota .tc S1024x512 32 [1] Gen.iota_S1024x512_d1_w32)⟩ : View.Piece (Elt Ideal) S1024x4096 .f32),
    (⟨Rect.unit (s := S1024x4096) ![0, 2048] S1024x512.size Gen.inb_S1024x4096_S1024x512_0_2048,
      k0_pay29 (k0_pay7 v8) (k0_pay8 v10) (k0_pay9 v12) (k0_pay10 v14) (iota .tc S1024x512 32 [1] Gen.iota_S1024x512_d1_w32)⟩ : View.Piece (Elt Ideal) S1024x4096 .f32),
    (⟨Rect.unit (s := S1024x4096) ![0, 1536] S1024x512.size Gen.inb_S1024x4096_S1024x512_0_1536,
      k0_pay23 (k0_pay7 v8) (k0_pay8 v10) (k0_pay9 v12) (k0_pay10 v14) (iota .tc S1024x512 32 [1] Gen.iota_S1024x512_d1_w32)⟩ : View.Piece (Elt Ideal) S1024x4096 .f32),
    (⟨Rect.unit (s := S1024x4096) ![0, 1024] S1024x512.size Gen.inb_S1024x4096_S1024x512_0_1024,
      k0_pay21 (k0_pay20 (k0_pay7 v8) (k0_pay8 v10) (k0_pay9 v12) (k0_pay10 v14) (iota .tc S1024x512 32 [1] Gen.iota_S1024x512_d1_w32))⟩ : View.Piece (Elt Ideal) S1024x4096 .f32),
    (⟨Rect.unit (s := S1024x4096) ![0, 512] S1024x512.size Gen.inb_S1024x4096_S1024x512_0_512,
      k0_pay18 (iota .tc S1024x512 32 [1] Gen.iota_S1024x512_d1_w32) (k0_pay14 (k0_pay8 v10)) (k0_pay15 (k0_pay10 v14)) (k0_pay16 (k0_pay7 v8) (iota .tc S1024x512 32 [1] Gen.iota_S1024x512_d1_w32)) (Scalar.ofBits .f32 0x00000000#32) (k0_pay17 (k0_pay9 v12))⟩ : View.Piece (Elt Ideal) S1024x4096 .f32),
    (⟨Rect.unit (s := S1024x4096) ![0, 0] S1024x512.size Gen.inb_S1024x4096_S1024x512_0_0,
      k0_pay12 (k0_pay7 v8) (k0_pay8 v10) (k0_pay9 v12) (k0_pay10 v14) (iota .tc S1024x512 32 [1] Gen.iota_S1024x512_d1_w32)⟩ : View.Piece (Elt Ideal) S1024x4096 .f32) ]

/-- The first scratch matrix read back: the banded matrix of the first table set. -/
theorem scrA_apply (v0 v2 : Vec Ideal S1024x8 .i32) (v4 v6 : Vec Ideal S1024x8 .f32) (p : Fin 1024) (k : Fin 4096) :
    View.canon (piecesA v0 v2 v4 v6) (ix2 p k)
      = Cert.Gram.hot (v0 (ix2 p (Cert.Gram.band k))) (v2 (ix2 p (Cert.Gram.band k))) (v4 (ix2 p (Cert.Gram.band k))) (v6 (ix2 p (Cert.Gram.band k))) (k.val % 512) := by
  refine (View.canon_apply_of_pieces (rowG v0 v2 v4 v6) (piecesA v0 v2 v4 v6) ?_ (ix2 p k)
    (View.cover_of_tiledL (piecesA v0 v2 v4 v6) S1024x512.size (by sl_kernel_rfl) (ix2 p k))).trans (rowG_ix2 v0 v2 v4 v6 p k)
  intro q hq
  unfold piecesA at hq
  simp only [List.mem_cons, List.not_mem_nil, or_false] at hq
  rcases hq with rfl | rfl | rfl | rfl | rfl | rfl | rfl | rfl
  · exact piece_apply 7 3584 v0 v2 v4 v6 (by decide) Gen.inb_S1024x4096_S1024x512_0_3584 _ (bandA7 v0 v2 v4 v6)
  · exact piece_apply 6 3072 v0 v2 v4 v6 (by decide) Gen.inb_S1024x4096_S1024x512_0_3072 _ (bandA6 v0 v2 v4 v6)
  · exact piece_apply 5 2560 v0 v2 v4 v6 (by decide) Gen.inb_S1024x4096_S1024x512_0_2560 _ (bandA5 v0 v2 v4 v6)
  · exact piece_apply 4 2048 v0 v2 v4 v6 (by decide) Gen.inb_S1024x4096_S1024x512_0_2048 _ (bandA4 v0 v2 v4 v6)
  · exact piece_apply 3 1536 v0 v2 v4 v6 (by decide) Gen.inb_S1024x4096_S1024x512_0_1536 _ (bandA3 v0 v2 v4 v6)
  · exact piece_apply 2 1024 v0 v2 v4 v6 (by decide) Gen.inb_S1024x4096_S1024x512_0_1024 _ (bandA2 v0 v2 v4 v6)
  · exact piece_apply 1 512 v0 v2 v4 v6 (by decide) Gen.inb_S1024x4096_S1024x512_0_512 _ (bandA1 v0 v2 v4 v6)
  · exact piece_apply 0 0 v0 v2 v4 v6 (by decide) Gen.inb_S1024x4096_S1024x512_0_0 _ (bandA0 v0 v2 v4 v6)

/-- The second scratch matrix read back: the banded matrix of the second table set. -/
theorem scrB_apply (v8 v10 : Vec Ideal S1024x8 .i32) (v12 v14 : Vec Ideal S1024x8 .f32) (p : Fin 1024) (k : Fin 4096) :
    View.canon (piecesB v8 v10 v12 v14) (ix2 p k)
      = Cert.Gram.hot (v8 (ix2 p (Cert.Gram.band k))) (v10 (ix2 p (Cert.Gram.band k))) (v12 (ix2 p (Cert.Gram.band k))) (v14 (ix2 p (Cert.Gram.band k))) (k.val % 512) := by
  refine (View.canon_apply_of_pieces (rowG v8 v10 v12 v14) (piecesB v8 v10 v12 v14) ?_ (ix2 p k)
    (View.cover_of_tiledL (piecesB v8 v10 v12 v14) S1024x512.size (by sl_kernel_rfl) (ix2 p k))).trans (rowG_ix2 v8 v10 v12 v14 p k)
  intro q hq
  unfold piecesB at hq
  simp only [List.mem_cons, List.not_mem_nil, or_false] at hq
  rcases hq with rfl | rfl | rfl | rfl | rfl | rfl | rfl | rfl
  · exact piece_apply 7 3584 v8 v10 v12 v14 (by decide) Gen.inb_S1024x4096_S1024x512_0_3584 _ (bandB7 v8 v10 v12 v14)
  · exact piece_apply 6 3072 v8 v10 v12 v14 (by decide) Gen.inb_S1024x4096_S1024x512_0_3072 _ (bandB6 v8 v10 v12 v14)
  · exact piece_apply 5 2560 v8 v10 v12 v14 (by decide) Gen.inb_S1024x4096_S1024x512_0_2560 _ (bandB5 v8 v10 v12 v14)
  · exact piece_apply 4 2048 v8 v10 v12 v14 (by decide) Gen.inb_S1024x4096_S1024x512_0_2048 _ (bandB4 v8 v10 v12 v14)
  · exact piece_apply 3 1536 v8 v10 v12 v14 (by decide) Gen.inb_S1024x4096_S1024x512_0_1536 _ (bandB3 v8 v10 v12 v14)
  · exact piece_apply 2 1024 v8 v10 v12 v14 (by decide) Gen.inb_S1024x4096_S1024x512_0_1024 _ (bandB2 v8 v10 v12 v14)
  · exact piece_apply 1 512 v8 v10 v12 v14 (by decide) Gen.inb_S1024x4096_S1024x512_0_512 _ (bandB1 v8 v10 v12 v14)
  · exact piece_apply 0 0 v8 v10 v12 v14 (by decide) Gen.inb_S1024x4096_S1024x512_0_0 _ (bandB0 v8 v10 v12 v14)

/-- The first scratch matrix read back, as one function of the index. -/
theorem scrA_eq (v0 v2 : Vec Ideal S1024x8 .i32) (v4 v6 : Vec Ideal S1024x8 .f32) : View.canon (piecesA v0 v2 v4 v6) = rowG v0 v2 v4 v6 := by
  funext y
  obtain ⟨p, k, rfl⟩ : ∃ (p : Fin 1024) (k : Fin 4096), y = ix2 p k := ⟨y 0, y 1, eq_ix2 y⟩
  rw [scrA_apply, rowG_ix2]

/-- The second scratch matrix read back, as one function of the index. -/
theorem scrB_eq (v8 v10 : Vec Ideal S1024x8 .i32) (v12 v14 : Vec Ideal S1024x8 .f32) : View.canon (piecesB v8 v10 v12 v14) = rowG v8 v10 v12 v14 := by
  funext y
  obtain ⟨p, k, rfl⟩ : ∃ (p : Fin 1024) (k : Fin 4096), y = ix2 p k := ⟨y 0, y 1, eq_ix2 y⟩
  rw [scrB_apply, rowG_ix2]

/-- The product of two banded matrices at `(p, q)`. -/
theorem gram_rowG (vL vR : IVec S1024x8 32) (wL wR : FVec Ideal S1024x8 .f32) (vL' vR' : IVec S1024x8 32)
    (wL' wR' : FVec Ideal S1024x8 .f32) (p q : Fin 1024) :
    k0_pay2 (F := Ideal) (rowG vL vR wL wR) (rowG vL' vR' wL' wR') (ix2 p q)
      = ∑ k : Fin 4096, Cert.Gram.hot (vL (ix2 p (Cert.Gram.band k))) (vR (ix2 p (Cert.Gram.band k))) (wL (ix2 p (Cert.Gram.band k))) (wR (ix2 p (Cert.Gram.band k))) (k.val % 512)
          * Cert.Gram.hot (vL' (ix2 q (Cert.Gram.band k))) (vR' (ix2 q (Cert.Gram.band k))) (wL' (ix2 q (Cert.Gram.band k))) (wR' (ix2 q (Cert.Gram.band k))) (k.val % 512) := by
  rw [gram_apply]
  exact Finset.sum_congr rfl fun k _ => by rw [rowG_ix2, rowG_ix2]

/-- The zero offsets of a whole-matrix rectangle. -/
theorem zero_off : (![0, 0] : Fin 2 → ℕ) = fun _ => 0 := by
  funext a
  match a with
  | ⟨0, _⟩ => rfl
  | ⟨1, _⟩ => rfl

/-- A load of the whole scratch matrix reads its contents. -/
theorem ld_whole (X : S1024x4096.Idx → EReal)
    (inb : ∀ a, (![0, 0] : Fin 2 → ℕ) a + S1024x4096.size a ≤ S1024x4096.size a) :
    View.ld (Val := Elt Ideal) (e' := .f32) X (Rect.unit (s := S1024x4096) ![0, 0] S1024x4096.size inb) = X :=
  View.ld_unit_zero (S := S1024x4096) (Val := Elt Ideal) (e := .f32) (off := ![0, 0]) zero_off inb X

/-- The block the body stores, at `(p, q)`: the inner product of row `p` of the first banded matrix with row `q` of the
    second. -/
theorem block_apply (v0 v2 : Vec Ideal S1024x8 .i32) (v4 v6 : Vec Ideal S1024x8 .f32) (v8 v10 : Vec Ideal S1024x8 .i32) (v12 v14 : Vec Ideal S1024x8 .f32) (p q : Fin 1024) :
    k0_pay2 (F := Ideal) (View.canon (piecesA v0 v2 v4 v6)) (View.canon (piecesB v8 v10 v12 v14)) (ix2 p q)
      = ∑ k : Fin 4096, Cert.Gram.hot (v0 (ix2 p (Cert.Gram.band k))) (v2 (ix2 p (Cert.Gram.band k))) (v4 (ix2 p (Cert.Gram.band k))) (v6 (ix2 p (Cert.Gram.band k))) (k.val % 512)
          * Cert.Gram.hot (v8 (ix2 q (Cert.Gram.band k))) (v10 (ix2 q (Cert.Gram.band k))) (v12 (ix2 q (Cert.Gram.band k))) (v14 (ix2 q (Cert.Gram.band k))) (k.val % 512) := by
  rw [gram_apply]
  exact Finset.sum_congr rfl fun k _ => by rw [scrA_apply, scrB_apply]

end Cert.KernelIdeal.Bands

end
-- ==== Proof.KIBlock.lean ====
/-
  The value of the body's run: the two scratch matrices it loads are the banded matrices of the table blocks it read,
  and the one piece it leaves in the output block is their product.
-/
import proofs.«148301_j79766132621757_2_alg».proof.Proof.KIBody
import proofs.«148301_j79766132621757_2_alg».proof.Proof.BlockValue

set_option maxRecDepth 16384

noncomputable section

open scoped BigOperators

namespace Cert.KernelIdeal.Bands

open Idealize.ShloMosaic Idealize.ShloMosaic.ValueIdx Idealize.ShloMosaic.Tactic
open Cert.KernelIdeal Cert.KernelIdeal.Gen Cert.KernelIdeal.Hand

variable [Cert.KernelIdeal.Facts]

/-- A whole table block read back from a whole buffer holding it is the block. -/
theorem read_back {e : EltTy} (arg : Memref sig .tc .vmem S1024x8 e) (harg : arg.IsWhole) (x : Vec Ideal S1024x8 e)
    (inb : ∀ a, (![0, 0] : Fin 2 → ℕ) a + (![1024, 8] : Fin 2 → ℕ) a ≤ S1024x8.size a) :
    View.readAt (Elt Ideal) arg.view (Rect.unit (s := S1024x8) ![0, 0] ![1024, 8] inb).toLoadRect (harg.unread x) = x := by
  rw [View.readAt_eq_ld, harg.read_unread]
  exact View.ld_unit_zero (S := S1024x8) (Val := Elt Ideal) (e := e) (off := ![0, 0]) zero_off inb x

/-- The first scratch matrix as the run loads it: the banded matrix of the first four table blocks. -/
theorem v338_eq (c : Dev nD) (arg2 : Memref sig .tc .vmem S1024x8 .i32) (harg2 : arg2.IsWhole) (arg3 : Memref sig .tc .vmem S1024x8 .i32) (harg3 : arg3.IsWhole) (arg4 : Memref sig .tc .vmem S1024x8 .f32) (harg4 : arg4.IsWhole) (arg5 : Memref sig .tc .vmem S1024x8 .f32) (harg5 : arg5.IsWhole) (arg11 : Memref sig .tc .vmem S1024x4096 .f32) (x0 x1 : Vec Ideal S1024x8 .i32) (x2 x3 : Vec Ideal S1024x8 .f32) :
    (kernelRun.sl.v338 (F := Ideal) c arg2 harg2 arg3 harg3 arg4 harg4 arg5 harg5 arg11 x0 x1 x2 x3 : S1024x4096.Idx → EReal)
      = rowG x0 x1 x2 x3 := by
  sl_unfold_run_names
  simp only [read_back]
  change arg11.view.readCov (piecesA x0 x1 x2 x3)
    (Rect.unit (s := S1024x4096) ![0, 0] S1024x4096.size Gen.inb_S1024x4096_S1024x4096_0_0).toLoadRect = rowG x0 x1 x2 x3
  rw [View.readCov_eq_canon_ld _ _ _ (View.cover_of_tiledL (piecesA x0 x1 x2 x3) S1024x512.size (by sl_kernel_rfl)), scrA_eq]
  exact ld_whole _ _

/-- The second scratch matrix as the run loads it: the banded matrix of the last four table blocks. -/
theorem v339_eq (c : Dev nD) (arg6 : Memref sig .tc .vmem S1024x8 .i32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg12 : Memref sig .tc .vmem S1024x4096 .f32) (x4 x5 : Vec Ideal S1024x8 .i32) (x6 x7 : Vec Ideal S1024x8 .f32) :
    (kernelRun.sl.v339 (F := Ideal) c arg6 harg6 arg7 harg7 arg8 harg8 arg9 harg9 arg12 x4 x5 x6 x7 : S1024x4096.Idx → EReal)
      = rowG x4 x5 x6 x7 := by
  sl_unfold_run_names
  simp only [read_back]
  change arg12.view.readCov (piecesB x4 x5 x6 x7)
    (Rect.unit (s := S1024x4096) ![0, 0] S1024x4096.size Gen.inb_S1024x4096_S1024x4096_0_0).toLoadRect = rowG x4 x5 x6 x7
  rw [View.readCov_eq_canon_ld _ _ _ (View.cover_of_tiledL (piecesB x4 x5 x6 x7) S1024x512.size (by sl_kernel_rfl)), scrB_eq]
  exact ld_whole _ _

/-- The output block the run leaves, at `(p, q)`: the inner product of row `p` of the first banded matrix with row `q` of
    the second. -/
theorem outL_apply (c : Dev nD) (i : grid0.Coords) (arg2 : Memref sig .tc .vmem S1024x8 .i32) (harg2 : arg2.IsWhole) (arg3 : Memref sig .tc .vmem S1024x8 .i32) (harg3 : arg3.IsWhole) (arg4 : Memref sig .tc .vmem S1024x8 .f32) (harg4 : arg4.IsWhole) (arg5 : Memref sig .tc .vmem S1024x8 .f32) (harg5 : arg5.IsWhole) (arg6 : Memref sig .tc .vmem S1024x8 .i32) (harg6 : arg6.IsWhole) (arg7 : Memref sig .tc .vmem S1024x8 .i32) (harg7 : arg7.IsWhole) (arg8 : Memref sig .tc .vmem S1024x8 .f32) (harg8 : arg8.IsWhole) (arg9 : Memref sig .tc .vmem S1024x8 .f32) (harg9 : arg9.IsWhole) (arg10 : Memref sig .tc .vmem S1024x1024 .f32) (harg10 : arg10.IsWhole) (arg11 : Memref sig .tc .vmem S1024x4096 .f32) (harg11 : arg11.IsWhole) (arg12 : Memref sig .tc .vmem S1024x4096 .f32) (harg12 : arg12.IsWhole) (x0 x1 : Vec Ideal S1024x8 .i32) (x2 x3 : Vec Ideal S1024x8 .f32) (x4 x5 : Vec Ideal S1024x8 .i32) (x6 x7 : Vec Ideal S1024x8 .f32) (p q : Fin 1024) :
    View.canon (kernelRun (F := Ideal) c i arg2 harg2 arg3 harg3 arg4 harg4 arg5 harg5 arg6 harg6 arg7 harg7 arg8 harg8 arg9 harg9 arg10 harg10 arg11 harg11 arg12 harg12 x0 x1 x2 x3 x4 x5 x6 x7).1 (ix2 p q)
      = ∑ k : Fin 4096, Cert.Gram.hot (x0 (ix2 p (Cert.Gram.band k))) (x1 (ix2 p (Cert.Gram.band k))) (x2 (ix2 p (Cert.Gram.band k))) (x3 (ix2 p (Cert.Gram.band k))) (k.val % 512)
          * Cert.Gram.hot (x4 (ix2 q (Cert.Gram.band k))) (x5 (ix2 q (Cert.Gram.band k))) (x6 (ix2 q (Cert.Gram.band k))) (x7 (ix2 q (Cert.Gram.band k))) (k.val % 512) := by
  have e1 : View.canon (kernelRun (F := Ideal) c i arg2 harg2 arg3 harg3 arg4 harg4 arg5 harg5 arg6 harg6 arg7 harg7 arg8 harg8 arg9 harg9 arg10 harg10 arg11 harg11 arg12 harg12 x0 x1 x2 x3 x4 x5 x6 x7).1
      = k0_pay2 (F := Ideal) (kernelRun.sl.v338 (F := Ideal) c arg2 harg2 arg3 harg3 arg4 harg4 arg5 harg5 arg11 x0 x1 x2 x3)
          (kernelRun.sl.v339 (F := Ideal) c arg6 harg6 arg7 harg7 arg8 harg8 arg9 harg9 arg12 x4 x5 x6 x7) :=
    View.canon_unit_zero (S := S1024x1024) (Val := Elt Ideal) (e := .f32) (off := ![0, 0]) zero_off
      Gen.inb_S1024x1024_S1024x1024_0_0 _
  have e2 : k0_pay2 (F := Ideal) (kernelRun.sl.v338 (F := Ideal) c arg2 harg2 arg3 harg3 arg4 harg4 arg5 harg5 arg11 x0 x1 x2 x3)
          (kernelRun.sl.v339 (F := Ideal) c arg6 harg6 arg7 harg7 arg8 harg8 arg9 harg9 arg12 x4 x5 x6 x7)
      = k0_pay2 (F := Ideal) (rowG x0 x1 x2 x3) (rowG x4 x5 x6 x7) :=
    congrArg₂ (k0_pay2 (F := Ideal)) (v338_eq c arg2 harg2 arg3 harg3 arg4 harg4 arg5 harg5 arg11 x0 x1 x2 x3)
      (v339_eq c arg6 harg6 arg7 harg7 arg8 harg8 arg9 harg9 arg12 x4 x5 x6 x7)
  rw [e1, e2]
  exact gram_rowG x0 x1 x2 x3 x4 x5 x6 x7 p q

end Cert.KernelIdeal.Bands

end
-- ==== Proof.KIValue.lean ====
/-
  The result array after the launch: the Gram matrix of the four tables the launch finds.

  Grid point `t` stores the block of 1024 × 1024 at block row and block column `t`'s two coordinates; its entry `(p, q)`
  is the inner product of rows of the banded matrix built from the table blocks the point reads, which are rows
  `1024 · (block row) + p` and `1024 · (block column) + q` of the tables. The 64 blocks tile the array.
-/
import proofs.«148301_j79766132621757_2_alg».proof.Proof.KIRun
import proofs.«148301_j79766132621757_2_alg».proof.Proof.KIBlock
import proofs.«148301_j79766132621757_2_alg».proof.Proof.Spec

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-- The Gram matrix of four tables, as an array of 8192 × 8192. -/
def gramArr (li ri : S8192x8.Idx → BitVec 32) (lw rw : S8192x8.Idx → EReal) (i : S8192x8192.Idx) : EReal :=
  Cert.Gram.gram li ri lw rw ⟨(i 0).val, idx2_lt0 i⟩ ⟨(i 1).val, idx2_lt1 i⟩

theorem gramArr_ix2 (li ri : S8192x8.Idx → BitVec 32) (lw rw : S8192x8.Idx → EReal) (P Q : Fin 8192) :
    gramArr li ri lw rw (ix2 P Q) = Cert.Gram.gram li ri lw rw P Q := rfl

/-- The printed index maps, decided over the grid: the first four table windows move with the result's block row, the
    last four with its block column, every table block spans all eight bands, and the block indices stay below 8. -/
theorem idx_facts8 : ∀ t : Fin cfg0.N, win0_0.index t (0 : Fin 2) = win0_8.index t (0 : Fin 2)
    ∧ win0_0.index t (1 : Fin 2) = 0
    ∧ win0_1.index t (0 : Fin 2) = win0_8.index t (0 : Fin 2)
    ∧ win0_1.index t (1 : Fin 2) = 0
    ∧ win0_2.index t (0 : Fin 2) = win0_8.index t (0 : Fin 2)
    ∧ win0_2.index t (1 : Fin 2) = 0
    ∧ win0_3.index t (0 : Fin 2) = win0_8.index t (0 : Fin 2)
    ∧ win0_3.index t (1 : Fin 2) = 0
    ∧ win0_4.index t (0 : Fin 2) = win0_8.index t (1 : Fin 2)
    ∧ win0_4.index t (1 : Fin 2) = 0
    ∧ win0_5.index t (0 : Fin 2) = win0_8.index t (1 : Fin 2)
    ∧ win0_5.index t (1 : Fin 2) = 0
    ∧ win0_6.index t (0 : Fin 2) = win0_8.index t (1 : Fin 2)
    ∧ win0_6.index t (1 : Fin 2) = 0
    ∧ win0_7.index t (0 : Fin 2) = win0_8.index t (1 : Fin 2)
    ∧ win0_7.index t (1 : Fin 2) = 0
    ∧ win0_8.index t (0 : Fin 2) ≤ 7
    ∧ win0_8.index t (1 : Fin 2) ≤ 7 :=
  (by decide +kernel : ∀ t : Fin grid0.N, _)

/-- Every block of the result is some point's. -/
theorem idx_onto8 : ∀ (q0 : Fin 8) (q1 : Fin 8), ∃ t : Fin cfg0.N, win0_8.index t = ![q0.val, q1.val] :=
  (by decide +kernel : ∀ (q0 : Fin 8) (q1 : Fin 8), ∃ t : Fin grid0.N, win0_8.index t = ![q0.val, q1.val])

/-- Window 0's block at point `t`, at row `p`, band `b`: its array at the block's row offset plus `p`. -/
theorem iblk0_apply (c : Dev nD) (t : Fin cfg0.N) (p : Fin 1024) (b : Fin 8) (r : ℕ) (P : Fin 8192)
    (h0 : win0_0.index t (0 : Fin 2) = r) (h1 : win0_0.index t (1 : Fin 2) = 0) (hP : P.val = r * 1024 + p.val) :
    iblk m c 0 t (ix2 p b) = (V m c main_v51 : S8192x8.Idx → BitVec 32) (ix2 P b) := by
  show V m c main_v51 (((cfg0.win 0).blk t).view.emb (ix2 p b)) = V m c main_v51 (ix2 P b)
  have h : ((cfg0.win 0).blk t).view.emb (ix2 p b) = ix2 P b := by
    funext a; apply Fin.ext
    match a with
    | ⟨0, _⟩ => show win0_0.index t (0 : Fin 2) * 1024 + 1 * p.val = P.val; omega
    | ⟨1, _⟩ => show win0_0.index t (1 : Fin 2) * 8 + 1 * b.val = b.val; omega
  rw [h]

/-- Window 1's block at point `t`, at row `p`, band `b`: its array at the block's row offset plus `p`. -/
theorem iblk1_apply (c : Dev nD) (t : Fin cfg0.N) (p : Fin 1024) (b : Fin 8) (r : ℕ) (P : Fin 8192)
    (h0 : win0_1.index t (0 : Fin 2) = r) (h1 : win0_1.index t (1 : Fin 2) = 0) (hP : P.val = r * 1024 + p.val) :
    iblk m c 1 t (ix2 p b) = (V m c main_v52 : S8192x8.Idx → BitVec 32) (ix2 P b) := by
  show V m c main_v52 (((cfg0.win 1).blk t).view.emb (ix2 p b)) = V m c main_v52 (ix2 P b)
  have h : ((cfg0.win 1).blk t).view.emb (ix2 p b) = ix2 P b := by
    funext a; apply Fin.ext
    match a with
    | ⟨0, _⟩ => show win0_1.index t (0 : Fin 2) * 1024 + 1 * p.val = P.val; omega
    | ⟨1, _⟩ => show win0_1.index t (1 : Fin 2) * 8 + 1 * b.val = b.val; omega
  rw [h]

/-- Window 2's block at point `t`, at row `p`, band `b`: its array at the block's row offset plus `p`. -/
theorem iblk2_apply (c : Dev nD) (t : Fin cfg0.N) (p : Fin 1024) (b : Fin 8) (r : ℕ) (P : Fin 8192)
    (h0 : win0_2.index t (0 : Fin 2) = r) (h1 : win0_2.index t (1 : Fin 2) = 0) (hP : P.val = r * 1024 + p.val) :
    iblk m c 2 t (ix2 p b) = (V m c main_v49 : S8192x8.Idx → EReal) (ix2 P b) := by
  show V m c main_v49 (((cfg0.win 2).blk t).view.emb (ix2 p b)) = V m c main_v49 (ix2 P b)
  have h : ((cfg0.win 2).blk t).view.emb (ix2 p b) = ix2 P b := by
    funext a; apply Fin.ext
    match a with
    | ⟨0, _⟩ => show win0_2.index t (0 : Fin 2) * 1024 + 1 * p.val = P.val; omega
    | ⟨1, _⟩ => show win0_2.index t (1 : Fin 2) * 8 + 1 * b.val = b.val; omega
  rw [h]

/-- Window 3's block at point `t`, at row `p`, band `b`: its array at the block's row offset plus `p`. -/
theorem iblk3_apply (c : Dev nD) (t : Fin cfg0.N) (p : Fin 1024) (b : Fin 8) (r : ℕ) (P : Fin 8192)
    (h0 : win0_3.index t (0 : Fin 2) = r) (h1 : win0_3.index t (1 : Fin 2) = 0) (hP : P.val = r * 1024 + p.val) :
    iblk m c 3 t (ix2 p b) = (V m c main_v50 : S8192x8.Idx → EReal) (ix2 P b) := by
  show V m c main_v50 (((cfg0.win 3).blk t).view.emb (ix2 p b)) = V m c main_v50 (ix2 P b)
  have h : ((cfg0.win 3).blk t).view.emb (ix2 p b) = ix2 P b := by
    funext a; apply Fin.ext
    match a with
    | ⟨0, _⟩ => show win0_3.index t (0 : Fin 2) * 1024 + 1 * p.val = P.val; omega
    | ⟨1, _⟩ => show win0_3.index t (1 : Fin 2) * 8 + 1 * b.val = b.val; omega
  rw [h]

/-- Window 4's block at point `t`, at row `p`, band `b`: its array at the block's row offset plus `p`. -/
theorem iblk4_apply (c : Dev nD) (t : Fin cfg0.N) (p : Fin 1024) (b : Fin 8) (r : ℕ) (P : Fin 8192)
    (h0 : win0_4.index t (0 : Fin 2) = r) (h1 : win0_4.index t (1 : Fin 2) = 0) (hP : P.val = r * 1024 + p.val) :
    iblk m c 4 t (ix2 p b) = (V m c main_v51 : S8192x8.Idx → BitVec 32) (ix2 P b) := by
  show V m c main_v51 (((cfg0.win 4).blk t).view.emb (ix2 p b)) = V m c main_v51 (ix2 P b)
  have h : ((cfg0.win 4).blk t).view.emb (ix2 p b) = ix2 P b := by
    funext a; apply Fin.ext
    match a with
    | ⟨0, _⟩ => show win0_4.index t (0 : Fin 2) * 1024 + 1 * p.val = P.val; omega
    | ⟨1, _⟩ => show win0_4.index t (1 : Fin 2) * 8 + 1 * b.val = b.val; omega
  rw [h]

/-- Window 5's block at point `t`, at row `p`, band `b`: its array at the block's row offset plus `p`. -/
theorem iblk5_apply (c : Dev nD) (t : Fin cfg0.N) (p : Fin 1024) (b : Fin 8) (r : ℕ) (P : Fin 8192)
    (h0 : win0_5.index t (0 : Fin 2) = r) (h1 : win0_5.index t (1 : Fin 2) = 0) (hP : P.val = r * 1024 + p.val) :
    iblk m c 5 t (ix2 p b) = (V m c main_v52 : S8192x8.Idx → BitVec 32) (ix2 P b) := by
  show V m c main_v52 (((cfg0.win 5).blk t).view.emb (ix2 p b)) = V m c main_v52 (ix2 P b)
  have h : ((cfg0.win 5).blk t).view.emb (ix2 p b) = ix2 P b := by
    funext a; apply Fin.ext
    match a with
    | ⟨0, _⟩ => show win0_5.index t (0 : Fin 2) * 1024 + 1 * p.val = P.val; omega
    | ⟨1, _⟩ => show win0_5.index t (1 : Fin 2) * 8 + 1 * b.val = b.val; omega
  rw [h]

/-- Window 6's block at point `t`, at row `p`, band `b`: its array at the block's row offset plus `p`. -/
theorem iblk6_apply (c : Dev nD) (t : Fin cfg0.N) (p : Fin 1024) (b : Fin 8) (r : ℕ) (P : Fin 8192)
    (h0 : win0_6.index t (0 : Fin 2) = r) (h1 : win0_6.index t (1 : Fin 2) = 0) (hP : P.val = r * 1024 + p.val) :
    iblk m c 6 t (ix2 p b) = (V m c main_v49 : S8192x8.Idx → EReal) (ix2 P b) := by
  show V m c main_v49 (((cfg0.win 6).blk t).view.emb (ix2 p b)) = V m c main_v49 (ix2 P b)
  have h : ((cfg0.win 6).blk t).view.emb (ix2 p b) = ix2 P b := by
    funext a; apply Fin.ext
    match a with
    | ⟨0, _⟩ => show win0_6.index t (0 : Fin 2) * 1024 + 1 * p.val = P.val; omega
    | ⟨1, _⟩ => show win0_6.index t (1 : Fin 2) * 8 + 1 * b.val = b.val; omega
  rw [h]

/-- Window 7's block at point `t`, at row `p`, band `b`: its array at the block's row offset plus `p`. -/
theorem iblk7_apply (c : Dev nD) (t : Fin cfg0.N) (p : Fin 1024) (b : Fin 8) (r : ℕ) (P : Fin 8192)
    (h0 : win0_7.index t (0 : Fin 2) = r) (h1 : win0_7.index t (1 : Fin 2) = 0) (hP : P.val = r * 1024 + p.val) :
    iblk m c 7 t (ix2 p b) = (V m c main_v50 : S8192x8.Idx → EReal) (ix2 P b) := by
  show V m c main_v50 (((cfg0.win 7).blk t).view.emb (ix2 p b)) = V m c main_v50 (ix2 P b)
  have h : ((cfg0.win 7).blk t).view.emb (ix2 p b) = ix2 P b := by
    funext a; apply Fin.ext
    match a with
    | ⟨0, _⟩ => show win0_7.index t (0 : Fin 2) * 1024 + 1 * p.val = P.val; omega
    | ⟨1, _⟩ => show win0_7.index t (1 : Fin 2) * 8 + 1 * b.val = b.val; omega
  rw [h]

/-- What point `t` writes back is block `t` of the Gram matrix of the tables the launch finds. -/
theorem flushed8_eq (c : Dev nD) (t : Fin cfg0.N) :
    (dats m 0 c).flushed 8 t = ((cfg0.win 8).blk t).view.read (Elt Ideal)
      (gramArr (V m c main_v51 : S8192x8.Idx → BitVec 32) (V m c main_v52 : S8192x8.Idx → BitVec 32) (V m c main_v49 : S8192x8.Idx → EReal) (V m c main_v50 : S8192x8.Idx → EReal)) := by
  show (cfg0.win 8).cut (grid0.coords t) ((dats m 0 c).after 8 t) = _
  rw [after0_8]
  unfold outAt outL
  obtain ⟨a0, a1, b0, b1, c0, c1, d0, d1, e0, e1, f0, f1, g0, g1, h0, h1, r0, r1⟩ := idx_facts8 t
  funext j
  obtain ⟨p, q, rfl⟩ : ∃ (p q : Fin 1024), j = ix2 p q := ⟨j 0, j 1, eq_ix2 j⟩
  have hp := p.isLt
  have hq := q.isLt
  have hP : win0_8.index t (0 : Fin 2) * 1024 + p.val < 8192 := by omega
  have hQ : win0_8.index t (1 : Fin 2) * 1024 + q.val < 8192 := by omega
  have hemb : ((cfg0.win 8).blk t).view.emb (ix2 p q)
      = ix2 (⟨win0_8.index t (0 : Fin 2) * 1024 + p.val, hP⟩ : Fin 8192)
          (⟨win0_8.index t (1 : Fin 2) * 1024 + q.val, hQ⟩ : Fin 8192) := by
    funext a; apply Fin.ext
    match a with
    | ⟨0, _⟩ => show win0_8.index t (0 : Fin 2) * 1024 + 1 * p.val = win0_8.index t (0 : Fin 2) * 1024 + p.val; omega
    | ⟨1, _⟩ => show win0_8.index t (1 : Fin 2) * 1024 + 1 * q.val = win0_8.index t (1 : Fin 2) * 1024 + q.val; omega
  show View.canon (kernelRun (F := Ideal) c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).1 (ix2 p q)
    = gramArr (V m c main_v51 : S8192x8.Idx → BitVec 32) (V m c main_v52 : S8192x8.Idx → BitVec 32) (V m c main_v49 : S8192x8.Idx → EReal) (V m c main_v50 : S8192x8.Idx → EReal) (((cfg0.win 8).blk t).view.emb (ix2 p q))
  rw [hemb, gramArr_ix2]
  refine (Cert.KernelIdeal.Bands.outL_apply c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) p q).trans ?_
  unfold Cert.Gram.gram Cert.Gram.J
  refine Finset.sum_congr rfl fun k _ => ?_
  rw [iblk0_apply m c t p _ _ ⟨_, hP⟩ a0 a1 rfl, iblk1_apply m c t p _ _ ⟨_, hP⟩ b0 b1 rfl, iblk2_apply m c t p _ _ ⟨_, hP⟩ c0 c1 rfl,
    iblk3_apply m c t p _ _ ⟨_, hP⟩ d0 d1 rfl, iblk4_apply m c t q _ _ ⟨_, hQ⟩ e0 e1 rfl, iblk5_apply m c t q _ _ ⟨_, hQ⟩ f0 f1 rfl,
    iblk6_apply m c t q _ _ ⟨_, hQ⟩ g0 g1 rfl, iblk7_apply m c t q _ _ ⟨_, hQ⟩ h0 h1 rfl]

/-- An index of the result is in point `t`'s block iff each coordinate is in the block's range on its axis. -/
theorem mem_blk8 (t : Fin cfg0.N) (i : S8192x8192.Idx) :
    i ∈ ((cfg0.win 8).blk t).view.set ↔ ∀ a : Fin 2, win0_8.index t a * S1024x1024.size a ≤ (i a).val
      ∧ (i a).val < win0_8.index t a * S1024x1024.size a + S1024x1024.size a := by
  show i ∈ ((View.whole main_v53).slice (win0_8.rect t)).set ↔ _
  rw [View.set_slice_whole, Rect.mem_set_unit]
  exact Iff.rfl

/-- Every index of the result is in some point's block: the point at block row `P / 1024`, block column `Q / 1024`. -/
theorem covered8 (i : S8192x8192.Idx) :
    ∃ t : Fin cfg0.N, (cfg0.win 8).flush t = true ∧ i ∈ ((cfg0.win 8).blk t).view.set := by
  have hi0 : (i 0).val < 8192 := (i 0).isLt
  have hi1 : (i 1).val < 8192 := (i 1).isLt
  obtain ⟨t, ht⟩ := idx_onto8 ⟨(i 0).val / 1024, by omega⟩ ⟨(i 1).val / 1024, by omega⟩
  have q0 : win0_8.index t (0 : Fin 2) = (i 0).val / 1024 := congrFun ht 0
  have q1 : win0_8.index t (1 : Fin 2) = (i 1).val / 1024 := congrFun ht 1
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1024 ≤ (i 1).val ∧ (i 1).val < win0_8.index t (1 : Fin 2) * 1024 + 1024; omega

/-- The result array after the launch: the Gram matrix of the four tables the launch finds. -/
theorem final8 (c : Dev nD) :
    (dats m 0 c).arrAt 8 cfg0.N = gramArr (V m c main_v51 : S8192x8.Idx → BitVec 32) (V m c main_v52 : S8192x8.Idx → BitVec 32) (V m c main_v49 : S8192x8.Idx → EReal) (V m c main_v50 : S8192x8.Idx → EReal) :=
  (dats m 0 c).arrAt_eq_of_cover 8 _ (fun t _ => flushed8_eq m c t) covered8

end Cert.KernelIdeal.Hand

end
-- ==== Proof.TableDefs.lean ====
/-
  The four interpolation tables as plain functions of the sample positions `x`.

  Band `k` of point `P` has the phase `freq k · x P`; its Fourier feature is the sine (even bands) or cosine (odd bands) of the
  phase, moved into [0, 1]. The feature falls into a grid cell of width 1/512: `cellL` is that cell and `cellR` the next one,
  `leftW` and `rightW` the two linear-interpolation weights. A weight is kept only where its cell lies inside the grid
  (`maskL`, `maskR`); the cells are clipped into 0 … 511. Every definition is the composition of the array operations in the
  order the programs apply them.
-/
import Idealize.ShloMosaic.PureOps.Ideal
import proofs.«148301_j79766132621757_2_alg».proof.Proof.Spec

noncomputable section

namespace Cert.Gram

open Idealize.ShloMosaic

/-- The scalar shape. -/
abbrev S0 : Shape := ⟨0, ![]⟩
/-- One entry per band. -/
abbrev SB : Shape := ⟨1, ![8]⟩
/-- One row of bands. -/
abbrev S1B : Shape := ⟨2, ![1, 8]⟩
/-- One entry per point. -/
abbrev SP : Shape := ⟨1, ![8192]⟩
/-- One column of points. -/
abbrev SP1 : Shape := ⟨2, ![8192, 1]⟩

theorem bc_S0_SB : S0.BroadcastsInDim SB (![] : Fin 0 → Fin SB.rank) := by decide
theorem bc_SB_S1B : SB.BroadcastsInDim S1B (![1] : Fin 1 → Fin S1B.rank) := by decide
theorem bc_S0_S1B : S0.BroadcastsInDim S1B (![] : Fin 0 → Fin S1B.rank) := by decide
theorem bc_SP_SP1 : SP.BroadcastsInDim SP1 (![0] : Fin 1 → Fin SP1.rank) := by decide
theorem bc_S1B_ST : S1B.BroadcastsInDim ST (![0, 1] : Fin 2 → Fin ST.rank) := by decide
theorem bc_SP1_ST : SP1.BroadcastsInDim ST (![0, 1] : Fin 2 → Fin ST.rank) := by decide
theorem bc_SB_ST : SB.BroadcastsInDim ST (![1] : Fin 1 → Fin ST.rank) := by decide
theorem bc_S0_ST : S0.BroadcastsInDim ST (![] : Fin 0 → Fin ST.rank) := by decide

variable {F : FTy → Type} [FloatOps F]

/-- The band counter: band `k` holds `k`. -/
def bandIx : IVec SB 32 :=
  iotaInDim SB 32 0

/-- The band counter divided by 2, truncated toward zero. -/
def bandQuot : IVec SB 32 :=
  Host.divsi bandIx ((broadcastInDim SB ![] bc_S0_SB) (id (constantI S0 32 2#32)))

/-- The band counter divided by 2, rounded down: the truncated quotient, less one where the signs differ and the division is not exact. -/
def halfBand : IVec SB 32 :=
  select (andi ((cmpi .ne) (signi bandIx) ((broadcastInDim SB ![] bc_S0_SB) (signi (id (constantI S0 32 2#32))))) ((cmpi .ne) (Host.remsi bandIx ((broadcastInDim SB ![] bc_S0_SB) (id (constantI S0 32 2#32)))) ((broadcastInDim SB ![] bc_S0_SB) (constantI S0 32 0#32)))) (subi bandQuot ((broadcastInDim SB ![] bc_S0_SB) (constantI S0 32 1#32))) bandQuot

/-- The modulus 2, replaced by 1 if it were 0. -/
def modulus : IVec S0 32 :=
  select ((cmpi .eq) (id (constantI S0 32 2#32)) (constantI S0 32 0#32)) (constantI S0 32 1#32) (id (constantI S0 32 2#32))

/-- The band counter's truncated remainder by the modulus. -/
def bandRem : IVec SB 32 :=
  Host.remsi bandIx ((broadcastInDim SB ![] bc_S0_SB) modulus)

/-- The band counter modulo 2, with the sign of the modulus. -/
def bandParity : IVec SB 32 :=
  select (andi ((cmpi .ne) ((cmpi .slt) bandRem ((broadcastInDim SB ![] bc_S0_SB) (constantI S0 32 0#32))) ((broadcastInDim SB ![] bc_S0_SB) ((cmpi .slt) modulus (constantI S0 32 0#32)))) ((cmpi .ne) bandRem ((broadcastInDim SB ![] bc_S0_SB) (constantI S0 32 0#32)))) (addi bandRem ((broadcastInDim SB ![] bc_S0_SB) modulus)) bandRem

/-- The bit of an even band. -/
def evenBand : IVec SB 1 :=
  (cmpi .eq) bandParity ((broadcastInDim SB ![] bc_S0_SB) (constantI S0 32 0#32))

/-- The band's frequency: 2 xor (band / 2), as a float, times the 32-bit pi. -/
def freq : FVec F S1B .f32 :=
  mulf ((broadcastInDim S1B ![1] bc_SB_S1B) ((sitofp .f32) (xori ((broadcastInDim SB ![] bc_S0_SB) (constantI S0 32 2#32)) halfBand))) ((broadcastInDim S1B ![] bc_S0_S1B) (constant S0 .f32 0x40490FDB#32))

/-- The phase of point `P` in band `k`: the band's frequency times `x P`. -/
def phase (x : FVec F SP .f32) : FVec F ST .f32 :=
  mulf ((broadcastInDim ST ![0, 1] bc_S1B_ST) (freq (F := F))) ((broadcastInDim ST ![0, 1] bc_SP1_ST) ((broadcastInDim SP1 ![0] bc_SP_SP1) x))

/-- The sine of the phase on even bands, the cosine on odd ones. -/
def wave (x : FVec F SP .f32) : FVec F ST .f32 :=
  select ((broadcastInDim ST ![1] bc_SB_ST) evenBand) (Host.sin (phase x)) (Host.cos (phase x))

/-- The Fourier feature: (wave + 1) · 1/2. -/
def fourier (x : FVec F SP .f32) : FVec F ST .f32 :=
  mulf (addf (wave x) ((broadcastInDim ST ![] bc_S0_ST) (constant S0 .f32 0x3F800000#32))) ((broadcastInDim ST ![] bc_S0_ST) (constant S0 .f32 0x3F000000#32))

/-- The left grid position, as a float: the floor of the feature divided by 1/512. -/
def leftF (x : FVec F SP .f32) : FVec F ST .f32 :=
  Host.floor (Host.divf (fourier x) ((broadcastInDim ST ![] bc_S0_ST) (constant S0 .f32 0x3B000000#32)))

/-- The unmasked left weight: |feature − (left + 1) / 512| · 512. -/
def leftW (x : FVec F SP .f32) : FVec F ST .f32 :=
  mulf (Host.absf (subf (fourier x) (Host.divf (addf (leftF x) ((broadcastInDim ST ![] bc_S0_ST) (constant S0 .f32 0x3F800000#32))) ((broadcastInDim ST ![] bc_S0_ST) (constant S0 .f32 0x44000000#32))))) ((broadcastInDim ST ![] bc_S0_ST) (constant S0 .f32 0x44000000#32))

/-- The unmasked right weight: |feature − left / 512| · 512. -/
def rightW (x : FVec F SP .f32) : FVec F ST .f32 :=
  mulf (Host.absf (subf (fourier x) (Host.divf (leftF x) ((broadcastInDim ST ![] bc_S0_ST) (constant S0 .f32 0x44000000#32))))) ((broadcastInDim ST ![] bc_S0_ST) (constant S0 .f32 0x44000000#32))

/-- The left cell: the left grid position as a 32-bit integer. -/
def cellL (x : FVec F SP .f32) : IVec ST 32 :=
  (fptosi 32) (leftF x)

/-- The right cell: the left cell plus 1. -/
def cellR (x : FVec F SP .f32) : IVec ST 32 :=
  addi (cellL x) ((broadcastInDim ST ![] bc_S0_ST) (constantI S0 32 1#32))

/-- The left weight is kept where 0 < left cell < 512 (signed). -/
def maskL (x : FVec F SP .f32) : IVec ST 1 :=
  andi ((cmpi .sgt) (cellL x) ((broadcastInDim ST ![] bc_S0_ST) (constantI S0 32 0#32))) ((cmpi .slt) (cellL x) ((broadcastInDim ST ![] bc_S0_ST) (constantI S0 32 512#32)))

/-- The right weight is kept where right cell < 512 (signed). -/
def maskR (x : FVec F SP .f32) : IVec ST 1 :=
  (cmpi .slt) (cellR x) ((broadcastInDim ST ![] bc_S0_ST) (constantI S0 32 512#32))

/-- The table of left weights: the left weight where kept, else 0. -/
def lwT (x : FVec F SP .f32) : FVec F ST .f32 :=
  select (maskL x) (leftW x) ((broadcastInDim ST ![] bc_S0_ST) (id (constant S0 .f32 0x00000000#32)))

/-- The table of right weights: the right weight where kept, else 0. -/
def rwT (x : FVec F SP .f32) : FVec F ST .f32 :=
  select (maskR x) (rightW x) ((broadcastInDim ST ![] bc_S0_ST) (id (constant S0 .f32 0x00000000#32)))

/-- The table of left cells, clipped (signed) into 0 … 511. -/
def liT (x : FVec F SP .f32) : IVec ST 32 :=
  minsi ((broadcastInDim ST ![] bc_S0_ST) (id (constantI S0 32 511#32))) (maxsi ((broadcastInDim ST ![] bc_S0_ST) (id (constantI S0 32 0#32))) (cellL x))

/-- The table of right cells, clipped (signed) into 0 … 511. -/
def riT (x : FVec F SP .f32) : IVec ST 32 :=
  minsi ((broadcastInDim ST ![] bc_S0_ST) (id (constantI S0 32 511#32))) (maxsi ((broadcastInDim ST ![] bc_S0_ST) (id (constantI S0 32 0#32))) (cellR x))

end Cert.Gram

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.LibClipRange.lean ====
/-
  A signed clip into [0, 511] leaves a word below 512.

  The larger of 0 and a 32-bit word, compared signed, is not negative; the smaller of 511 and that is at most 511;
  so the result, read as a natural number, is below 512. Stated for one word and for a table clipped against two
  broadcast constant tables reading 0 and 511, for any shapes and any way of broadcasting.
-/
import Idealize.ShloMosaic.Lib.ValueIdx

namespace Cert.LibClipRange

open Idealize.ShloMosaic

/-- The smaller of 511 and the larger of 0 and a word, compared signed, is below 512. -/
theorem clip_word_lt (x : BitVec 32) : (IntOp.minsi 511#32 (IntOp.maxsi 0#32 x)).toNat < 512 := by
  unfold IntOp.minsi IntOp.maxsi
  have h511 : (511#32 : BitVec 32).toInt = 511 := rfl
  have h0 : (0#32 : BitVec 32).toInt = 0 := rfl
  have h511n : (511#32 : BitVec 32).toNat = 511 := rfl
  have h0n : (0#32 : BitVec 32).toNat = 0 := rfl
  have hx := x.isLt
  have hxi := BitVec.toInt_eq_toNat_cond x
  by_cases hneg : x.slt 0#32 = true
  · rw [if_pos hneg]
    have : (511#32 : BitVec 32).slt 0#32 = false := by decide
    rw [if_neg (by rw [this]; exact Bool.false_ne_true), h0n]
    omega
  · rw [if_neg hneg]
    have hge : ¬ x.toInt < 0 := by
      intro h
      apply hneg
      show decide (x.toInt < (0#32 : BitVec 32).toInt) = true
      rw [h0]; exact decide_eq_true h
    by_cases hbig : (511#32 : BitVec 32).slt x = true
    · rw [if_pos hbig, h511n]; omega
    · rw [if_neg hbig]
      have hle : ¬ (511 : ℤ) < x.toInt := by
        intro h
        apply hbig
        show decide ((511#32 : BitVec 32).toInt < x.toInt) = true
        rw [h511]; exact decide_eq_true h
      split_ifs at hxi with hc <;> omega

/-- A clip into [0, 511] written as the minimum of a broadcast 511 with the maximum of a broadcast 0 and the
    table has every word below 512 — for any shapes, any way of broadcasting, and any two constant tables
    reading 0 and 511. -/
theorem clip_lt {s0 s : Shape} (dims : Fin s0.rank → Fin s.rank) (h : s0.BroadcastsInDim s dims)
    (lo hi : IVec s0 32) (hlo : ∀ i, lo i = 0#32) (hhi : ∀ i, hi i = 511#32) (v : IVec s 32) (j : s.Idx) :
    (minsi (broadcastInDim s dims h hi) (maxsi (broadcastInDim s dims h lo) v) j).toNat < 512 := by
  show (IntOp.minsi (hi _) (IntOp.maxsi (lo _) (v j))).toNat < 512
  rw [hlo, hhi]
  exact clip_word_lt (v j)

end Cert.LibClipRange
-- ==== Proof.Tables.lean ====
/-
  The four tables the launch finds in memory are the plain table functions of the argument array.
-/
import proofs.«148301_j79766132621757_2_alg».proof.Proof.KIMain
import proofs.«148301_j79766132621757_2_alg».proof.Proof.TableDefs
import proofs.«148301_j79766132621757_2_alg».proof.Proof.LibReadThrough
import proofs.«148301_j79766132621757_2_alg».proof.Proof.LibClipRange

set_option maxRecDepth 16384

noncomputable section

namespace Cert.KernelIdeal.Tables

open Idealize.ShloMosaic Idealize.ShloMosaic.TcCoe
open Idealize.SL.Sem
open Cert.KernelIdeal Cert.KernelIdeal.Gen Cert.KernelIdeal.Hand

variable {F : FTy → Type} [FloatOps F]

variable (m : (ℓ : Loc nD τ sig) → Buf (Elt F) ℓ)

/-! Each proof reads the fold of the host operations before the launch at one buffer, in one pass, down to the argument
    array; what is left is the table function's own composition of the same operations. -/

/-- The left-weight table the launch finds is the left-weight function of the argument array. -/
theorem V_lwT (c : Dev nD) :
    (V m c main_v49 : S8192x8.Idx → F .f32) = Cert.Gram.lwT (m ((c : Thread nD τ).loc main_arg0)) := by
  dsimp only [V]
  simp only [hostStretches, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results_through
  rfl

/-- The right-weight table the launch finds is the right-weight function of the argument array. -/
theorem V_rwT (c : Dev nD) :
    (V m c main_v50 : S8192x8.Idx → F .f32) = Cert.Gram.rwT (m ((c : Thread nD τ).loc main_arg0)) := by
  dsimp only [V]
  simp only [hostStretches, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results_through
  rfl

/-- The left-cell table the launch finds is the clipped left-cell function of the argument array. -/
theorem V_liT (c : Dev nD) :
    (V m c main_v51 : S8192x8.Idx → BitVec 32) = Cert.Gram.liT (m ((c : Thread nD τ).loc main_arg0)) := by
  dsimp only [V]
  simp only [hostStretches, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results_through
  rfl

/-- The right-cell table the launch finds is the clipped right-cell function of the argument array. -/
theorem V_riT (c : Dev nD) :
    (V m c main_v52 : S8192x8.Idx → BitVec 32) = Cert.Gram.riT (m ((c : Thread nD τ).loc main_arg0)) := by
  dsimp only [V]
  simp only [hostStretches, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append,
    List.nil_append]
  after_results_through
  rfl

end Cert.KernelIdeal.Tables

end
-- ==== Proof.KIFinal.lean ====
/-
  The result array after the launch, as a function of the argument array: the Gram matrix of its four tables.
-/
import proofs.«148301_j79766132621757_2_alg».proof.Proof.KIValue
import proofs.«148301_j79766132621757_2_alg».proof.Proof.Tables

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- The result array after the launch is the Gram matrix of the clipped cells and masked weights of the argument array. -/
theorem final8_arg (c : Dev nD) :
    (dats m 0 c).arrAt 8 cfg0.N
      = gramArr (Cert.Gram.liT (F := Ideal) (m ((c : Thread nD τ).loc main_arg0))) (Cert.Gram.riT (F := Ideal) (m ((c : Thread nD τ).loc main_arg0)))
          (Cert.Gram.lwT (F := Ideal) (m ((c : Thread nD τ).loc main_arg0))) (Cert.Gram.rwT (F := Ideal) (m ((c : Thread nD τ).loc main_arg0))) := by
  rw [final8, Cert.KernelIdeal.Tables.V_liT m c, Cert.KernelIdeal.Tables.V_riT m c, Cert.KernelIdeal.Tables.V_lwT m c,
    Cert.KernelIdeal.Tables.V_rwT m c]

end Cert.KernelIdeal.Hand

end
-- ==== Proof.TableRange.lean ====
/-
  The clipped cells lie in the grid: every entry of the two cell tables, read as a natural number, is below 512.
-/
import proofs.«148301_j79766132621757_2_alg».proof.Proof.TableDefs
import proofs.«148301_j79766132621757_2_alg».proof.Proof.LibClipRange

namespace Cert.Gram

open Idealize.ShloMosaic

variable {F : FTy → Type} [FloatOps F]

/-- A clipped left cell is below 512. -/
theorem liT_lt (x : FVec F SP .f32) (j : ST.Idx) : (liT x j).toNat < 512 := by
  unfold liT
  exact Cert.LibClipRange.clip_lt _ _ _ _ (fun _ => rfl) (fun _ => rfl) _ j

/-- A clipped right cell is below 512. -/
theorem riT_lt (x : FVec F SP .f32) (j : ST.Idx) : (riT x j).toNat < 512 := by
  unfold riT
  exact Cert.LibClipRange.clip_lt _ _ _ _ (fun _ => rfl) (fun _ => rfl) _ j

end Cert.Gram
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.RefRun.lean ====
/-
  The reference program's @main as ONE straight line of host operations, and its run.

  @main calls seven small functions (a floor division and a remainder of an index vector by two, three selects, two
  clamps); two of them call a select themselves.  A call executes the callee's body on the operands, so here every
  call is replaced by the callee's operations over that call's own buffers, a nested call's likewise: the line has
  178 operations, listed in the three stretches the program is printed in.  Every weakly fair execution then
  terminates with every buffer at the fold of those operations over the launch contents; in particular the
  argument array is left as it was (no operation writes it).
-/
import proofs.«148301_j79766132621757_2_alg».proof.Defs
import proofs.«148301_j79766132621757_2_alg».proof.Proof.Gen.ReferenceIdeal
import proofs.«148301_j79766132621757_2_alg».proof.Proof.Gen.Pre_finite_inputs
import Idealize.ShloMosaic.Lib.StableHlo.Run
import proofs.«148301_j79766132621757_2_alg».proof.Proof.LibAlignedLines

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 97 of 178: the first stretch of @main, its calls replaced by the callees' operations. -/
abbrev ops0 : List (HloOp τ sig (Elt F)) :=
  [ StableHlo.nullary main_v0 (iotaInDim S8 32 0),
    StableHlo.nullary main_c (constantI S_ 32 2#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S8, .i32⟩) (broadcastInDim S8 ![] bcast_S_S8),
    StableHlo.TRef.binary (.of main_v0 : StableHlo.TRef sig ⟨S8, .i32⟩) (.of main_call0_v1 : StableHlo.TRef sig ⟨S8, .i32⟩) (.of main_call0_v2 : StableHlo.TRef sig ⟨S8, .i32⟩) Host.divsi,
    StableHlo.TRef.unary (.of main_v0 : StableHlo.TRef sig ⟨S8, .i32⟩) (.of main_call0_v3 : StableHlo.TRef sig ⟨S8, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S8, .i32⟩) (broadcastInDim S8 ![] bcast_S_S8),
    StableHlo.TRef.binary (.of main_call0_v3 : StableHlo.TRef sig ⟨S8, .i32⟩) (.of main_call0_v5 : StableHlo.TRef sig ⟨S8, .i32⟩) (.of main_call0_v6 : StableHlo.TRef sig ⟨S8, .i1⟩) (cmpi .ne),
    StableHlo.TRef.unary (.of main_call0_v0 : StableHlo.TRef sig ⟨S_, .i32⟩) (.of main_call0_v7 : StableHlo.TRef sig ⟨S8, .i32⟩) (broadcastInDim S8 ![] bcast_S_S8),
    StableHlo.TRef.binary (.of main_v0 : StableHlo.TRef sig ⟨S8, .i32⟩) (.of main_call0_v7 : StableHlo.TRef sig ⟨S8, .i32⟩) (.of main_call0_v8 : StableHlo.TRef sig ⟨S8, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S8, .i32⟩) (broadcastInDim S8 ![] bcast_S_S8),
    StableHlo.TRef.binary (.of main_call0_v8 : StableHlo.TRef sig ⟨S8, .i32⟩) (.of main_call0_v9 : StableHlo.TRef sig ⟨S8, .i32⟩) (.of main_call0_v10 : StableHlo.TRef sig ⟨S8, .i1⟩) (cmpi .ne),
    StableHlo.TRef.binary (.of main_call0_v6 : StableHlo.TRef sig ⟨S8, .i1⟩) (.of main_call0_v10 : StableHlo.TRef sig ⟨S8, .i1⟩) (.of main_call0_v11 : StableHlo.TRef sig ⟨S8, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S8, .i32⟩) (broadcastInDim S8 ![] bcast_S_S8),
    StableHlo.TRef.binary (.of main_call0_v2 : StableHlo.TRef sig ⟨S8, .i32⟩) (.of main_call0_v12 : StableHlo.TRef sig ⟨S8, .i32⟩) (.of main_call0_v13 : StableHlo.TRef sig ⟨S8, .i32⟩) subi,
    StableHlo.TRef.ternary (.of main_call0_v11 : StableHlo.TRef sig ⟨S8, .i1⟩) (.of main_call0_v13 : StableHlo.TRef sig ⟨S8, .i32⟩) (.of main_call0_v2 : StableHlo.TRef sig ⟨S8, .i32⟩) (.of main_v1 : StableHlo.TRef sig ⟨S8, .i32⟩) select,
    StableHlo.nullary main_c_0 (constantI S_ 32 2#32),
    StableHlo.unary main_c_0 main_v2 (broadcastInDim S8 ![] bcast_S_S8 : (⟨S_, .i32⟩ : BufTy).Contents (Elt F) → (⟨S8, .i32⟩ : BufTy).Contents (Elt F)),
    StableHlo.binary main_v2 main_v1 main_v3 (xori : (⟨S8, .i32⟩ : BufTy).Contents (Elt F) → (⟨S8, .i32⟩ : BufTy).Contents (Elt F) → (⟨S8, .i32⟩ : BufTy).Contents (Elt F)),
    StableHlo.unary main_v3 main_v4 (sitofp .f32 : (⟨S8, .i32⟩ : BufTy).Contents (Elt F) → (⟨S8, .f32⟩ : BufTy).Contents (Elt F)),
    StableHlo.unary main_v4 main_v5 (broadcastInDim S1x8 ![1] bcast_S8_S1x8_1 : (⟨S8, .f32⟩ : BufTy).Contents (Elt F) → (⟨S1x8, .f32⟩ : BufTy).Contents (Elt F)),
    StableHlo.nullary main_cst (constant S_ .f32 0x40490FDB#32),
    StableHlo.unary main_cst main_v6 (broadcastInDim S1x8 ![] bcast_S_S1x8 : (⟨S_, .f32⟩ : BufTy).Contents (Elt F) → (⟨S1x8, .f32⟩ : BufTy).Contents (Elt F)),
    StableHlo.binary main_v5 main_v6 main_v7 (mulf : (⟨S1x8, .f32⟩ : BufTy).Contents (Elt F) → (⟨S1x8, .f32⟩ : BufTy).Contents (Elt F) → (⟨S1x8, .f32⟩ : BufTy).Contents (Elt F)),
    StableHlo.unary main_arg0 main_v8 (broadcastInDim S8192x1 ![0] bcast_S8192_S8192x1_0 : (⟨S8192, .f32⟩ : BufTy).Contents (Elt F) → (⟨S8192x1, .f32⟩ : BufTy).Contents (Elt F)),
    StableHlo.unary main_v7 main_v9 (broadcastInDim S8192x8 ![0, 1] bcast_S1x8_S8192x8_0_1 : (⟨S1x8, .f32⟩ : BufTy).Contents (Elt F) → (⟨S8192x8, .f32⟩ : BufTy).Contents (Elt F)),
    StableHlo.unary main_v8 main_v10 (broadcastInDim S8192x8 ![0, 1] bcast_S8192x1_S8192x8_0_1 : (⟨S8192x1, .f32⟩ : BufTy).Contents (Elt F) → (⟨S8192x8, .f32⟩ : BufTy).Contents (Elt F)),
    StableHlo.binary main_v9 main_v10 main_v11 (mulf : (⟨S8192x8, .f32⟩ : BufTy).Contents (Elt F) → (⟨S8192x8, .f32⟩ : BufTy).Contents (Elt F) → (⟨S8192x8, .f32⟩ : BufTy).Contents (Elt F)),
    StableHlo.nullary main_c_1 (constantI S_ 32 2#32),
    StableHlo.TRef.unary (.of main_c_1 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S8, .i32⟩) (broadcastInDim S8 ![] bcast_S_S8),
    StableHlo.TRef.binary (.of main_v0 : StableHlo.TRef sig ⟨S8, .i32⟩) (.of main_call1_v3 : StableHlo.TRef sig ⟨S8, .i32⟩) (.of main_call1_v4 : StableHlo.TRef sig ⟨S8, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S8, .i32⟩) (broadcastInDim S8 ![] bcast_S_S8),
    StableHlo.TRef.binary (.of main_call1_v4 : StableHlo.TRef sig ⟨S8, .i32⟩) (.of main_call1_v5 : StableHlo.TRef sig ⟨S8, .i32⟩) (.of main_call1_v6 : StableHlo.TRef sig ⟨S8, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S8, .i32⟩) (broadcastInDim S8 ![] bcast_S_S8),
    StableHlo.TRef.binary (.of main_call1_v4 : StableHlo.TRef sig ⟨S8, .i32⟩) (.of main_call1_v7 : StableHlo.TRef sig ⟨S8, .i32⟩) (.of main_call1_v8 : StableHlo.TRef sig ⟨S8, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S8, .i1⟩) (broadcastInDim S8 ![] bcast_S_S8),
    StableHlo.TRef.binary (.of main_call1_v8 : StableHlo.TRef sig ⟨S8, .i1⟩) (.of main_call1_v10 : StableHlo.TRef sig ⟨S8, .i1⟩) (.of main_call1_v11 : StableHlo.TRef sig ⟨S8, .i1⟩) (cmpi .ne),
    StableHlo.TRef.binary (.of main_call1_v11 : StableHlo.TRef sig ⟨S8, .i1⟩) (.of main_call1_v6 : StableHlo.TRef sig ⟨S8, .i1⟩) (.of main_call1_v12 : StableHlo.TRef sig ⟨S8, .i1⟩) andi,
    StableHlo.TRef.unary (.of main_call1_v2 : StableHlo.TRef sig ⟨S_, .i32⟩) (.of main_call1_v13 : StableHlo.TRef sig ⟨S8, .i32⟩) (broadcastInDim S8 ![] bcast_S_S8),
    StableHlo.TRef.binary (.of main_call1_v4 : StableHlo.TRef sig ⟨S8, .i32⟩) (.of main_call1_v13 : StableHlo.TRef sig ⟨S8, .i32⟩) (.of main_call1_v14 : StableHlo.TRef sig ⟨S8, .i32⟩) addi,
    StableHlo.TRef.ternary (.of main_call1_v12 : StableHlo.TRef sig ⟨S8, .i1⟩) (.of main_call1_v14 : StableHlo.TRef sig ⟨S8, .i32⟩) (.of main_call1_v4 : StableHlo.TRef sig ⟨S8, .i32⟩) (.of main_v12 : StableHlo.TRef sig ⟨S8, .i32⟩) select,
    StableHlo.nullary main_c_2 (constantI S_ 32 0#32),
    StableHlo.unary main_c_2 main_v13 (broadcastInDim S8 ![] bcast_S_S8 : (⟨S_, .i32⟩ : BufTy).Contents (Elt F) → (⟨S8, .i32⟩ : BufTy).Contents (Elt F)),
    StableHlo.binary main_v12 main_v13 main_v14 (cmpi .eq : (⟨S8, .i32⟩ : BufTy).Contents (Elt F) → (⟨S8, .i32⟩ : BufTy).Contents (Elt F) → (⟨S8, .i1⟩ : BufTy).Contents (Elt F)),
    StableHlo.unary main_v11 main_v15 (Host.sin : (⟨S8192x8, .f32⟩ : BufTy).Contents (Elt F) → (⟨S8192x8, .f32⟩ : BufTy).Contents (Elt F)),
    StableHlo.unary main_v11 main_v16 (Host.cos : (⟨S8192x8, .f32⟩ : BufTy).Contents (Elt F) → (⟨S8192x8, .f32⟩ : BufTy).Contents (Elt F)),
    StableHlo.TRef.unary (.of main_v14 : StableHlo.TRef sig ⟨S8, .i1⟩) (.of main_call2_v0 : StableHlo.TRef sig ⟨S8192x8, .i1⟩) (broadcastInDim S8192x8 ![1] bcast_S8_S8192x8_1),
    StableHlo.TRef.ternary (.of main_call2_v0 : StableHlo.TRef sig ⟨S8192x8, .i1⟩) (.of main_v15 : StableHlo.TRef sig ⟨S8192x8, .f32⟩) (.of main_v16 : StableHlo.TRef sig ⟨S8192x8, .f32⟩) (.of main_v17 : StableHlo.TRef sig ⟨S8192x8, .f32⟩) select,
    StableHlo.nullary main_cst_3 (constant S_ .f32 0x3F800000#32),
    StableHlo.unary main_cst_3 main_v18 (broadcastInDim S8192x8 ![] bcast_S_S8192x8 : (⟨S_, .f32⟩ : BufTy).Contents (Elt F) → (⟨S8192x8, .f32⟩ : BufTy).Contents (Elt F)),
    StableHlo.binary main_v17 main_v18 main_v19 (addf : (⟨S8192x8, .f32⟩ : BufTy).Contents (Elt F) → (⟨S8192x8, .f32⟩ : BufTy).Contents (Elt F) → (⟨S8192x8, .f32⟩ : BufTy).Contents (Elt F)),
    StableHlo.nullary main_cst_4 (constant S_ .f32 0x3F000000#32),
    StableHlo.unary main_cst_4 main_v20 (broadcastInDim S8192x8 ![] bcast_S_S8192x8 : (⟨S_, .f32⟩ : BufTy).Contents (Elt F) → (⟨S8192x8, .f32⟩ : BufTy).Contents (Elt F)),
    StableHlo.binary main_v19 main_v20 main_v21 (mulf : (⟨S8192x8, .f32⟩ : BufTy).Contents (Elt F) → (⟨S8192x8, .f32⟩ : BufTy).Contents (Elt F) → (⟨S8192x8, .f32⟩ : BufTy).Contents (Elt F)),
    StableHlo.nullary main_cst_5 (constant S_ .f32 0x3B000000#32),
    StableHlo.unary main_cst_5 main_v22 (broadcastInDim S8192x8 ![] bcast_S_S8192x8 : (⟨S_, .f32⟩ : BufTy).Contents (Elt F) → (⟨S8192x8, .f32⟩ : BufTy).Contents (Elt F)),
    StableHlo.binary main_v21 main_v22 main_v23 (Host.divf : (⟨S8192x8, .f32⟩ : BufTy).Contents (Elt F) → (⟨S8192x8, .f32⟩ : BufTy).Contents (Elt F) → (⟨S8192x8, .f32⟩ : BufTy).Contents (Elt F)),
    StableHlo.unary main_v23 main_v24 (Host.floor : (⟨S8192x8, .f32⟩ : BufTy).Contents (Elt F) → (⟨S8192x8, .f32⟩ : BufTy).Contents (Elt F)),
    StableHlo.nullary main_cst_6 (constant S_ .f32 0x3F800000#32),
    StableHlo.unary main_cst_6 main_v25 (broadcastInDim S8192x8 ![] bcast_S_S8192x8 : (⟨S_, .f32⟩ : BufTy).Contents (Elt F) → (⟨S8192x8, .f32⟩ : BufTy).Contents (Elt F)),
    StableHlo.binary main_v24 main_v25 main_v26 (addf : (⟨S8192x8, .f32⟩ : BufTy).Contents (Elt F) → (⟨S8192x8, .f32⟩ : BufTy).Contents (Elt F) → (⟨S8192x8, .f32⟩ : BufTy).Contents (Elt F)),
    StableHlo.nullary main_cst_7 (constant S_ .f32 0x44000000#32),
    StableHlo.unary main_cst_7 main_v27 (broadcastInDim S8192x8 ![] bcast_S_S8192x8 : (⟨S_, .f32⟩ : BufTy).Contents (Elt F) → (⟨S8192x8, .f32⟩ : BufTy).Contents (Elt F)),
    StableHlo.binary main_v26 main_v27 main_v28 (Host.divf : (⟨S8192x8, .f32⟩ : BufTy).Contents (Elt F) → (⟨S8192x8, .f32⟩ : BufTy).Contents (Elt F) → (⟨S8192x8, .f32⟩ : BufTy).Contents (Elt F)),
    StableHlo.binary main_v21 main_v28 main_v29 (subf : (⟨S8192x8, .f32⟩ : BufTy).Contents (Elt F) → (⟨S8192x8, .f32⟩ : BufTy).Contents (Elt F) → (⟨S8192x8, .f32⟩ : BufTy).Contents (Elt F)),
    StableHlo.unary main_v29 main_v30 (Host.absf : (⟨S8192x8, .f32⟩ : BufTy).Contents (Elt F) → (⟨S8192x8, .f32⟩ : BufTy).Contents (Elt F)),
    StableHlo.nullary main_cst_8 (constant S_ .f32 0x44000000#32),
    StableHlo.unary main_cst_8 main_v31 (broadcastInDim S8192x8 ![] bcast_S_S8192x8 : (⟨S_, .f32⟩ : BufTy).Contents (Elt F) → (⟨S8192x8, .f32⟩ : BufTy).Contents (Elt F)),
    StableHlo.binary main_v30 main_v31 main_v32 (mulf : (⟨S8192x8, .f32⟩ : BufTy).Contents (Elt F) → (⟨S8192x8, .f32⟩ : BufTy).Contents (Elt F) → (⟨S8192x8, .f32⟩ : BufTy).Contents (Elt F)),
    StableHlo.nullary main_cst_9 (constant S_ .f32 0x44000000#32),
    StableHlo.unary main_cst_9 main_v33 (broadcastInDim S8192x8 ![] bcast_S_S8192x8 : (⟨S_, .f32⟩ : BufTy).Contents (Elt F) → (⟨S8192x8, .f32⟩ : BufTy).Contents (Elt F)),
    StableHlo.binary main_v24 main_v33 main_v34 (Host.divf : (⟨S8192x8, .f32⟩ : BufTy).Contents (Elt F) → (⟨S8192x8, .f32⟩ : BufTy).Contents (Elt F) → (⟨S8192x8, .f32⟩ : BufTy).Contents (Elt F)),
    StableHlo.binary main_v21 main_v34 main_v35 (subf : (⟨S8192x8, .f32⟩ : BufTy).Contents (Elt F) → (⟨S8192x8, .f32⟩ : BufTy).Contents (Elt F) → (⟨S8192x8, .f32⟩ : BufTy).Contents (Elt F)),
    StableHlo.unary main_v35 main_v36 (Host.absf : (⟨S8192x8, .f32⟩ : BufTy).Contents (Elt F) → (⟨S8192x8, .f32⟩ : BufTy).Contents (Elt F)),
    StableHlo.nullary main_cst_10 (constant S_ .f32 0x44000000#32),
    StableHlo.unary main_cst_10 main_v37 (broadcastInDim S8192x8 ![] bcast_S_S8192x8 : (⟨S_, .f32⟩ : BufTy).Contents (Elt F) → (⟨S8192x8, .f32⟩ : BufTy).Contents (Elt F)),
    StableHlo.binary main_v36 main_v37 main_v38 (mulf : (⟨S8192x8, .f32⟩ : BufTy).Contents (Elt F) → (⟨S8192x8, .f32⟩ : BufTy).Contents (Elt F) → (⟨S8192x8, .f32⟩ : BufTy).Contents (Elt F)),
    StableHlo.unary main_v24 main_v39 (fptosi 32 : (⟨S8192x8, .f32⟩ : BufTy).Contents (Elt F) → (⟨S8192x8, .i32⟩ : BufTy).Contents (Elt F)),
    StableHlo.nullary main_c_11 (constantI S_ 32 1#32),
    StableHlo.unary main_c_11 main_v40 (broadcastInDim S8192x8 ![] bcast_S_S8192x8 : (⟨S_, .i32⟩ : BufTy).Contents (Elt F) → (⟨S8192x8, .i32⟩ : BufTy).Contents (Elt F)),
    StableHlo.binary main_v39 main_v40 main_v41 (addi : (⟨S8192x8, .i32⟩ : BufTy).Contents (Elt F) → (⟨S8192x8, .i32⟩ : BufTy).Contents (Elt F) → (⟨S8192x8, .i32⟩ : BufTy).Contents (Elt F)),
    StableHlo.nullary main_c_12 (constantI S_ 32 0#32),
    StableHlo.unary main_c_12 main_v42 (broadcastInDim S8192x8 ![] bcast_S_S8192x8 : (⟨S_, .i32⟩ : BufTy).Contents (Elt F) → (⟨S8192x8, .i32⟩ : BufTy).Contents (Elt F)),
    StableHlo.binary main_v39 main_v42 main_v43 (cmpi .sgt : (⟨S8192x8, .i32⟩ : BufTy).Contents (Elt F) → (⟨S8192x8, .i32⟩ : BufTy).Contents (Elt F) → (⟨S8192x8, .i1⟩ : BufTy).Contents (Elt F)),
    StableHlo.nullary main_c_13 (constantI S_ 32 512#32) ]

/-- Operations 98 … 171 of 178: the second stretch of @main, its calls replaced by the callees' operations. -/
abbrev ops1 : List (HloOp τ sig (Elt F)) :=
  [ StableHlo.unary main_c_13 main_v44 (broadcastInDim S8192x8 ![] bcast_S_S8192x8 : (⟨S_, .i32⟩ : BufTy).Contents (Elt F) → (⟨S8192x8, .i32⟩ : BufTy).Contents (Elt F)),
    StableHlo.binary main_v39 main_v44 main_v45 (cmpi .slt : (⟨S8192x8, .i32⟩ : BufTy).Contents (Elt F) → (⟨S8192x8, .i32⟩ : BufTy).Contents (Elt F) → (⟨S8192x8, .i1⟩ : BufTy).Contents (Elt F)),
    StableHlo.binary main_v43 main_v45 main_v46 (andi : (⟨S8192x8, .i1⟩ : BufTy).Contents (Elt F) → (⟨S8192x8, .i1⟩ : BufTy).Contents (Elt F) → (⟨S8192x8, .i1⟩ : BufTy).Contents (Elt F)),
    StableHlo.nullary main_c_14 (constantI S_ 32 512#32),
    StableHlo.unary main_c_14 main_v47 (broadcastInDim S8192x8 ![] bcast_S_S8192x8 : (⟨S_, .i32⟩ : BufTy).Contents (Elt F) → (⟨S8192x8, .i32⟩ : BufTy).Contents (Elt F)),
    StableHlo.binary main_v41 main_v47 main_v48 (cmpi .slt : (⟨S8192x8, .i32⟩ : BufTy).Contents (Elt F) → (⟨S8192x8, .i32⟩ : BufTy).Contents (Elt F) → (⟨S8192x8, .i1⟩ : BufTy).Contents (Elt F)),
    StableHlo.nullary main_cst_15 (constant S_ .f32 0x00000000#32),
    StableHlo.TRef.unary (.of main_cst_15 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S8192x8, .f32⟩) (broadcastInDim S8192x8 ![] bcast_S_S8192x8),
    StableHlo.TRef.ternary (.of main_v46 : StableHlo.TRef sig ⟨S8192x8, .i1⟩) (.of main_v32 : StableHlo.TRef sig ⟨S8192x8, .f32⟩) (.of main_call3_v1 : StableHlo.TRef sig ⟨S8192x8, .f32⟩) (.of main_v49 : StableHlo.TRef sig ⟨S8192x8, .f32⟩) select,
    StableHlo.nullary main_cst_16 (constant S_ .f32 0x00000000#32),
    StableHlo.TRef.unary (.of main_cst_16 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S8192x8, .f32⟩) (broadcastInDim S8192x8 ![] bcast_S_S8192x8),
    StableHlo.TRef.ternary (.of main_v48 : StableHlo.TRef sig ⟨S8192x8, .i1⟩) (.of main_v38 : StableHlo.TRef sig ⟨S8192x8, .f32⟩) (.of main_call4_v1 : StableHlo.TRef sig ⟨S8192x8, .f32⟩) (.of main_v50 : StableHlo.TRef sig ⟨S8192x8, .f32⟩) select,
    StableHlo.unary main_v0 main_v51 (broadcastInDim S1x8 ![1] bcast_S8_S1x8_1 : (⟨S8, .i32⟩ : BufTy).Contents (Elt F) → (⟨S1x8, .i32⟩ : BufTy).Contents (Elt F)),
    StableHlo.nullary main_c_17 (constantI S_ 32 512#32),
    StableHlo.unary main_c_17 main_v52 (broadcastInDim S1x8 ![] bcast_S_S1x8 : (⟨S_, .i32⟩ : BufTy).Contents (Elt F) → (⟨S1x8, .i32⟩ : BufTy).Contents (Elt F)),
    StableHlo.binary main_v52 main_v51 main_v53 (muli : (⟨S1x8, .i32⟩ : BufTy).Contents (Elt F) → (⟨S1x8, .i32⟩ : BufTy).Contents (Elt F) → (⟨S1x8, .i32⟩ : BufTy).Contents (Elt F)),
    StableHlo.nullary main_c_18 (constantI S_ 32 0#32),
    StableHlo.nullary main_c_19 (constantI S_ 32 511#32),
    StableHlo.TRef.unary (.of main_c_18 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S8192x8, .i32⟩) (broadcastInDim S8192x8 ![] bcast_S_S8192x8),
    StableHlo.TRef.binary (.of main_call5_v1 : StableHlo.TRef sig ⟨S8192x8, .i32⟩) (.of main_v39 : StableHlo.TRef sig ⟨S8192x8, .i32⟩) (.of main_call5_v2 : StableHlo.TRef sig ⟨S8192x8, .i32⟩) maxsi,
    StableHlo.TRef.unary (.of main_c_19 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S8192x8, .i32⟩) (broadcastInDim S8192x8 ![] bcast_S_S8192x8),
    StableHlo.TRef.binary (.of main_call5_v4 : StableHlo.TRef sig ⟨S8192x8, .i32⟩) (.of main_call5_v2 : StableHlo.TRef sig ⟨S8192x8, .i32⟩) (.of main_v54 : StableHlo.TRef sig ⟨S8192x8, .i32⟩) minsi,
    StableHlo.unary main_v53 main_v55 (broadcastInDim S8192x8 ![0, 1] bcast_S1x8_S8192x8_0_1 : (⟨S1x8, .i32⟩ : BufTy).Contents (Elt F) → (⟨S8192x8, .i32⟩ : BufTy).Contents (Elt F)),
    StableHlo.binary main_v55 main_v54 main_v56 (addi : (⟨S8192x8, .i32⟩ : BufTy).Contents (Elt F) → (⟨S8192x8, .i32⟩ : BufTy).Contents (Elt F) → (⟨S8192x8, .i32⟩ : BufTy).Contents (Elt F)),
    StableHlo.nullary main_c_20 (constantI S_ 32 0#32),
    StableHlo.nullary main_c_21 (constantI S_ 32 511#32),
    StableHlo.TRef.unary (.of main_c_20 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S8192x8, .i32⟩) (broadcastInDim S8192x8 ![] bcast_S_S8192x8),
    StableHlo.TRef.binary (.of main_call6_v1 : StableHlo.TRef sig ⟨S8192x8, .i32⟩) (.of main_v41 : StableHlo.TRef sig ⟨S8192x8, .i32⟩) (.of main_call6_v2 : StableHlo.TRef sig ⟨S8192x8, .i32⟩) maxsi,
    StableHlo.TRef.unary (.of main_c_21 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S8192x8, .i32⟩) (broadcastInDim S8192x8 ![] bcast_S_S8192x8),
    StableHlo.TRef.binary (.of main_call6_v4 : StableHlo.TRef sig ⟨S8192x8, .i32⟩) (.of main_call6_v2 : StableHlo.TRef sig ⟨S8192x8, .i32⟩) (.of main_v57 : StableHlo.TRef sig ⟨S8192x8, .i32⟩) minsi,
    StableHlo.unary main_v53 main_v58 (broadcastInDim S8192x8 ![0, 1] bcast_S1x8_S8192x8_0_1 : (⟨S1x8, .i32⟩ : BufTy).Contents (Elt F) → (⟨S8192x8, .i32⟩ : BufTy).Contents (Elt F)),
    StableHlo.binary main_v58 main_v57 main_v59 (addi : (⟨S8192x8, .i32⟩ : BufTy).Contents (Elt F) → (⟨S8192x8, .i32⟩ : BufTy).Contents (Elt F) → (⟨S8192x8, .i32⟩ : BufTy).Contents (Elt F)),
    StableHlo.nullary main_v60 (iotaInDim S8192 32 0),
    StableHlo.unary main_v60 main_v61 (broadcastInDim S8192x1 ![0] bcast_S8192_S8192x1_0 : (⟨S8192, .i32⟩ : BufTy).Contents (Elt F) → (⟨S8192x1, .i32⟩ : BufTy).Contents (Elt F)),
    StableHlo.unary main_v61 main_v62 (broadcastInDim S8192x8 ![0, 1] bcast_S8192x1_S8192x8_0_1 : (⟨S8192x1, .i32⟩ : BufTy).Contents (Elt F) → (⟨S8192x8, .i32⟩ : BufTy).Contents (Elt F)),
    StableHlo.nullary main_cst_22 (constant S_ .f32 0x00000000#32),
    StableHlo.unary main_cst_22 main_v63 (broadcastInDim S8192x4096 ![] bcast_S_S8192x4096 : (⟨S_, .f32⟩ : BufTy).Contents (Elt F) → (⟨S8192x4096, .f32⟩ : BufTy).Contents (Elt F)),
    StableHlo.nullary main_c_23 (constantI S_ 32 0#32),
    StableHlo.unary main_c_23 main_v64 (broadcastInDim S8192x8 ![] bcast_S_S8192x8 : (⟨S_, .i32⟩ : BufTy).Contents (Elt F) → (⟨S8192x8, .i32⟩ : BufTy).Contents (Elt F)),
    StableHlo.binary main_v62 main_v64 main_v65 (cmpi .slt : (⟨S8192x8, .i32⟩ : BufTy).Contents (Elt F) → (⟨S8192x8, .i32⟩ : BufTy).Contents (Elt F) → (⟨S8192x8, .i1⟩ : BufTy).Contents (Elt F)),
    StableHlo.nullary main_c_24 (constantI S_ 32 8192#32),
    StableHlo.unary main_c_24 main_v66 (broadcastInDim S8192x8 ![] bcast_S_S8192x8 : (⟨S_, .i32⟩ : BufTy).Contents (Elt F) → (⟨S8192x8, .i32⟩ : BufTy).Contents (Elt F)),
    StableHlo.binary main_v62 main_v66 main_v67 (addi : (⟨S8192x8, .i32⟩ : BufTy).Contents (Elt F) → (⟨S8192x8, .i32⟩ : BufTy).Contents (Elt F) → (⟨S8192x8, .i32⟩ : BufTy).Contents (Elt F)),
    StableHlo.ternary main_v65 main_v67 main_v62 main_v68 (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)),
    StableHlo.nullary main_c_25 (constantI S_ 32 0#32),
    StableHlo.unary main_c_25 main_v69 (broadcastInDim S8192x8 ![] bcast_S_S8192x8 : (⟨S_, .i32⟩ : BufTy).Contents (Elt F) → (⟨S8192x8, .i32⟩ : BufTy).Contents (Elt F)),
    StableHlo.binary main_v56 main_v69 main_v70 (cmpi .slt : (⟨S8192x8, .i32⟩ : BufTy).Contents (Elt F) → (⟨S8192x8, .i32⟩ : BufTy).Contents (Elt F) → (⟨S8192x8, .i1⟩ : BufTy).Contents (Elt F)),
    StableHlo.nullary main_c_26 (constantI S_ 32 4096#32),
    StableHlo.unary main_c_26 main_v71 (broadcastInDim S8192x8 ![] bcast_S_S8192x8 : (⟨S_, .i32⟩ : BufTy).Contents (Elt F) → (⟨S8192x8, .i32⟩ : BufTy).Contents (Elt F)),
    StableHlo.binary main_v56 main_v71 main_v72 (addi : (⟨S8192x8, .i32⟩ : BufTy).Contents (Elt F) → (⟨S8192x8, .i32⟩ : BufTy).Contents (Elt F) → (⟨S8192x8, .i32⟩ : BufTy).Contents (Elt F)),
    StableHlo.ternary main_v70 main_v72 main_v56 main_v73 (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)),
    StableHlo.unary main_v68 main_v74 (broadcastInDim S8192x8x1 ![0, 1] bcast_S8192x8_S8192x8x1_0_1 : (⟨S8192x8, .i32⟩ : BufTy).Contents (Elt F) → (⟨S8192x8x1, .i32⟩ : BufTy).Contents (Elt F)),
    StableHlo.unary main_v73 main_v75 (broadcastInDim S8192x8x1 ![0, 1] bcast_S8192x8_S8192x8x1_0_1 : (⟨S8192x8, .i32⟩ : BufTy).Contents (Elt F) → (⟨S8192x8x1, .i32⟩ : BufTy).Contents (Elt F)),
    StableHlo.binary main_v74 main_v75 main_v76 ((fun a b => concatenate S8192x8x2 2 [⟨S8192x8x1, a⟩, ⟨S8192x8x1, b⟩] concatenates_S8192x8x1_S8192x8x1_S8192x8x2_d2) : (⟨S8192x8x1, .i32⟩ : BufTy).Contents (Elt F) → (⟨S8192x8x1, .i32⟩ : BufTy).Contents (Elt F) → (⟨S8192x8x2, .i32⟩ : BufTy).Contents (Elt F)),
    StableHlo.ternary main_v63 main_v76 main_v49 main_v77 ((fun x i u => Host.scatterAdd scatter_S8192x4096_S8192x8x2_S8192x8_n_01_01_2 x i u) : (⟨S8192x4096, .f32⟩ : BufTy).Contents (Elt F) → (⟨S8192x8x2, .i32⟩ : BufTy).Contents (Elt F) → (⟨S8192x8, .f32⟩ : BufTy).Contents (Elt F) → (⟨S8192x4096, .f32⟩ : BufTy).Contents (Elt F)),
    StableHlo.nullary main_c_27 (constantI S_ 32 0#32),
    StableHlo.unary main_c_27 main_v78 (broadcastInDim S8192x8 ![] bcast_S_S8192x8 : (⟨S_, .i32⟩ : BufTy).Contents (Elt F) → (⟨S8192x8, .i32⟩ : BufTy).Contents (Elt F)),
    StableHlo.binary main_v62 main_v78 main_v79 (cmpi .slt : (⟨S8192x8, .i32⟩ : BufTy).Contents (Elt F) → (⟨S8192x8, .i32⟩ : BufTy).Contents (Elt F) → (⟨S8192x8, .i1⟩ : BufTy).Contents (Elt F)),
    StableHlo.nullary main_c_28 (constantI S_ 32 8192#32),
    StableHlo.unary main_c_28 main_v80 (broadcastInDim S8192x8 ![] bcast_S_S8192x8 : (⟨S_, .i32⟩ : BufTy).Contents (Elt F) → (⟨S8192x8, .i32⟩ : BufTy).Contents (Elt F)),
    StableHlo.binary main_v62 main_v80 main_v81 (addi : (⟨S8192x8, .i32⟩ : BufTy).Contents (Elt F) → (⟨S8192x8, .i32⟩ : BufTy).Contents (Elt F) → (⟨S8192x8, .i32⟩ : BufTy).Contents (Elt F)),
    StableHlo.ternary main_v79 main_v81 main_v62 main_v82 (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)),
    StableHlo.nullary main_c_29 (constantI S_ 32 0#32),
    StableHlo.unary main_c_29 main_v83 (broadcastInDim S8192x8 ![] bcast_S_S8192x8 : (⟨S_, .i32⟩ : BufTy).Contents (Elt F) → (⟨S8192x8, .i32⟩ : BufTy).Contents (Elt F)),
    StableHlo.binary main_v59 main_v83 main_v84 (cmpi .slt : (⟨S8192x8, .i32⟩ : BufTy).Contents (Elt F) → (⟨S8192x8, .i32⟩ : BufTy).Contents (Elt F) → (⟨S8192x8, .i1⟩ : BufTy).Contents (Elt F)),
    StableHlo.nullary main_c_30 (constantI S_ 32 4096#32),
    StableHlo.unary main_c_30 main_v85 (broadcastInDim S8192x8 ![] bcast_S_S8192x8 : (⟨S_, .i32⟩ : BufTy).Contents (Elt F) → (⟨S8192x8, .i32⟩ : BufTy).Contents (Elt F)),
    StableHlo.binary main_v59 main_v85 main_v86 (addi : (⟨S8192x8, .i32⟩ : BufTy).Contents (Elt F) → (⟨S8192x8, .i32⟩ : BufTy).Contents (Elt F) → (⟨S8192x8, .i32⟩ : BufTy).Contents (Elt F)) ]

/-- Operations 172 … 178 of 178: the third stretch of @main, its calls replaced by the callees' operations. -/
abbrev ops2 : List (HloOp τ sig (Elt F)) :=
  [ StableHlo.ternary main_v84 main_v86 main_v59 main_v87 (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)),
    StableHlo.unary main_v82 main_v88 (broadcastInDim S8192x8x1 ![0, 1] bcast_S8192x8_S8192x8x1_0_1 : (⟨S8192x8, .i32⟩ : BufTy).Contents (Elt F) → (⟨S8192x8x1, .i32⟩ : BufTy).Contents (Elt F)),
    StableHlo.unary main_v87 main_v89 (broadcastInDim S8192x8x1 ![0, 1] bcast_S8192x8_S8192x8x1_0_1 : (⟨S8192x8, .i32⟩ : BufTy).Contents (Elt F) → (⟨S8192x8x1, .i32⟩ : BufTy).Contents (Elt F)),
    StableHlo.binary main_v88 main_v89 main_v90 ((fun a b => concatenate S8192x8x2 2 [⟨S8192x8x1, a⟩, ⟨S8192x8x1, b⟩] concatenates_S8192x8x1_S8192x8x1_S8192x8x2_d2) : (⟨S8192x8x1, .i32⟩ : BufTy).Contents (Elt F) → (⟨S8192x8x1, .i32⟩ : BufTy).Contents (Elt F) → (⟨S8192x8x2, .i32⟩ : BufTy).Contents (Elt F)),
    StableHlo.ternary main_v77 main_v90 main_v50 main_v91 ((fun x i u => Host.scatterAdd scatter_S8192x4096_S8192x8x2_S8192x8_n_01_01_2 x i u) : (⟨S8192x4096, .f32⟩ : BufTy).Contents (Elt F) → (⟨S8192x8x2, .i32⟩ : BufTy).Contents (Elt F) → (⟨S8192x8, .f32⟩ : BufTy).Contents (Elt F) → (⟨S8192x4096, .f32⟩ : BufTy).Contents (Elt F)),
    StableHlo.unary main_v91 main_v92 ((transpose S4096x8192 [1, 0] · transposes_S8192x4096_S4096x8192_1_0) : (⟨S8192x4096, .f32⟩ : BufTy).Contents (Elt F) → (⟨S4096x8192, .f32⟩ : BufTy).Contents (Elt F)),
    StableHlo.binary main_v91 main_v92 main_v93 ((fun l r => Host.dotGeneral dot_S8192x4096_S4096x8192_S8192x8192_1_0_0_1_n_n none l r) : (⟨S8192x4096, .f32⟩ : BufTy).Contents (Elt F) → (⟨S4096x8192, .f32⟩ : BufTy).Contents (Elt F) → (⟨S8192x8192, .f32⟩ : BufTy).Contents (Elt F)) ]

/-- @main's 178 operations, in order. -/
abbrev ops : List (HloOp τ sig (Elt F)) := ops0 ++ (ops1 ++ ops2)

set_option maxRecDepth 8192 in
set_option maxHeartbeats 4000000 in
/-- The first stretch is its operations run in order: the callees' definitions unfold at their calls. -/
theorem main_part0_eq (c : Dev nD) : main_part0 (F := F) c = seq ops0 := rfl

set_option maxRecDepth 8192 in
set_option maxHeartbeats 4000000 in
/-- The second stretch is its operations run in order: the callees' definitions unfold at their calls. -/
theorem main_part1_eq (c : Dev nD) : main_part1 (F := F) c = seq ops1 := rfl

set_option maxRecDepth 8192 in
set_option maxHeartbeats 4000000 in
/-- The third stretch is its operations run in order: the callees' definitions unfold at their calls. -/
theorem main_part2_eq (c : Dev nD) : main_part2 (F := F) c = seq ops2 := rfl

set_option maxRecDepth 8192 in
/-- @main is the whole line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., unary_bufs_sub .., unary_bufs_sub .., nullary_bufs_sub .., unary_bufs_sub .., binary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨ternary_bufs_sub .., unary_bufs_sub .., unary_bufs_sub .., binary_bufs_sub .., ternary_bufs_sub .., unary_bufs_sub .., binary_bufs_sub ..⟩

set_option maxRecDepth 8192 in
theorem ops2_fresh : (ops2 : List (HloOp τ sig (Elt F))).Forall fun op => op.fresh = ∅ :=
  ⟨rfl, rfl, rfl, rfl, rfl, rfl, rfl⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-- Every operation determines its result (none allocates). -/
theorem ops_fresh : ∀ op ∈ (ops : List (HloOp τ sig (Elt F))), op.fresh = ∅ := fun op h => by
  simp only [ops, List.mem_append] at h
  rcases h with h | h | h
  exacts [List.forall_iff_forall_mem.mp ops0_fresh op h, List.forall_iff_forall_mem.mp ops1_fresh op h, List.forall_iff_forall_mem.mp ops2_fresh op h]

/-- On every device, for any float values, from any memory with zero counters: every weakly fair execution of @main
    terminates with every TensorCore buffer at the fold of the operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ (fun r => ∀ (c : Dev nD) (b : Ref sig .tc),
      r.2.mem ((c.tc : Thread nD τ).loc b) = StableHlo.after ops (fun b => m (c, b)) (Proc.devRef .tc b)) :=
  run_seq scopedRefs_eq scopedSems_eq defs main (fun _ => ops) main_eq (fun _ => ops_sub) m ρ (fun _ => ops_fresh)

/-! ## The buffers the operations write

Operation by operation, the line writes one buffer each, all different: the lists below name them in order. -/

/-- The buffers written by the first stretch, in order. -/
abbrev Wl0 : List (Ref sig .tc) :=
  [ main_v0, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v1, main_c_0, main_v2, main_v3, main_v4, main_v5, main_cst, main_v6, main_v7, main_v8, main_v9, main_v10, main_v11, main_c_1, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v12, main_c_2, main_v13, main_v14, main_v15, main_v16, main_call2_v0, main_v17, main_cst_3, main_v18, main_v19, main_cst_4, main_v20, main_v21, main_cst_5, main_v22, main_v23, main_v24, main_cst_6, main_v25, main_v26, main_cst_7, main_v27, main_v28, main_v29, main_v30, main_cst_8, main_v31, main_v32, main_cst_9, main_v33, main_v34, main_v35, main_v36, main_cst_10, main_v37, main_v38, main_v39, main_c_11, main_v40, main_v41, main_c_12, main_v42, main_v43, main_c_13 ]

/-- The buffers written by the second stretch, in order. -/
abbrev Wl1 : List (Ref sig .tc) :=
  [ main_v44, main_v45, main_v46, main_c_14, main_v47, main_v48, main_cst_15, main_call3_v0, main_call3_v1, main_v49, main_cst_16, main_call4_v0, main_call4_v1, main_v50, main_v51, main_c_17, main_v52, main_v53, main_c_18, main_c_19, main_call5_v0, main_call5_v1, main_call5_v2, main_call5_v3, main_call5_v4, main_v54, main_v55, main_v56, main_c_20, main_c_21, main_call6_v0, main_call6_v1, main_call6_v2, main_call6_v3, main_call6_v4, main_v57, main_v58, main_v59, main_v60, main_v61, main_v62, main_cst_22, main_v63, main_c_23, main_v64, main_v65, main_c_24, main_v66, main_v67, main_v68, main_c_25, main_v69, main_v70, main_c_26, main_v71, main_v72, main_v73, main_v74, main_v75, main_v76, main_v77, main_c_27, main_v78, main_v79, main_c_28, main_v80, main_v81, main_v82, main_c_29, main_v83, main_v84, main_c_30, main_v85, main_v86 ]

/-- The buffers written by the third stretch, in order. -/
abbrev Wl2 : List (Ref sig .tc) :=
  [ main_v87, main_v88, main_v89, main_v90, main_v91, main_v92, main_v93 ]

/-- The buffers written by the whole line, in order. -/
abbrev Wl : List (Ref sig .tc) := Wl0 ++ (Wl1 ++ Wl2)

set_option maxRecDepth 8192 in
theorem aligned0 : AlignedLines.Aligned (τ := τ) (ops0 : List (HloOp τ sig (Elt F))) Wl0 :=
  (List.Forall₂.cons (nullary_writes ..) (List.Forall₂.cons (nullary_writes ..) (List.Forall₂.cons (unary_writes ..) (List.Forall₂.cons (unary_writes ..) (List.Forall₂.cons (binary_writes ..) (List.Forall₂.cons (unary_writes ..) (List.Forall₂.cons (unary_writes ..) (List.Forall₂.cons (unary_writes ..) (List.Forall₂.cons (binary_writes ..) (List.Forall₂.cons (unary_writes ..) (List.Forall₂.cons (binary_writes ..) (List.Forall₂.cons (nullary_writes ..) (List.Forall₂.cons (unary_writes ..) (List.Forall₂.cons (binary_writes ..) (List.Forall₂.cons (binary_writes ..) (List.Forall₂.cons (nullary_writes ..) (List.Forall₂.cons (unary_writes ..) (List.Forall₂.cons (binary_writes ..) (List.Forall₂.cons (ternary_writes ..) (List.Forall₂.cons (nullary_writes ..) (List.Forall₂.cons (unary_writes ..) (List.Forall₂.cons (binary_writes ..) (List.Forall₂.cons (unary_writes ..) (List.Forall₂.cons (unary_writes ..) (List.Forall₂.cons (nullary_writes ..) (List.Forall₂.cons (unary_writes ..) (List.Forall₂.cons (binary_writes ..) (List.Forall₂.cons (unary_writes ..) (List.Forall₂.cons (unary_writes ..) (List.Forall₂.cons (unary_writes ..) (List.Forall₂.cons (binary_writes ..) (List.Forall₂.cons (nullary_writes ..) (List.Forall₂.cons (unary_writes ..) (List.Forall₂.cons (nullary_writes ..) (List.Forall₂.cons (binary_writes ..) (List.Forall₂.cons (nullary_writes ..) (List.Forall₂.cons (ternary_writes ..) (List.Forall₂.cons (unary_writes ..) (List.Forall₂.cons (binary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (nullary_writes ..) (List.Forall₂.cons (binary_writes ..) (List.Forall₂.cons (unary_writes ..) (List.Forall₂.cons (binary_writes ..) (List.Forall₂.cons (binary_writes ..) (List.Forall₂.cons (unary_writes ..) (List.Forall₂.cons (binary_writes ..) (List.Forall₂.cons (ternary_writes ..) (List.Forall₂.cons (nullary_writes ..) (List.Forall₂.cons (unary_writes ..) (List.Forall₂.cons (binary_writes ..) (List.Forall₂.cons (unary_writes ..) (List.Forall₂.cons (unary_writes ..) (List.Forall₂.cons (unary_writes ..) (List.Forall₂.cons (ternary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (unary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (binary_writes ..) (List.Forall₂.cons (unary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (binary_writes ..) (List.Forall₂.cons (unary_writes ..) (List.Forall₂.cons (nullary_writes ..) (List.Forall₂.cons (unary_writes ..) (List.Forall₂.cons (binary_writes ..) (List.Forall₂.cons (unary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (nullary_writes ..) List.Forall₂.nil)))))))))))))))))))))))))))))))))))))))))))))))))))))))))))))))))))))))))))))))))))))))))))))))))

set_option maxRecDepth 8192 in
theorem aligned1 : AlignedLines.Aligned (τ := τ) (ops1 : List (HloOp τ sig (Elt F))) Wl1 :=
  (List.Forall₂.cons (unary_writes ..) (List.Forall₂.cons (binary_writes ..) (List.Forall₂.cons (binary_writes ..) (List.Forall₂.cons (nullary_writes ..) (List.Forall₂.cons (unary_writes ..) (List.Forall₂.cons (binary_writes ..) (List.Forall₂.cons (nullary_writes ..) (List.Forall₂.cons (unary_writes ..) (List.Forall₂.cons (unary_writes ..) (List.Forall₂.cons (ternary_writes ..) (List.Forall₂.cons (nullary_writes ..) (List.Forall₂.cons (unary_writes ..) (List.Forall₂.cons (unary_writes ..) (List.Forall₂.cons (ternary_writes ..) (List.Forall₂.cons (unary_writes ..) (List.Forall₂.cons (nullary_writes ..) (List.Forall₂.cons (unary_writes ..) (List.Forall₂.cons (binary_writes ..) (List.Forall₂.cons (nullary_writes ..) (List.Forall₂.cons (nullary_writes ..) (List.Forall₂.cons (unary_writes ..) (List.Forall₂.cons (unary_writes ..) (List.Forall₂.cons (binary_writes ..) (List.Forall₂.cons (unary_writes ..) (List.Forall₂.cons (unary_writes ..) (List.Forall₂.cons (binary_writes ..) (List.Forall₂.cons (unary_writes ..) (List.Forall₂.cons (binary_writes ..) (List.Forall₂.cons (nullary_writes ..) (List.Forall₂.cons (nullary_writes ..) (List.Forall₂.cons (unary_writes ..) (List.Forall₂.cons (unary_writes ..) (List.Forall₂.cons (binary_writes ..) (List.Forall₂.cons (unary_writes ..) (List.Forall₂.cons (unary_writes ..) (List.Forall₂.cons (binary_writes ..) (List.Forall₂.cons (unary_writes ..) (List.Forall₂.cons (binary_writes ..) (List.Forall₂.cons (nullary_writes ..) (List.Forall₂.cons (unary_writes ..) (List.Forall₂.cons (unary_writes ..) (List.Forall₂.cons (nullary_writes ..) (List.Forall₂.cons (unary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (ternary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (ternary_writes ..) (List.Forall₂.cons (unary_writes ..) (List.Forall₂.cons (unary_writes ..) (List.Forall₂.cons (binary_writes ..) (List.Forall₂.cons (ternary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) (List.Forall₂.cons (ternary_writes ..) (List.Forall₂.cons (nullary_writes ..) (List.Forall₂.cons (unary_writes ..) (List.Forall₂.cons (binary_writes ..) (List.Forall₂.cons (nullary_writes ..) (List.Forall₂.cons (unary_writes ..) (List.Forall₂.cons (binary_writes ..) List.Forall₂.nil))))))))))))))))))))))))))))))))))))))))))))))))))))))))))))))))))))))))))

set_option maxRecDepth 8192 in
theorem aligned2 : AlignedLines.Aligned (τ := τ) (ops2 : List (HloOp τ sig (Elt F))) Wl2 :=
  (List.Forall₂.cons (ternary_writes ..) (List.Forall₂.cons (unary_writes ..) (List.Forall₂.cons (unary_writes ..) (List.Forall₂.cons (binary_writes ..) (List.Forall₂.cons (ternary_writes ..) (List.Forall₂.cons (unary_writes ..) (List.Forall₂.cons (binary_writes ..) List.Forall₂.nil)))))))

/-- Position by position, the operations write exactly those buffers. -/
theorem aligned : AlignedLines.Aligned (τ := τ) (ops : List (HloOp τ sig (Elt F))) Wl :=
  aligned0.append (aligned1.append aligned2)

/-- The argument array is written by no operation. -/
theorem arg0_kept (V : Valuation τ sig (Elt F)) :
    StableHlo.after ops V (Proc.devRef .tc main_arg0) = V (Proc.devRef .tc main_arg0) :=
  aligned.after_of_not_mem V (by decide)

/-- The run, at the result and at the argument: the result is the fold at its buffer, the argument is unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v93) = StableHlo.after ops (fun b => m (c, b)) (Proc.devRef .tc main_v93)
      ∧ r.2.mem ((c.tc : Thread nD τ).loc main_arg0) = m ((c.tc : Thread nD τ).loc main_arg0)) :=
  (θ_run defs _ _).mono (fun _ h c => ⟨h c main_v93, (h c main_arg0).trans (arg0_kept _)⟩) (run_all m ρ)

/-- The reference runs and leaves its argument array unchanged. -/
theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.LibTypedLines.lean ====
/-
  Straight lines of host operations written through TYPED references.

  A typed reference is a buffer together with the fact that its type is a given value type; the typed builders
  transport contents along that fact when they read an operand and when they write the result. For a line in which
  operation `j` writes exactly reference `j` of a list `W` (the aligned lines of `LibAlignedLines`), the final
  contents of the result, READ AT ITS VALUE TYPE, are the operation's function of the final contents of the operands
  read at theirs: the transports stand outside the function, on single buffers. The type facts are equations whose
  one side is a variable, so they are substituted away and each statement is the untyped one.
-/
import proofs.«148301_j79766132621757_2_alg».proof.Proof.LibAlignedLines

noncomputable section

namespace Idealize.ShloMosaic.StableHlo.AlignedLines

open Idealize.ShloMosaic Idealize.SL.Sem Idealize.ShloMosaic.StableHlo

variable {τ : Topo} {sig : RefSig} {Val : EltTy → Type}
variable {l : List (HloOp τ sig Val)} {W : List (Ref sig .tc)}

/-- A typed two-operand operation at position `j`: its result, read at its value type, is the function of the
    operands' final contents read at theirs. -/
theorem Aligned.tbinary_at (h : Aligned l W) (V : Valuation τ sig Val) (j : Nat) {Ta Tb Ty : BufTy}
    (a : TRef sig Ta) (b : TRef sig Tb) (y : TRef sig Ty) (f : Ta.Contents Val → Tb.Contents Val → Ty.Contents Val)
    (hop : l[j]? = some (TRef.binary a b y f)) (hy' : y.ref ∉ W.drop (j + 1)) (ha' : a.ref ∉ W.drop j) (hb' : b.ref ∉ W.drop j) :
    y.ofBuf (after l V (Proc.devRef .tc y.ref))
      = f (a.ofBuf (after l V (Proc.devRef .tc a.ref))) (b.ofBuf (after l V (Proc.devRef .tc b.ref))) := by
  obtain ⟨ra, rfl, _, _⟩ := a
  obtain ⟨rb, rfl, _, _⟩ := b
  obtain ⟨ry, rfl, _, _⟩ := y
  exact h.binary_at V j hop hy' ha' hb'

/-- A typed three-operand operation at position `j`, likewise. -/
theorem Aligned.tternary_at (h : Aligned l W) (V : Valuation τ sig Val) (j : Nat) {Tc Ta Tb Ty : BufTy}
    (c : TRef sig Tc) (a : TRef sig Ta) (b : TRef sig Tb) (y : TRef sig Ty)
    (f : Tc.Contents Val → Ta.Contents Val → Tb.Contents Val → Ty.Contents Val)
    (hop : l[j]? = some (TRef.ternary c a b y f)) (hy' : y.ref ∉ W.drop (j + 1))
    (hc' : c.ref ∉ W.drop j) (ha' : a.ref ∉ W.drop j) (hb' : b.ref ∉ W.drop j) :
    y.ofBuf (after l V (Proc.devRef .tc y.ref))
      = f (c.ofBuf (after l V (Proc.devRef .tc c.ref))) (a.ofBuf (after l V (Proc.devRef .tc a.ref)))
          (b.ofBuf (after l V (Proc.devRef .tc b.ref))) := by
  obtain ⟨rc, rfl, _, _⟩ := c
  obtain ⟨ra, rfl, _, _⟩ := a
  obtain ⟨rb, rfl, _, _⟩ := b
  obtain ⟨ry, rfl, _, _⟩ := y
  exact h.ternary_at V j hop hy' hc' ha' hb'

/-- A typed one-operand operation at position `j`, likewise. -/
theorem Aligned.tunary_at (h : Aligned l W) (V : Valuation τ sig Val) (j : Nat) {Tx Ty : BufTy}
    (x : TRef sig Tx) (y : TRef sig Ty) (f : Tx.Contents Val → Ty.Contents Val)
    (hop : l[j]? = some (TRef.unary x y f)) (hy' : y.ref ∉ W.drop (j + 1)) (hx' : x.ref ∉ W.drop j) :
    y.ofBuf (after l V (Proc.devRef .tc y.ref)) = f (x.ofBuf (after l V (Proc.devRef .tc x.ref))) := by
  obtain ⟨rx, rfl, _, _⟩ := x
  obtain ⟨ry, rfl, _, _⟩ := y
  exact h.unary_at V j hop hy' hx'

end Idealize.ShloMosaic.StableHlo.AlignedLines

end
-- ==== Proof.RefLines.lean ====
/-
  Each buffer's final contents as its operation's function of its operands' final contents.

  The line of host operations writes every buffer once, so the contents a buffer ends with are what its operation
  computed from the contents its operands end with.  One statement per operation, in order; an operation written
  through typed references reads and writes its buffers at their own types, so its statement is the plain one.
-/
import proofs.«148301_j79766132621757_2_alg».proof.Proof.RefRun
import proofs.«148301_j79766132621757_2_alg».proof.Proof.LibTypedLines

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.StableHlo.AlignedLines

variable {F : FTy → Type} [FloatOps F]

theorem fin_main_v0 (V : Valuation τ sig (Elt F)) :
    after ops V (Proc.devRef .tc main_v0) = (iotaInDim S8 32 0) :=
  aligned.nullary_at V 0 (by rfl) (by decide)

theorem fin_main_c (V : Valuation τ sig (Elt F)) :
    after ops V (Proc.devRef .tc main_c) = (constantI S_ 32 2#32) :=
  aligned.nullary_at V 1 (by rfl) (by decide)

theorem fin_main_call0_v0 (V : Valuation τ sig (Elt F)) :
    after ops V (Proc.devRef .tc main_call0_v0) = (id : (⟨S_, .i32⟩ : BufTy).Contents (Elt F) → (⟨S_, .i32⟩ : BufTy).Contents (Elt F)) (after ops V (Proc.devRef .tc main_c)) :=
  aligned.tunary_at V 2 (.of main_c : StableHlo.TRef sig ⟨S_, .i32⟩) (.of main_call0_v0 : StableHlo.TRef sig ⟨S_, .i32⟩) id (by rfl) (by decide) (by decide)

theorem fin_main_call0_v1 (V : Valuation τ sig (Elt F)) :
    after ops V (Proc.devRef .tc main_call0_v1) = ((broadcastInDim S8 ![] bcast_S_S8) : (⟨S_, .i32⟩ : BufTy).Contents (Elt F) → (⟨S8, .i32⟩ : BufTy).Contents (Elt F)) (after ops V (Proc.devRef .tc main_call0_v0)) :=
  aligned.tunary_at V 3 (.of main_call0_v0 : StableHlo.TRef sig ⟨S_, .i32⟩) (.of main_call0_v1 : StableHlo.TRef sig ⟨S8, .i32⟩) (broadcastInDim S8 ![] bcast_S_S8) (by rfl) (by decide) (by decide)

theorem fin_main_call0_v2 (V : Valuation τ sig (Elt F)) :
    after ops V (Proc.devRef .tc main_call0_v2) = (Host.divsi : (⟨S8, .i32⟩ : BufTy).Contents (Elt F) → (⟨S8, .i32⟩ : BufTy).Contents (Elt F) → (⟨S8, .i32⟩ : BufTy).Contents (Elt F)) (after ops V (Proc.devRef .tc main_v0)) (after ops V (Proc.devRef .tc main_call0_v1)) :=
  aligned.tbinary_at V 4 (.of main_v0 : StableHlo.TRef sig ⟨S8, .i32⟩) (.of main_call0_v1 : StableHlo.TRef sig ⟨S8, .i32⟩) (.of main_call0_v2 : StableHlo.TRef sig ⟨S8, .i32⟩) Host.divsi (by rfl) (by decide) (by decide) (by decide)

theorem fin_main_call0_v3 (V : Valuation τ sig (Elt F)) :
    after ops V (Proc.devRef .tc main_call0_v3) = (signi : (⟨S8, .i32⟩ : BufTy).Contents (Elt F) → (⟨S8, .i32⟩ : BufTy).Contents (Elt F)) (after ops V (Proc.devRef .tc main_v0)) :=
  aligned.tunary_at V 5 (.of main_v0 : StableHlo.TRef sig ⟨S8, .i32⟩) (.of main_call0_v3 : StableHlo.TRef sig ⟨S8, .i32⟩) signi (by rfl) (by decide) (by decide)

theorem fin_main_call0_v4 (V : Valuation τ sig (Elt F)) :
    after ops V (Proc.devRef .tc main_call0_v4) = (signi : (⟨S_, .i32⟩ : BufTy).Contents (Elt F) → (⟨S_, .i32⟩ : BufTy).Contents (Elt F)) (after ops V (Proc.devRef .tc main_call0_v0)) :=
  aligned.tunary_at V 6 (.of main_call0_v0 : StableHlo.TRef sig ⟨S_, .i32⟩) (.of main_call0_v4 : StableHlo.TRef sig ⟨S_, .i32⟩) signi (by rfl) (by decide) (by decide)

theorem fin_main_call0_v5 (V : Valuation τ sig (Elt F)) :
    after ops V (Proc.devRef .tc main_call0_v5) = ((broadcastInDim S8 ![] bcast_S_S8) : (⟨S_, .i32⟩ : BufTy).Contents (Elt F) → (⟨S8, .i32⟩ : BufTy).Contents (Elt F)) (after ops V (Proc.devRef .tc main_call0_v4)) :=
  aligned.tunary_at V 7 (.of main_call0_v4 : StableHlo.TRef sig ⟨S_, .i32⟩) (.of main_call0_v5 : StableHlo.TRef sig ⟨S8, .i32⟩) (broadcastInDim S8 ![] bcast_S_S8) (by rfl) (by decide) (by decide)

theorem fin_main_call0_v6 (V : Valuation τ sig (Elt F)) :
    after ops V (Proc.devRef .tc main_call0_v6) = ((cmpi .ne) : (⟨S8, .i32⟩ : BufTy).Contents (Elt F) → (⟨S8, .i32⟩ : BufTy).Contents (Elt F) → (⟨S8, .i1⟩ : BufTy).Contents (Elt F)) (after ops V (Proc.devRef .tc main_call0_v3)) (after ops V (Proc.devRef .tc main_call0_v5)) :=
  aligned.tbinary_at V 8 (.of main_call0_v3 : StableHlo.TRef sig ⟨S8, .i32⟩) (.of main_call0_v5 : StableHlo.TRef sig ⟨S8, .i32⟩) (.of main_call0_v6 : StableHlo.TRef sig ⟨S8, .i1⟩) (cmpi .ne) (by rfl) (by decide) (by decide) (by decide)

theorem fin_main_call0_v7 (V : Valuation τ sig (Elt F)) :
    after ops V (Proc.devRef .tc main_call0_v7) = ((broadcastInDim S8 ![] bcast_S_S8) : (⟨S_, .i32⟩ : BufTy).Contents (Elt F) → (⟨S8, .i32⟩ : BufTy).Contents (Elt F)) (after ops V (Proc.devRef .tc main_call0_v0)) :=
  aligned.tunary_at V 9 (.of main_call0_v0 : StableHlo.TRef sig ⟨S_, .i32⟩) (.of main_call0_v7 : StableHlo.TRef sig ⟨S8, .i32⟩) (broadcastInDim S8 ![] bcast_S_S8) (by rfl) (by decide) (by decide)

theorem fin_main_call0_v8 (V : Valuation τ sig (Elt F)) :
    after ops V (Proc.devRef .tc main_call0_v8) = (Host.remsi : (⟨S8, .i32⟩ : BufTy).Contents (Elt F) → (⟨S8, .i32⟩ : BufTy).Contents (Elt F) → (⟨S8, .i32⟩ : BufTy).Contents (Elt F)) (after ops V (Proc.devRef .tc main_v0)) (after ops V (Proc.devRef .tc main_call0_v7)) :=
  aligned.tbinary_at V 10 (.of main_v0 : StableHlo.TRef sig ⟨S8, .i32⟩) (.of main_call0_v7 : StableHlo.TRef sig ⟨S8, .i32⟩) (.of main_call0_v8 : StableHlo.TRef sig ⟨S8, .i32⟩) Host.remsi (by rfl) (by decide) (by decide) (by decide)

theorem fin_main_call0_c (V : Valuation τ sig (Elt F)) :
    after ops V (Proc.devRef .tc main_call0_c) = ((constantI S_ 32 0#32) : (⟨S_, .i32⟩ : BufTy).Contents (Elt F)) :=
  aligned.nullary_at V 11 (by rfl) (by decide)

theorem fin_main_call0_v9 (V : Valuation τ sig (Elt F)) :
    after ops V (Proc.devRef .tc main_call0_v9) = ((broadcastInDim S8 ![] bcast_S_S8) : (⟨S_, .i32⟩ : BufTy).Contents (Elt F) → (⟨S8, .i32⟩ : BufTy).Contents (Elt F)) (after ops V (Proc.devRef .tc main_call0_c)) :=
  aligned.tunary_at V 12 (.of main_call0_c : StableHlo.TRef sig ⟨S_, .i32⟩) (.of main_call0_v9 : StableHlo.TRef sig ⟨S8, .i32⟩) (broadcastInDim S8 ![] bcast_S_S8) (by rfl) (by decide) (by decide)

theorem fin_main_call0_v10 (V : Valuation τ sig (Elt F)) :
    after ops V (Proc.devRef .tc main_call0_v10) = ((cmpi .ne) : (⟨S8, .i32⟩ : BufTy).Contents (Elt F) → (⟨S8, .i32⟩ : BufTy).Contents (Elt F) → (⟨S8, .i1⟩ : BufTy).Contents (Elt F)) (after ops V (Proc.devRef .tc main_call0_v8)) (after ops V (Proc.devRef .tc main_call0_v9)) :=
  aligned.tbinary_at V 13 (.of main_call0_v8 : StableHlo.TRef sig ⟨S8, .i32⟩) (.of main_call0_v9 : StableHlo.TRef sig ⟨S8, .i32⟩) (.of main_call0_v10 : StableHlo.TRef sig ⟨S8, .i1⟩) (cmpi .ne) (by rfl) (by decide) (by decide) (by decide)

theorem fin_main_call0_v11 (V : Valuation τ sig (Elt F)) :
    after ops V (Proc.devRef .tc main_call0_v11) = (andi : (⟨S8, .i1⟩ : BufTy).Contents (Elt F) → (⟨S8, .i1⟩ : BufTy).Contents (Elt F) → (⟨S8, .i1⟩ : BufTy).Contents (Elt F)) (after ops V (Proc.devRef .tc main_call0_v6)) (after ops V (Proc.devRef .tc main_call0_v10)) :=
  aligned.tbinary_at V 14 (.of main_call0_v6 : StableHlo.TRef sig ⟨S8, .i1⟩) (.of main_call0_v10 : StableHlo.TRef sig ⟨S8, .i1⟩) (.of main_call0_v11 : StableHlo.TRef sig ⟨S8, .i1⟩) andi (by rfl) (by decide) (by decide) (by decide)

theorem fin_main_call0_c_0 (V : Valuation τ sig (Elt F)) :
    after ops V (Proc.devRef .tc main_call0_c_0) = ((constantI S_ 32 1#32) : (⟨S_, .i32⟩ : BufTy).Contents (Elt F)) :=
  aligned.nullary_at V 15 (by rfl) (by decide)

theorem fin_main_call0_v12 (V : Valuation τ sig (Elt F)) :
    after ops V (Proc.devRef .tc main_call0_v12) = ((broadcastInDim S8 ![] bcast_S_S8) : (⟨S_, .i32⟩ : BufTy).Contents (Elt F) → (⟨S8, .i32⟩ : BufTy).Contents (Elt F)) (after ops V (Proc.devRef .tc main_call0_c_0)) :=
  aligned.tunary_at V 16 (.of main_call0_c_0 : StableHlo.TRef sig ⟨S_, .i32⟩) (.of main_call0_v12 : StableHlo.TRef sig ⟨S8, .i32⟩) (broadcastInDim S8 ![] bcast_S_S8) (by rfl) (by decide) (by decide)

theorem fin_main_call0_v13 (V : Valuation τ sig (Elt F)) :
    after ops V (Proc.devRef .tc main_call0_v13) = (subi : (⟨S8, .i32⟩ : BufTy).Contents (Elt F) → (⟨S8, .i32⟩ : BufTy).Contents (Elt F) → (⟨S8, .i32⟩ : BufTy).Contents (Elt F)) (after ops V (Proc.devRef .tc main_call0_v2)) (after ops V (Proc.devRef .tc main_call0_v12)) :=
  aligned.tbinary_at V 17 (.of main_call0_v2 : StableHlo.TRef sig ⟨S8, .i32⟩) (.of main_call0_v12 : StableHlo.TRef sig ⟨S8, .i32⟩) (.of main_call0_v13 : StableHlo.TRef sig ⟨S8, .i32⟩) subi (by rfl) (by decide) (by decide) (by decide)

theorem fin_main_v1 (V : Valuation τ sig (Elt F)) :
    after ops V (Proc.devRef .tc main_v1) = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after ops V (Proc.devRef .tc main_call0_v11)) (after ops V (Proc.devRef .tc main_call0_v13)) (after ops V (Proc.devRef .tc main_call0_v2)) :=
  aligned.tternary_at V 18 (.of main_call0_v11 : StableHlo.TRef sig ⟨S8, .i1⟩) (.of main_call0_v13 : StableHlo.TRef sig ⟨S8, .i32⟩) (.of main_call0_v2 : StableHlo.TRef sig ⟨S8, .i32⟩) (.of main_v1 : StableHlo.TRef sig ⟨S8, .i32⟩) select (by rfl) (by decide) (by decide) (by decide) (by decide)

theorem fin_main_c_0 (V : Valuation τ sig (Elt F)) :
    after ops V (Proc.devRef .tc main_c_0) = (constantI S_ 32 2#32) :=
  aligned.nullary_at V 19 (by rfl) (by decide)

theorem fin_main_v2 (V : Valuation τ sig (Elt F)) :
    after ops V (Proc.devRef .tc main_v2) = (broadcastInDim S8 ![] bcast_S_S8 : (⟨S_, .i32⟩ : BufTy).Contents (Elt F) → (⟨S8, .i32⟩ : BufTy).Contents (Elt F)) (after ops V (Proc.devRef .tc main_c_0)) :=
  aligned.unary_at V 20 (by rfl) (by decide) (by decide)

theorem fin_main_v3 (V : Valuation τ sig (Elt F)) :
    after ops V (Proc.devRef .tc main_v3) = (xori : (⟨S8, .i32⟩ : BufTy).Contents (Elt F) → (⟨S8, .i32⟩ : BufTy).Contents (Elt F) → (⟨S8, .i32⟩ : BufTy).Contents (Elt F)) (after ops V (Proc.devRef .tc main_v2)) (after ops V (Proc.devRef .tc main_v1)) :=
  aligned.binary_at V 21 (by rfl) (by decide) (by decide) (by decide)

theorem fin_main_v4 (V : Valuation τ sig (Elt F)) :
    after ops V (Proc.devRef .tc main_v4) = (sitofp .f32 : (⟨S8, .i32⟩ : BufTy).Contents (Elt F) → (⟨S8, .f32⟩ : BufTy).Contents (Elt F)) (after ops V (Proc.devRef .tc main_v3)) :=
  aligned.unary_at V 22 (by rfl) (by decide) (by decide)

theorem fin_main_v5 (V : Valuation τ sig (Elt F)) :
    after ops V (Proc.devRef .tc main_v5) = (broadcastInDim S1x8 ![1] bcast_S8_S1x8_1 : (⟨S8, .f32⟩ : BufTy).Contents (Elt F) → (⟨S1x8, .f32⟩ : BufTy).Contents (Elt F)) (after ops V (Proc.devRef .tc main_v4)) :=
  aligned.unary_at V 23 (by rfl) (by decide) (by decide)

theorem fin_main_cst (V : Valuation τ sig (Elt F)) :
    after ops V (Proc.devRef .tc main_cst) = (constant S_ .f32 0x40490FDB#32) :=
  aligned.nullary_at V 24 (by rfl) (by decide)

theorem fin_main_v6 (V : Valuation τ sig (Elt F)) :
    after ops V (Proc.devRef .tc main_v6) = (broadcastInDim S1x8 ![] bcast_S_S1x8 : (⟨S_, .f32⟩ : BufTy).Contents (Elt F) → (⟨S1x8, .f32⟩ : BufTy).Contents (Elt F)) (after ops V (Proc.devRef .tc main_cst)) :=
  aligned.unary_at V 25 (by rfl) (by decide) (by decide)

theorem fin_main_v7 (V : Valuation τ sig (Elt F)) :
    after ops V (Proc.devRef .tc main_v7) = (mulf : (⟨S1x8, .f32⟩ : BufTy).Contents (Elt F) → (⟨S1x8, .f32⟩ : BufTy).Contents (Elt F) → (⟨S1x8, .f32⟩ : BufTy).Contents (Elt F)) (after ops V (Proc.devRef .tc main_v5)) (after ops V (Proc.devRef .tc main_v6)) :=
  aligned.binary_at V 26 (by rfl) (by decide) (by decide) (by decide)

theorem fin_main_v8 (V : Valuation τ sig (Elt F)) :
    after ops V (Proc.devRef .tc main_v8) = (broadcastInDim S8192x1 ![0] bcast_S8192_S8192x1_0 : (⟨S8192, .f32⟩ : BufTy).Contents (Elt F) → (⟨S8192x1, .f32⟩ : BufTy).Contents (Elt F)) (after ops V (Proc.devRef .tc main_arg0)) :=
  aligned.unary_at V 27 (by rfl) (by decide) (by decide)

theorem fin_main_v9 (V : Valuation τ sig (Elt F)) :
    after ops V (Proc.devRef .tc main_v9) = (broadcastInDim S8192x8 ![0, 1] bcast_S1x8_S8192x8_0_1 : (⟨S1x8, .f32⟩ : BufTy).Contents (Elt F) → (⟨S8192x8, .f32⟩ : BufTy).Contents (Elt F)) (after ops V (Proc.devRef .tc main_v7)) :=
  aligned.unary_at V 28 (by rfl) (by decide) (by decide)

theorem fin_main_v10 (V : Valuation τ sig (Elt F)) :
    after ops V (Proc.devRef .tc main_v10) = (broadcastInDim S8192x8 ![0, 1] bcast_S8192x1_S8192x8_0_1 : (⟨S8192x1, .f32⟩ : BufTy).Contents (Elt F) → (⟨S8192x8, .f32⟩ : BufTy).Contents (Elt F)) (after ops V (Proc.devRef .tc main_v8)) :=
  aligned.unary_at V 29 (by rfl) (by decide) (by decide)

theorem fin_main_v11 (V : Valuation τ sig (Elt F)) :
    after ops V (Proc.devRef .tc main_v11) = (mulf : (⟨S8192x8, .f32⟩ : BufTy).Contents (Elt F) → (⟨S8192x8, .f32⟩ : BufTy).Contents (Elt F) → (⟨S8192x8, .f32⟩ : BufTy).Contents (Elt F)) (after ops V (Proc.devRef .tc main_v9)) (after ops V (Proc.devRef .tc main_v10)) :=
  aligned.binary_at V 30 (by rfl) (by decide) (by decide) (by decide)

theorem fin_main_c_1 (V : Valuation τ sig (Elt F)) :
    after ops V (Proc.devRef .tc main_c_1) = (constantI S_ 32 2#32) :=
  aligned.nullary_at V 31 (by rfl) (by decide)

theorem fin_main_call1_v0 (V : Valuation τ sig (Elt F)) :
    after ops V (Proc.devRef .tc main_call1_v0) = (id : (⟨S_, .i32⟩ : BufTy).Contents (Elt F) → (⟨S_, .i32⟩ : BufTy).Contents (Elt F)) (after ops V (Proc.devRef .tc main_c_1)) :=
  aligned.tunary_at V 32 (.of main_c_1 : StableHlo.TRef sig ⟨S_, .i32⟩) (.of main_call1_v0 : StableHlo.TRef sig ⟨S_, .i32⟩) id (by rfl) (by decide) (by decide)

theorem fin_main_call1_c (V : Valuation τ sig (Elt F)) :
    after ops V (Proc.devRef .tc main_call1_c) = ((constantI S_ 32 0#32) : (⟨S_, .i32⟩ : BufTy).Contents (Elt F)) :=
  aligned.nullary_at V 33 (by rfl) (by decide)

theorem fin_main_call1_v1 (V : Valuation τ sig (Elt F)) :
    after ops V (Proc.devRef .tc main_call1_v1) = ((cmpi .eq) : (⟨S_, .i32⟩ : BufTy).Contents (Elt F) → (⟨S_, .i32⟩ : BufTy).Contents (Elt F) → (⟨S_, .i1⟩ : BufTy).Contents (Elt F)) (after ops V (Proc.devRef .tc main_call1_v0)) (after ops V (Proc.devRef .tc main_call1_c)) :=
  aligned.tbinary_at V 34 (.of main_call1_v0 : StableHlo.TRef sig ⟨S_, .i32⟩) (.of main_call1_c : StableHlo.TRef sig ⟨S_, .i32⟩) (.of main_call1_v1 : StableHlo.TRef sig ⟨S_, .i1⟩) (cmpi .eq) (by rfl) (by decide) (by decide) (by decide)

theorem fin_main_call1_c_0 (V : Valuation τ sig (Elt F)) :
    after ops V (Proc.devRef .tc main_call1_c_0) = ((constantI S_ 32 1#32) : (⟨S_, .i32⟩ : BufTy).Contents (Elt F)) :=
  aligned.nullary_at V 35 (by rfl) (by decide)

theorem fin_main_call1_v2 (V : Valuation τ sig (Elt F)) :
    after ops V (Proc.devRef .tc main_call1_v2) = (select : (⟨S_, .i1⟩ : BufTy).Contents (Elt F) → (⟨S_, .i32⟩ : BufTy).Contents (Elt F) → (⟨S_, .i32⟩ : BufTy).Contents (Elt F) → (⟨S_, .i32⟩ : BufTy).Contents (Elt F)) (after ops V (Proc.devRef .tc main_call1_v1)) (after ops V (Proc.devRef .tc main_call1_c_0)) (after ops V (Proc.devRef .tc main_call1_v0)) :=
  aligned.tternary_at V 36 (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select (by rfl) (by decide) (by decide) (by decide) (by decide)

theorem fin_main_call1_v3 (V : Valuation τ sig (Elt F)) :
    after ops V (Proc.devRef .tc main_call1_v3) = ((broadcastInDim S8 ![] bcast_S_S8) : (⟨S_, .i32⟩ : BufTy).Contents (Elt F) → (⟨S8, .i32⟩ : BufTy).Contents (Elt F)) (after ops V (Proc.devRef .tc main_call1_v2)) :=
  aligned.tunary_at V 37 (.of main_call1_v2 : StableHlo.TRef sig ⟨S_, .i32⟩) (.of main_call1_v3 : StableHlo.TRef sig ⟨S8, .i32⟩) (broadcastInDim S8 ![] bcast_S_S8) (by rfl) (by decide) (by decide)

theorem fin_main_call1_v4 (V : Valuation τ sig (Elt F)) :
    after ops V (Proc.devRef .tc main_call1_v4) = (Host.remsi : (⟨S8, .i32⟩ : BufTy).Contents (Elt F) → (⟨S8, .i32⟩ : BufTy).Contents (Elt F) → (⟨S8, .i32⟩ : BufTy).Contents (Elt F)) (after ops V (Proc.devRef .tc main_v0)) (after ops V (Proc.devRef .tc main_call1_v3)) :=
  aligned.tbinary_at V 38 (.of main_v0 : StableHlo.TRef sig ⟨S8, .i32⟩) (.of main_call1_v3 : StableHlo.TRef sig ⟨S8, .i32⟩) (.of main_call1_v4 : StableHlo.TRef sig ⟨S8, .i32⟩) Host.remsi (by rfl) (by decide) (by decide) (by decide)

theorem fin_main_call1_c_1 (V : Valuation τ sig (Elt F)) :
    after ops V (Proc.devRef .tc main_call1_c_1) = ((constantI S_ 32 0#32) : (⟨S_, .i32⟩ : BufTy).Contents (Elt F)) :=
  aligned.nullary_at V 39 (by rfl) (by decide)

theorem fin_main_call1_v5 (V : Valuation τ sig (Elt F)) :
    after ops V (Proc.devRef .tc main_call1_v5) = ((broadcastInDim S8 ![] bcast_S_S8) : (⟨S_, .i32⟩ : BufTy).Contents (Elt F) → (⟨S8, .i32⟩ : BufTy).Contents (Elt F)) (after ops V (Proc.devRef .tc main_call1_c_1)) :=
  aligned.tunary_at V 40 (.of main_call1_c_1 : StableHlo.TRef sig ⟨S_, .i32⟩) (.of main_call1_v5 : StableHlo.TRef sig ⟨S8, .i32⟩) (broadcastInDim S8 ![] bcast_S_S8) (by rfl) (by decide) (by decide)

theorem fin_main_call1_v6 (V : Valuation τ sig (Elt F)) :
    after ops V (Proc.devRef .tc main_call1_v6) = ((cmpi .ne) : (⟨S8, .i32⟩ : BufTy).Contents (Elt F) → (⟨S8, .i32⟩ : BufTy).Contents (Elt F) → (⟨S8, .i1⟩ : BufTy).Contents (Elt F)) (after ops V (Proc.devRef .tc main_call1_v4)) (after ops V (Proc.devRef .tc main_call1_v5)) :=
  aligned.tbinary_at V 41 (.of main_call1_v4 : StableHlo.TRef sig ⟨S8, .i32⟩) (.of main_call1_v5 : StableHlo.TRef sig ⟨S8, .i32⟩) (.of main_call1_v6 : StableHlo.TRef sig ⟨S8, .i1⟩) (cmpi .ne) (by rfl) (by decide) (by decide) (by decide)

theorem fin_main_call1_c_2 (V : Valuation τ sig (Elt F)) :
    after ops V (Proc.devRef .tc main_call1_c_2) = ((constantI S_ 32 0#32) : (⟨S_, .i32⟩ : BufTy).Contents (Elt F)) :=
  aligned.nullary_at V 42 (by rfl) (by decide)

theorem fin_main_call1_v7 (V : Valuation τ sig (Elt F)) :
    after ops V (Proc.devRef .tc main_call1_v7) = ((broadcastInDim S8 ![] bcast_S_S8) : (⟨S_, .i32⟩ : BufTy).Contents (Elt F) → (⟨S8, .i32⟩ : BufTy).Contents (Elt F)) (after ops V (Proc.devRef .tc main_call1_c_2)) :=
  aligned.tunary_at V 43 (.of main_call1_c_2 : StableHlo.TRef sig ⟨S_, .i32⟩) (.of main_call1_v7 : StableHlo.TRef sig ⟨S8, .i32⟩) (broadcastInDim S8 ![] bcast_S_S8) (by rfl) (by decide) (by decide)

theorem fin_main_call1_v8 (V : Valuation τ sig (Elt F)) :
    after ops V (Proc.devRef .tc main_call1_v8) = ((cmpi .slt) : (⟨S8, .i32⟩ : BufTy).Contents (Elt F) → (⟨S8, .i32⟩ : BufTy).Contents (Elt F) → (⟨S8, .i1⟩ : BufTy).Contents (Elt F)) (after ops V (Proc.devRef .tc main_call1_v4)) (after ops V (Proc.devRef .tc main_call1_v7)) :=
  aligned.tbinary_at V 44 (.of main_call1_v4 : StableHlo.TRef sig ⟨S8, .i32⟩) (.of main_call1_v7 : StableHlo.TRef sig ⟨S8, .i32⟩) (.of main_call1_v8 : StableHlo.TRef sig ⟨S8, .i1⟩) (cmpi .slt) (by rfl) (by decide) (by decide) (by decide)

theorem fin_main_call1_c_3 (V : Valuation τ sig (Elt F)) :
    after ops V (Proc.devRef .tc main_call1_c_3) = ((constantI S_ 32 0#32) : (⟨S_, .i32⟩ : BufTy).Contents (Elt F)) :=
  aligned.nullary_at V 45 (by rfl) (by decide)

theorem fin_main_call1_v9 (V : Valuation τ sig (Elt F)) :
    after ops V (Proc.devRef .tc main_call1_v9) = ((cmpi .slt) : (⟨S_, .i32⟩ : BufTy).Contents (Elt F) → (⟨S_, .i32⟩ : BufTy).Contents (Elt F) → (⟨S_, .i1⟩ : BufTy).Contents (Elt F)) (after ops V (Proc.devRef .tc main_call1_v2)) (after ops V (Proc.devRef .tc main_call1_c_3)) :=
  aligned.tbinary_at V 46 (.of main_call1_v2 : StableHlo.TRef sig ⟨S_, .i32⟩) (.of main_call1_c_3 : StableHlo.TRef sig ⟨S_, .i32⟩) (.of main_call1_v9 : StableHlo.TRef sig ⟨S_, .i1⟩) (cmpi .slt) (by rfl) (by decide) (by decide) (by decide)

theorem fin_main_call1_v10 (V : Valuation τ sig (Elt F)) :
    after ops V (Proc.devRef .tc main_call1_v10) = ((broadcastInDim S8 ![] bcast_S_S8) : (⟨S_, .i1⟩ : BufTy).Contents (Elt F) → (⟨S8, .i1⟩ : BufTy).Contents (Elt F)) (after ops V (Proc.devRef .tc main_call1_v9)) :=
  aligned.tunary_at V 47 (.of main_call1_v9 : StableHlo.TRef sig ⟨S_, .i1⟩) (.of main_call1_v10 : StableHlo.TRef sig ⟨S8, .i1⟩) (broadcastInDim S8 ![] bcast_S_S8) (by rfl) (by decide) (by decide)

theorem fin_main_call1_v11 (V : Valuation τ sig (Elt F)) :
    after ops V (Proc.devRef .tc main_call1_v11) = ((cmpi .ne) : (⟨S8, .i1⟩ : BufTy).Contents (Elt F) → (⟨S8, .i1⟩ : BufTy).Contents (Elt F) → (⟨S8, .i1⟩ : BufTy).Contents (Elt F)) (after ops V (Proc.devRef .tc main_call1_v8)) (after ops V (Proc.devRef .tc main_call1_v10)) :=
  aligned.tbinary_at V 48 (.of main_call1_v8 : StableHlo.TRef sig ⟨S8, .i1⟩) (.of main_call1_v10 : StableHlo.TRef sig ⟨S8, .i1⟩) (.of main_call1_v11 : StableHlo.TRef sig ⟨S8, .i1⟩) (cmpi .ne) (by rfl) (by decide) (by decide) (by decide)

theorem fin_main_call1_v12 (V : Valuation τ sig (Elt F)) :
    after ops V (Proc.devRef .tc main_call1_v12) = (andi : (⟨S8, .i1⟩ : BufTy).Contents (Elt F) → (⟨S8, .i1⟩ : BufTy).Contents (Elt F) → (⟨S8, .i1⟩ : BufTy).Contents (Elt F)) (after ops V (Proc.devRef .tc main_call1_v11)) (after ops V (Proc.devRef .tc main_call1_v6)) :=
  aligned.tbinary_at V 49 (.of main_call1_v11 : StableHlo.TRef sig ⟨S8, .i1⟩) (.of main_call1_v6 : StableHlo.TRef sig ⟨S8, .i1⟩) (.of main_call1_v12 : StableHlo.TRef sig ⟨S8, .i1⟩) andi (by rfl) (by decide) (by decide) (by decide)

theorem fin_main_call1_v13 (V : Valuation τ sig (Elt F)) :
    after ops V (Proc.devRef .tc main_call1_v13) = ((broadcastInDim S8 ![] bcast_S_S8) : (⟨S_, .i32⟩ : BufTy).Contents (Elt F) → (⟨S8, .i32⟩ : BufTy).Contents (Elt F)) (after ops V (Proc.devRef .tc main_call1_v2)) :=
  aligned.tunary_at V 50 (.of main_call1_v2 : StableHlo.TRef sig ⟨S_, .i32⟩) (.of main_call1_v13 : StableHlo.TRef sig ⟨S8, .i32⟩) (broadcastInDim S8 ![] bcast_S_S8) (by rfl) (by decide) (by decide)

theorem fin_main_call1_v14 (V : Valuation τ sig (Elt F)) :
    after ops V (Proc.devRef .tc main_call1_v14) = (addi : (⟨S8, .i32⟩ : BufTy).Contents (Elt F) → (⟨S8, .i32⟩ : BufTy).Contents (Elt F) → (⟨S8, .i32⟩ : BufTy).Contents (Elt F)) (after ops V (Proc.devRef .tc main_call1_v4)) (after ops V (Proc.devRef .tc main_call1_v13)) :=
  aligned.tbinary_at V 51 (.of main_call1_v4 : StableHlo.TRef sig ⟨S8, .i32⟩) (.of main_call1_v13 : StableHlo.TRef sig ⟨S8, .i32⟩) (.of main_call1_v14 : StableHlo.TRef sig ⟨S8, .i32⟩) addi (by rfl) (by decide) (by decide) (by decide)

theorem fin_main_v12 (V : Valuation τ sig (Elt F)) :
    after ops V (Proc.devRef .tc main_v12) = (select : (⟨S8, .i1⟩ : BufTy).Contents (Elt F) → (⟨S8, .i32⟩ : BufTy).Contents (Elt F) → (⟨S8, .i32⟩ : BufTy).Contents (Elt F) → (⟨S8, .i32⟩ : BufTy).Contents (Elt F)) (after ops V (Proc.devRef .tc main_call1_v12)) (after ops V (Proc.devRef .tc main_call1_v14)) (after ops V (Proc.devRef .tc main_call1_v4)) :=
  aligned.tternary_at V 52 (.of main_call1_v12 : StableHlo.TRef sig ⟨S8, .i1⟩) (.of main_call1_v14 : StableHlo.TRef sig ⟨S8, .i32⟩) (.of main_call1_v4 : StableHlo.TRef sig ⟨S8, .i32⟩) (.of main_v12 : StableHlo.TRef sig ⟨S8, .i32⟩) select (by rfl) (by decide) (by decide) (by decide) (by decide)

theorem fin_main_c_2 (V : Valuation τ sig (Elt F)) :
    after ops V (Proc.devRef .tc main_c_2) = (constantI S_ 32 0#32) :=
  aligned.nullary_at V 53 (by rfl) (by decide)

theorem fin_main_v13 (V : Valuation τ sig (Elt F)) :
    after ops V (Proc.devRef .tc main_v13) = (broadcastInDim S8 ![] bcast_S_S8 : (⟨S_, .i32⟩ : BufTy).Contents (Elt F) → (⟨S8, .i32⟩ : BufTy).Contents (Elt F)) (after ops V (Proc.devRef .tc main_c_2)) :=
  aligned.unary_at V 54 (by rfl) (by decide) (by decide)

theorem fin_main_v14 (V : Valuation τ sig (Elt F)) :
    after ops V (Proc.devRef .tc main_v14) = (cmpi .eq : (⟨S8, .i32⟩ : BufTy).Contents (Elt F) → (⟨S8, .i32⟩ : BufTy).Contents (Elt F) → (⟨S8, .i1⟩ : BufTy).Contents (Elt F)) (after ops V (Proc.devRef .tc main_v12)) (after ops V (Proc.devRef .tc main_v13)) :=
  aligned.binary_at V 55 (by rfl) (by decide) (by decide) (by decide)

theorem fin_main_v15 (V : Valuation τ sig (Elt F)) :
    after ops V (Proc.devRef .tc main_v15) = (Host.sin : (⟨S8192x8, .f32⟩ : BufTy).Contents (Elt F) → (⟨S8192x8, .f32⟩ : BufTy).Contents (Elt F)) (after ops V (Proc.devRef .tc main_v11)) :=
  aligned.unary_at V 56 (by rfl) (by decide) (by decide)

theorem fin_main_v16 (V : Valuation τ sig (Elt F)) :
    after ops V (Proc.devRef .tc main_v16) = (Host.cos : (⟨S8192x8, .f32⟩ : BufTy).Contents (Elt F) → (⟨S8192x8, .f32⟩ : BufTy).Contents (Elt F)) (after ops V (Proc.devRef .tc main_v11)) :=
  aligned.unary_at V 57 (by rfl) (by decide) (by decide)

theorem fin_main_call2_v0 (V : Valuation τ sig (Elt F)) :
    after ops V (Proc.devRef .tc main_call2_v0) = ((broadcastInDim S8192x8 ![1] bcast_S8_S8192x8_1) : (⟨S8, .i1⟩ : BufTy).Contents (Elt F) → (⟨S8192x8, .i1⟩ : BufTy).Contents (Elt F)) (after ops V (Proc.devRef .tc main_v14)) :=
  aligned.tunary_at V 58 (.of main_v14 : StableHlo.TRef sig ⟨S8, .i1⟩) (.of main_call2_v0 : StableHlo.TRef sig ⟨S8192x8, .i1⟩) (broadcastInDim S8192x8 ![1] bcast_S8_S8192x8_1) (by rfl) (by decide) (by decide)

theorem fin_main_v17 (V : Valuation τ sig (Elt F)) :
    after ops V (Proc.devRef .tc main_v17) = (select : (⟨S8192x8, .i1⟩ : BufTy).Contents (Elt F) → (⟨S8192x8, .f32⟩ : BufTy).Contents (Elt F) → (⟨S8192x8, .f32⟩ : BufTy).Contents (Elt F) → (⟨S8192x8, .f32⟩ : BufTy).Contents (Elt F)) (after ops V (Proc.devRef .tc main_call2_v0)) (after ops V (Proc.devRef .tc main_v15)) (after ops V (Proc.devRef .tc main_v16)) :=
  aligned.tternary_at V 59 (.of main_call2_v0 : StableHlo.TRef sig ⟨S8192x8, .i1⟩) (.of main_v15 : StableHlo.TRef sig ⟨S8192x8, .f32⟩) (.of main_v16 : StableHlo.TRef sig ⟨S8192x8, .f32⟩) (.of main_v17 : StableHlo.TRef sig ⟨S8192x8, .f32⟩) select (by rfl) (by decide) (by decide) (by decide) (by decide)

theorem fin_main_cst_3 (V : Valuation τ sig (Elt F)) :
    after ops V (Proc.devRef .tc main_cst_3) = (constant S_ .f32 0x3F800000#32) :=
  aligned.nullary_at V 60 (by rfl) (by decide)

theorem fin_main_v18 (V : Valuation τ sig (Elt F)) :
    after ops V (Proc.devRef .tc main_v18) = (broadcastInDim S8192x8 ![] bcast_S_S8192x8 : (⟨S_, .f32⟩ : BufTy).Contents (Elt F) → (⟨S8192x8, .f32⟩ : BufTy).Contents (Elt F)) (after ops V (Proc.devRef .tc main_cst_3)) :=
  aligned.unary_at V 61 (by rfl) (by decide) (by decide)

theorem fin_main_v19 (V : Valuation τ sig (Elt F)) :
    after ops V (Proc.devRef .tc main_v19) = (addf : (⟨S8192x8, .f32⟩ : BufTy).Contents (Elt F) → (⟨S8192x8, .f32⟩ : BufTy).Contents (Elt F) → (⟨S8192x8, .f32⟩ : BufTy).Contents (Elt F)) (after ops V (Proc.devRef .tc main_v17)) (after ops V (Proc.devRef .tc main_v18)) :=
  aligned.binary_at V 62 (by rfl) (by decide) (by decide) (by decide)

theorem fin_main_cst_4 (V : Valuation τ sig (Elt F)) :
    after ops V (Proc.devRef .tc main_cst_4) = (constant S_ .f32 0x3F000000#32) :=
  aligned.nullary_at V 63 (by rfl) (by decide)

theorem fin_main_v20 (V : Valuation τ sig (Elt F)) :
    after ops V (Proc.devRef .tc main_v20) = (broadcastInDim S8192x8 ![] bcast_S_S8192x8 : (⟨S_, .f32⟩ : BufTy).Contents (Elt F) → (⟨S8192x8, .f32⟩ : BufTy).Contents (Elt F)) (after ops V (Proc.devRef .tc main_cst_4)) :=
  aligned.unary_at V 64 (by rfl) (by decide) (by decide)

theorem fin_main_v21 (V : Valuation τ sig (Elt F)) :
    after ops V (Proc.devRef .tc main_v21) = (mulf : (⟨S8192x8, .f32⟩ : BufTy).Contents (Elt F) → (⟨S8192x8, .f32⟩ : BufTy).Contents (Elt F) → (⟨S8192x8, .f32⟩ : BufTy).Contents (Elt F)) (after ops V (Proc.devRef .tc main_v19)) (after ops V (Proc.devRef .tc main_v20)) :=
  aligned.binary_at V 65 (by rfl) (by decide) (by decide) (by decide)

theorem fin_main_cst_5 (V : Valuation τ sig (Elt F)) :
    after ops V (Proc.devRef .tc main_cst_5) = (constant S_ .f32 0x3B000000#32) :=
  aligned.nullary_at V 66 (by rfl) (by decide)

theorem fin_main_v22 (V : Valuation τ sig (Elt F)) :
    after ops V (Proc.devRef .tc main_v22) = (broadcastInDim S8192x8 ![] bcast_S_S8192x8 : (⟨S_, .f32⟩ : BufTy).Contents (Elt F) → (⟨S8192x8, .f32⟩ : BufTy).Contents (Elt F)) (after ops V (Proc.devRef .tc main_cst_5)) :=
  aligned.unary_at V 67 (by rfl) (by decide) (by decide)

theorem fin_main_v23 (V : Valuation τ sig (Elt F)) :
    after ops V (Proc.devRef .tc main_v23) = (Host.divf : (⟨S8192x8, .f32⟩ : BufTy).Contents (Elt F) → (⟨S8192x8, .f32⟩ : BufTy).Contents (Elt F) → (⟨S8192x8, .f32⟩ : BufTy).Contents (Elt F)) (after ops V (Proc.devRef .tc main_v21)) (after ops V (Proc.devRef .tc main_v22)) :=
  aligned.binary_at V 68 (by rfl) (by decide) (by decide) (by decide)

theorem fin_main_v24 (V : Valuation τ sig (Elt F)) :
    after ops V (Proc.devRef .tc main_v24) = (Host.floor : (⟨S8192x8, .f32⟩ : BufTy).Contents (Elt F) → (⟨S8192x8, .f32⟩ : BufTy).Contents (Elt F)) (after ops V (Proc.devRef .tc main_v23)) :=
  aligned.unary_at V 69 (by rfl) (by decide) (by decide)

theorem fin_main_cst_6 (V : Valuation τ sig (Elt F)) :
    after ops V (Proc.devRef .tc main_cst_6) = (constant S_ .f32 0x3F800000#32) :=
  aligned.nullary_at V 70 (by rfl) (by decide)

theorem fin_main_v25 (V : Valuation τ sig (Elt F)) :
    after ops V (Proc.devRef .tc main_v25) = (broadcastInDim S8192x8 ![] bcast_S_S8192x8 : (⟨S_, .f32⟩ : BufTy).Contents (Elt F) → (⟨S8192x8, .f32⟩ : BufTy).Contents (Elt F)) (after ops V (Proc.devRef .tc main_cst_6)) :=
  aligned.unary_at V 71 (by rfl) (by decide) (by decide)

theorem fin_main_v26 (V : Valuation τ sig (Elt F)) :
    after ops V (Proc.devRef .tc main_v26) = (addf : (⟨S8192x8, .f32⟩ : BufTy).Contents (Elt F) → (⟨S8192x8, .f32⟩ : BufTy).Contents (Elt F) → (⟨S8192x8, .f32⟩ : BufTy).Contents (Elt F)) (after ops V (Proc.devRef .tc main_v24)) (after ops V (Proc.devRef .tc main_v25)) :=
  aligned.binary_at V 72 (by rfl) (by decide) (by decide) (by decide)

theorem fin_main_cst_7 (V : Valuation τ sig (Elt F)) :
    after ops V (Proc.devRef .tc main_cst_7) = (constant S_ .f32 0x44000000#32) :=
  aligned.nullary_at V 73 (by rfl) (by decide)

theorem fin_main_v27 (V : Valuation τ sig (Elt F)) :
    after ops V (Proc.devRef .tc main_v27) = (broadcastInDim S8192x8 ![] bcast_S_S8192x8 : (⟨S_, .f32⟩ : BufTy).Contents (Elt F) → (⟨S8192x8, .f32⟩ : BufTy).Contents (Elt F)) (after ops V (Proc.devRef .tc main_cst_7)) :=
  aligned.unary_at V 74 (by rfl) (by decide) (by decide)

theorem fin_main_v28 (V : Valuation τ sig (Elt F)) :
    after ops V (Proc.devRef .tc main_v28) = (Host.divf : (⟨S8192x8, .f32⟩ : BufTy).Contents (Elt F) → (⟨S8192x8, .f32⟩ : BufTy).Contents (Elt F) → (⟨S8192x8, .f32⟩ : BufTy).Contents (Elt F)) (after ops V (Proc.devRef .tc main_v26)) (after ops V (Proc.devRef .tc main_v27)) :=
  aligned.binary_at V 75 (by rfl) (by decide) (by decide) (by decide)

theorem fin_main_v29 (V : Valuation τ sig (Elt F)) :
    after ops V (Proc.devRef .tc main_v29) = (subf : (⟨S8192x8, .f32⟩ : BufTy).Contents (Elt F) → (⟨S8192x8, .f32⟩ : BufTy).Contents (Elt F) → (⟨S8192x8, .f32⟩ : BufTy).Contents (Elt F)) (after ops V (Proc.devRef .tc main_v21)) (after ops V (Proc.devRef .tc main_v28)) :=
  aligned.binary_at V 76 (by rfl) (by decide) (by decide) (by decide)

theorem fin_main_v30 (V : Valuation τ sig (Elt F)) :
    after ops V (Proc.devRef .tc main_v30) = (Host.absf : (⟨S8192x8, .f32⟩ : BufTy).Contents (Elt F) → (⟨S8192x8, .f32⟩ : BufTy).Contents (Elt F)) (after ops V (Proc.devRef .tc main_v29)) :=
  aligned.unary_at V 77 (by rfl) (by decide) (by decide)

theorem fin_main_cst_8 (V : Valuation τ sig (Elt F)) :
    after ops V (Proc.devRef .tc main_cst_8) = (constant S_ .f32 0x44000000#32) :=
  aligned.nullary_at V 78 (by rfl) (by decide)

theorem fin_main_v31 (V : Valuation τ sig (Elt F)) :
    after ops V (Proc.devRef .tc main_v31) = (broadcastInDim S8192x8 ![] bcast_S_S8192x8 : (⟨S_, .f32⟩ : BufTy).Contents (Elt F) → (⟨S8192x8, .f32⟩ : BufTy).Contents (Elt F)) (after ops V (Proc.devRef .tc main_cst_8)) :=
  aligned.unary_at V 79 (by rfl) (by decide) (by decide)

theorem fin_main_v32 (V : Valuation τ sig (Elt F)) :
    after ops V (Proc.devRef .tc main_v32) = (mulf : (⟨S8192x8, .f32⟩ : BufTy).Contents (Elt F) → (⟨S8192x8, .f32⟩ : BufTy).Contents (Elt F) → (⟨S8192x8, .f32⟩ : BufTy).Contents (Elt F)) (after ops V (Proc.devRef .tc main_v30)) (after ops V (Proc.devRef .tc main_v31)) :=
  aligned.binary_at V 80 (by rfl) (by decide) (by decide) (by decide)

theorem fin_main_cst_9 (V : Valuation τ sig (Elt F)) :
    after ops V (Proc.devRef .tc main_cst_9) = (constant S_ .f32 0x44000000#32) :=
  aligned.nullary_at V 81 (by rfl) (by decide)

theorem fin_main_v33 (V : Valuation τ sig (Elt F)) :
    after ops V (Proc.devRef .tc main_v33) = (broadcastInDim S8192x8 ![] bcast_S_S8192x8 : (⟨S_, .f32⟩ : BufTy).Contents (Elt F) → (⟨S8192x8, .f32⟩ : BufTy).Contents (Elt F)) (after ops V (Proc.devRef .tc main_cst_9)) :=
  aligned.unary_at V 82 (by rfl) (by decide) (by decide)

theorem fin_main_v34 (V : Valuation τ sig (Elt F)) :
    after ops V (Proc.devRef .tc main_v34) = (Host.divf : (⟨S8192x8, .f32⟩ : BufTy).Contents (Elt F) → (⟨S8192x8, .f32⟩ : BufTy).Contents (Elt F) → (⟨S8192x8, .f32⟩ : BufTy).Contents (Elt F)) (after ops V (Proc.devRef .tc main_v24)) (after ops V (Proc.devRef .tc main_v33)) :=
  aligned.binary_at V 83 (by rfl) (by decide) (by decide) (by decide)

theorem fin_main_v35 (V : Valuation τ sig (Elt F)) :
    after ops V (Proc.devRef .tc main_v35) = (subf : (⟨S8192x8, .f32⟩ : BufTy).Contents (Elt F) → (⟨S8192x8, .f32⟩ : BufTy).Contents (Elt F) → (⟨S8192x8, .f32⟩ : BufTy).Contents (Elt F)) (after ops V (Proc.devRef .tc main_v21)) (after ops V (Proc.devRef .tc main_v34)) :=
  aligned.binary_at V 84 (by rfl) (by decide) (by decide) (by decide)

theorem fin_main_v36 (V : Valuation τ sig (Elt F)) :
    after ops V (Proc.devRef .tc main_v36) = (Host.absf : (⟨S8192x8, .f32⟩ : BufTy).Contents (Elt F) → (⟨S8192x8, .f32⟩ : BufTy).Contents (Elt F)) (after ops V (Proc.devRef .tc main_v35)) :=
  aligned.unary_at V 85 (by rfl) (by decide) (by decide)

theorem fin_main_cst_10 (V : Valuation τ sig (Elt F)) :
    after ops V (Proc.devRef .tc main_cst_10) = (constant S_ .f32 0x44000000#32) :=
  aligned.nullary_at V 86 (by rfl) (by decide)

theorem fin_main_v37 (V : Valuation τ sig (Elt F)) :
    after ops V (Proc.devRef .tc main_v37) = (broadcastInDim S8192x8 ![] bcast_S_S8192x8 : (⟨S_, .f32⟩ : BufTy).Contents (Elt F) → (⟨S8192x8, .f32⟩ : BufTy).Contents (Elt F)) (after ops V (Proc.devRef .tc main_cst_10)) :=
  aligned.unary_at V 87 (by rfl) (by decide) (by decide)

theorem fin_main_v38 (V : Valuation τ sig (Elt F)) :
    after ops V (Proc.devRef .tc main_v38) = (mulf : (⟨S8192x8, .f32⟩ : BufTy).Contents (Elt F) → (⟨S8192x8, .f32⟩ : BufTy).Contents (Elt F) → (⟨S8192x8, .f32⟩ : BufTy).Contents (Elt F)) (after ops V (Proc.devRef .tc main_v36)) (after ops V (Proc.devRef .tc main_v37)) :=
  aligned.binary_at V 88 (by rfl) (by decide) (by decide) (by decide)

theorem fin_main_v39 (V : Valuation τ sig (Elt F)) :
    after ops V (Proc.devRef .tc main_v39) = (fptosi 32 : (⟨S8192x8, .f32⟩ : BufTy).Contents (Elt F) → (⟨S8192x8, .i32⟩ : BufTy).Contents (Elt F)) (after ops V (Proc.devRef .tc main_v24)) :=
  aligned.unary_at V 89 (by rfl) (by decide) (by decide)

theorem fin_main_c_11 (V : Valuation τ sig (Elt F)) :
    after ops V (Proc.devRef .tc main_c_11) = (constantI S_ 32 1#32) :=
  aligned.nullary_at V 90 (by rfl) (by decide)

theorem fin_main_v40 (V : Valuation τ sig (Elt F)) :
    after ops V (Proc.devRef .tc main_v40) = (broadcastInDim S8192x8 ![] bcast_S_S8192x8 : (⟨S_, .i32⟩ : BufTy).Contents (Elt F) → (⟨S8192x8, .i32⟩ : BufTy).Contents (Elt F)) (after ops V (Proc.devRef .tc main_c_11)) :=
  aligned.unary_at V 91 (by rfl) (by decide) (by decide)

theorem fin_main_v41 (V : Valuation τ sig (Elt F)) :
    after ops V (Proc.devRef .tc main_v41) = (addi : (⟨S8192x8, .i32⟩ : BufTy).Contents (Elt F) → (⟨S8192x8, .i32⟩ : BufTy).Contents (Elt F) → (⟨S8192x8, .i32⟩ : BufTy).Contents (Elt F)) (after ops V (Proc.devRef .tc main_v39)) (after ops V (Proc.devRef .tc main_v40)) :=
  aligned.binary_at V 92 (by rfl) (by decide) (by decide) (by decide)

theorem fin_main_c_12 (V : Valuation τ sig (Elt F)) :
    after ops V (Proc.devRef .tc main_c_12) = (constantI S_ 32 0#32) :=
  aligned.nullary_at V 93 (by rfl) (by decide)

theorem fin_main_v42 (V : Valuation τ sig (Elt F)) :
    after ops V (Proc.devRef .tc main_v42) = (broadcastInDim S8192x8 ![] bcast_S_S8192x8 : (⟨S_, .i32⟩ : BufTy).Contents (Elt F) → (⟨S8192x8, .i32⟩ : BufTy).Contents (Elt F)) (after ops V (Proc.devRef .tc main_c_12)) :=
  aligned.unary_at V 94 (by rfl) (by decide) (by decide)

theorem fin_main_v43 (V : Valuation τ sig (Elt F)) :
    after ops V (Proc.devRef .tc main_v43) = (cmpi .sgt : (⟨S8192x8, .i32⟩ : BufTy).Contents (Elt F) → (⟨S8192x8, .i32⟩ : BufTy).Contents (Elt F) → (⟨S8192x8, .i1⟩ : BufTy).Contents (Elt F)) (after ops V (Proc.devRef .tc main_v39)) (after ops V (Proc.devRef .tc main_v42)) :=
  aligned.binary_at V 95 (by rfl) (by decide) (by decide) (by decide)

theorem fin_main_c_13 (V : Valuation τ sig (Elt F)) :
    after ops V (Proc.devRef .tc main_c_13) = (constantI S_ 32 512#32) :=
  aligned.nullary_at V 96 (by rfl) (by decide)

theorem fin_main_v44 (V : Valuation τ sig (Elt F)) :
    after ops V (Proc.devRef .tc main_v44) = (broadcastInDim S8192x8 ![] bcast_S_S8192x8 : (⟨S_, .i32⟩ : BufTy).Contents (Elt F) → (⟨S8192x8, .i32⟩ : BufTy).Contents (Elt F)) (after ops V (Proc.devRef .tc main_c_13)) :=
  aligned.unary_at V 97 (by rfl) (by decide) (by decide)

theorem fin_main_v45 (V : Valuation τ sig (Elt F)) :
    after ops V (Proc.devRef .tc main_v45) = (cmpi .slt : (⟨S8192x8, .i32⟩ : BufTy).Contents (Elt F) → (⟨S8192x8, .i32⟩ : BufTy).Contents (Elt F) → (⟨S8192x8, .i1⟩ : BufTy).Contents (Elt F)) (after ops V (Proc.devRef .tc main_v39)) (after ops V (Proc.devRef .tc main_v44)) :=
  aligned.binary_at V 98 (by rfl) (by decide) (by decide) (by decide)

theorem fin_main_v46 (V : Valuation τ sig (Elt F)) :
    after ops V (Proc.devRef .tc main_v46) = (andi : (⟨S8192x8, .i1⟩ : BufTy).Contents (Elt F) → (⟨S8192x8, .i1⟩ : BufTy).Contents (Elt F) → (⟨S8192x8, .i1⟩ : BufTy).Contents (Elt F)) (after ops V (Proc.devRef .tc main_v43)) (after ops V (Proc.devRef .tc main_v45)) :=
  aligned.binary_at V 99 (by rfl) (by decide) (by decide) (by decide)

theorem fin_main_c_14 (V : Valuation τ sig (Elt F)) :
    after ops V (Proc.devRef .tc main_c_14) = (constantI S_ 32 512#32) :=
  aligned.nullary_at V 100 (by rfl) (by decide)

theorem fin_main_v47 (V : Valuation τ sig (Elt F)) :
    after ops V (Proc.devRef .tc main_v47) = (broadcastInDim S8192x8 ![] bcast_S_S8192x8 : (⟨S_, .i32⟩ : BufTy).Contents (Elt F) → (⟨S8192x8, .i32⟩ : BufTy).Contents (Elt F)) (after ops V (Proc.devRef .tc main_c_14)) :=
  aligned.unary_at V 101 (by rfl) (by decide) (by decide)

theorem fin_main_v48 (V : Valuation τ sig (Elt F)) :
    after ops V (Proc.devRef .tc main_v48) = (cmpi .slt : (⟨S8192x8, .i32⟩ : BufTy).Contents (Elt F) → (⟨S8192x8, .i32⟩ : BufTy).Contents (Elt F) → (⟨S8192x8, .i1⟩ : BufTy).Contents (Elt F)) (after ops V (Proc.devRef .tc main_v41)) (after ops V (Proc.devRef .tc main_v47)) :=
  aligned.binary_at V 102 (by rfl) (by decide) (by decide) (by decide)

theorem fin_main_cst_15 (V : Valuation τ sig (Elt F)) :
    after ops V (Proc.devRef .tc main_cst_15) = (constant S_ .f32 0x00000000#32) :=
  aligned.nullary_at V 103 (by rfl) (by decide)

theorem fin_main_call3_v0 (V : Valuation τ sig (Elt F)) :
    after ops V (Proc.devRef .tc main_call3_v0) = (id : (⟨S_, .f32⟩ : BufTy).Contents (Elt F) → (⟨S_, .f32⟩ : BufTy).Contents (Elt F)) (after ops V (Proc.devRef .tc main_cst_15)) :=
  aligned.tunary_at V 104 (.of main_cst_15 : StableHlo.TRef sig ⟨S_, .f32⟩) (.of main_call3_v0 : StableHlo.TRef sig ⟨S_, .f32⟩) id (by rfl) (by decide) (by decide)

theorem fin_main_call3_v1 (V : Valuation τ sig (Elt F)) :
    after ops V (Proc.devRef .tc main_call3_v1) = ((broadcastInDim S8192x8 ![] bcast_S_S8192x8) : (⟨S_, .f32⟩ : BufTy).Contents (Elt F) → (⟨S8192x8, .f32⟩ : BufTy).Contents (Elt F)) (after ops V (Proc.devRef .tc main_call3_v0)) :=
  aligned.tunary_at V 105 (.of main_call3_v0 : StableHlo.TRef sig ⟨S_, .f32⟩) (.of main_call3_v1 : StableHlo.TRef sig ⟨S8192x8, .f32⟩) (broadcastInDim S8192x8 ![] bcast_S_S8192x8) (by rfl) (by decide) (by decide)

theorem fin_main_v49 (V : Valuation τ sig (Elt F)) :
    after ops V (Proc.devRef .tc main_v49) = (select : (⟨S8192x8, .i1⟩ : BufTy).Contents (Elt F) → (⟨S8192x8, .f32⟩ : BufTy).Contents (Elt F) → (⟨S8192x8, .f32⟩ : BufTy).Contents (Elt F) → (⟨S8192x8, .f32⟩ : BufTy).Contents (Elt F)) (after ops V (Proc.devRef .tc main_v46)) (after ops V (Proc.devRef .tc main_v32)) (after ops V (Proc.devRef .tc main_call3_v1)) :=
  aligned.tternary_at V 106 (.of main_v46 : StableHlo.TRef sig ⟨S8192x8, .i1⟩) (.of main_v32 : StableHlo.TRef sig ⟨S8192x8, .f32⟩) (.of main_call3_v1 : StableHlo.TRef sig ⟨S8192x8, .f32⟩) (.of main_v49 : StableHlo.TRef sig ⟨S8192x8, .f32⟩) select (by rfl) (by decide) (by decide) (by decide) (by decide)

theorem fin_main_cst_16 (V : Valuation τ sig (Elt F)) :
    after ops V (Proc.devRef .tc main_cst_16) = (constant S_ .f32 0x00000000#32) :=
  aligned.nullary_at V 107 (by rfl) (by decide)

theorem fin_main_call4_v0 (V : Valuation τ sig (Elt F)) :
    after ops V (Proc.devRef .tc main_call4_v0) = (id : (⟨S_, .f32⟩ : BufTy).Contents (Elt F) → (⟨S_, .f32⟩ : BufTy).Contents (Elt F)) (after ops V (Proc.devRef .tc main_cst_16)) :=
  aligned.tunary_at V 108 (.of main_cst_16 : StableHlo.TRef sig ⟨S_, .f32⟩) (.of main_call4_v0 : StableHlo.TRef sig ⟨S_, .f32⟩) id (by rfl) (by decide) (by decide)

theorem fin_main_call4_v1 (V : Valuation τ sig (Elt F)) :
    after ops V (Proc.devRef .tc main_call4_v1) = ((broadcastInDim S8192x8 ![] bcast_S_S8192x8) : (⟨S_, .f32⟩ : BufTy).Contents (Elt F) → (⟨S8192x8, .f32⟩ : BufTy).Contents (Elt F)) (after ops V (Proc.devRef .tc main_call4_v0)) :=
  aligned.tunary_at V 109 (.of main_call4_v0 : StableHlo.TRef sig ⟨S_, .f32⟩) (.of main_call4_v1 : StableHlo.TRef sig ⟨S8192x8, .f32⟩) (broadcastInDim S8192x8 ![] bcast_S_S8192x8) (by rfl) (by decide) (by decide)

theorem fin_main_v50 (V : Valuation τ sig (Elt F)) :
    after ops V (Proc.devRef .tc main_v50) = (select : (⟨S8192x8, .i1⟩ : BufTy).Contents (Elt F) → (⟨S8192x8, .f32⟩ : BufTy).Contents (Elt F) → (⟨S8192x8, .f32⟩ : BufTy).Contents (Elt F) → (⟨S8192x8, .f32⟩ : BufTy).Contents (Elt F)) (after ops V (Proc.devRef .tc main_v48)) (after ops V (Proc.devRef .tc main_v38)) (after ops V (Proc.devRef .tc main_call4_v1)) :=
  aligned.tternary_at V 110 (.of main_v48 : StableHlo.TRef sig ⟨S8192x8, .i1⟩) (.of main_v38 : StableHlo.TRef sig ⟨S8192x8, .f32⟩) (.of main_call4_v1 : StableHlo.TRef sig ⟨S8192x8, .f32⟩) (.of main_v50 : StableHlo.TRef sig ⟨S8192x8, .f32⟩) select (by rfl) (by decide) (by decide) (by decide) (by decide)

theorem fin_main_v51 (V : Valuation τ sig (Elt F)) :
    after ops V (Proc.devRef .tc main_v51) = (broadcastInDim S1x8 ![1] bcast_S8_S1x8_1 : (⟨S8, .i32⟩ : BufTy).Contents (Elt F) → (⟨S1x8, .i32⟩ : BufTy).Contents (Elt F)) (after ops V (Proc.devRef .tc main_v0)) :=
  aligned.unary_at V 111 (by rfl) (by decide) (by decide)

theorem fin_main_c_17 (V : Valuation τ sig (Elt F)) :
    after ops V (Proc.devRef .tc main_c_17) = (constantI S_ 32 512#32) :=
  aligned.nullary_at V 112 (by rfl) (by decide)

theorem fin_main_v52 (V : Valuation τ sig (Elt F)) :
    after ops V (Proc.devRef .tc main_v52) = (broadcastInDim S1x8 ![] bcast_S_S1x8 : (⟨S_, .i32⟩ : BufTy).Contents (Elt F) → (⟨S1x8, .i32⟩ : BufTy).Contents (Elt F)) (after ops V (Proc.devRef .tc main_c_17)) :=
  aligned.unary_at V 113 (by rfl) (by decide) (by decide)

theorem fin_main_v53 (V : Valuation τ sig (Elt F)) :
    after ops V (Proc.devRef .tc main_v53) = (muli : (⟨S1x8, .i32⟩ : BufTy).Contents (Elt F) → (⟨S1x8, .i32⟩ : BufTy).Contents (Elt F) → (⟨S1x8, .i32⟩ : BufTy).Contents (Elt F)) (after ops V (Proc.devRef .tc main_v52)) (after ops V (Proc.devRef .tc main_v51)) :=
  aligned.binary_at V 114 (by rfl) (by decide) (by decide) (by decide)

theorem fin_main_c_18 (V : Valuation τ sig (Elt F)) :
    after ops V (Proc.devRef .tc main_c_18) = (constantI S_ 32 0#32) :=
  aligned.nullary_at V 115 (by rfl) (by decide)

theorem fin_main_c_19 (V : Valuation τ sig (Elt F)) :
    after ops V (Proc.devRef .tc main_c_19) = (constantI S_ 32 511#32) :=
  aligned.nullary_at V 116 (by rfl) (by decide)

theorem fin_main_call5_v0 (V : Valuation τ sig (Elt F)) :
    after ops V (Proc.devRef .tc main_call5_v0) = (id : (⟨S_, .i32⟩ : BufTy).Contents (Elt F) → (⟨S_, .i32⟩ : BufTy).Contents (Elt F)) (after ops V (Proc.devRef .tc main_c_18)) :=
  aligned.tunary_at V 117 (.of main_c_18 : StableHlo.TRef sig ⟨S_, .i32⟩) (.of main_call5_v0 : StableHlo.TRef sig ⟨S_, .i32⟩) id (by rfl) (by decide) (by decide)

theorem fin_main_call5_v1 (V : Valuation τ sig (Elt F)) :
    after ops V (Proc.devRef .tc main_call5_v1) = ((broadcastInDim S8192x8 ![] bcast_S_S8192x8) : (⟨S_, .i32⟩ : BufTy).Contents (Elt F) → (⟨S8192x8, .i32⟩ : BufTy).Contents (Elt F)) (after ops V (Proc.devRef .tc main_call5_v0)) :=
  aligned.tunary_at V 118 (.of main_call5_v0 : StableHlo.TRef sig ⟨S_, .i32⟩) (.of main_call5_v1 : StableHlo.TRef sig ⟨S8192x8, .i32⟩) (broadcastInDim S8192x8 ![] bcast_S_S8192x8) (by rfl) (by decide) (by decide)

theorem fin_main_call5_v2 (V : Valuation τ sig (Elt F)) :
    after ops V (Proc.devRef .tc main_call5_v2) = (maxsi : (⟨S8192x8, .i32⟩ : BufTy).Contents (Elt F) → (⟨S8192x8, .i32⟩ : BufTy).Contents (Elt F) → (⟨S8192x8, .i32⟩ : BufTy).Contents (Elt F)) (after ops V (Proc.devRef .tc main_call5_v1)) (after ops V (Proc.devRef .tc main_v39)) :=
  aligned.tbinary_at V 119 (.of main_call5_v1 : StableHlo.TRef sig ⟨S8192x8, .i32⟩) (.of main_v39 : StableHlo.TRef sig ⟨S8192x8, .i32⟩) (.of main_call5_v2 : StableHlo.TRef sig ⟨S8192x8, .i32⟩) maxsi (by rfl) (by decide) (by decide) (by decide)

theorem fin_main_call5_v3 (V : Valuation τ sig (Elt F)) :
    after ops V (Proc.devRef .tc main_call5_v3) = (id : (⟨S_, .i32⟩ : BufTy).Contents (Elt F) → (⟨S_, .i32⟩ : BufTy).Contents (Elt F)) (after ops V (Proc.devRef .tc main_c_19)) :=
  aligned.tunary_at V 120 (.of main_c_19 : StableHlo.TRef sig ⟨S_, .i32⟩) (.of main_call5_v3 : StableHlo.TRef sig ⟨S_, .i32⟩) id (by rfl) (by decide) (by decide)

theorem fin_main_call5_v4 (V : Valuation τ sig (Elt F)) :
    after ops V (Proc.devRef .tc main_call5_v4) = ((broadcastInDim S8192x8 ![] bcast_S_S8192x8) : (⟨S_, .i32⟩ : BufTy).Contents (Elt F) → (⟨S8192x8, .i32⟩ : BufTy).Contents (Elt F)) (after ops V (Proc.devRef .tc main_call5_v3)) :=
  aligned.tunary_at V 121 (.of main_call5_v3 : StableHlo.TRef sig ⟨S_, .i32⟩) (.of main_call5_v4 : StableHlo.TRef sig ⟨S8192x8, .i32⟩) (broadcastInDim S8192x8 ![] bcast_S_S8192x8) (by rfl) (by decide) (by decide)

theorem fin_main_v54 (V : Valuation τ sig (Elt F)) :
    after ops V (Proc.devRef .tc main_v54) = (minsi : (⟨S8192x8, .i32⟩ : BufTy).Contents (Elt F) → (⟨S8192x8, .i32⟩ : BufTy).Contents (Elt F) → (⟨S8192x8, .i32⟩ : BufTy).Contents (Elt F)) (after ops V (Proc.devRef .tc main_call5_v4)) (after ops V (Proc.devRef .tc main_call5_v2)) :=
  aligned.tbinary_at V 122 (.of main_call5_v4 : StableHlo.TRef sig ⟨S8192x8, .i32⟩) (.of main_call5_v2 : StableHlo.TRef sig ⟨S8192x8, .i32⟩) (.of main_v54 : StableHlo.TRef sig ⟨S8192x8, .i32⟩) minsi (by rfl) (by decide) (by decide) (by decide)

theorem fin_main_v55 (V : Valuation τ sig (Elt F)) :
    after ops V (Proc.devRef .tc main_v55) = (broadcastInDim S8192x8 ![0, 1] bcast_S1x8_S8192x8_0_1 : (⟨S1x8, .i32⟩ : BufTy).Contents (Elt F) → (⟨S8192x8, .i32⟩ : BufTy).Contents (Elt F)) (after ops V (Proc.devRef .tc main_v53)) :=
  aligned.unary_at V 123 (by rfl) (by decide) (by decide)

theorem fin_main_v56 (V : Valuation τ sig (Elt F)) :
    after ops V (Proc.devRef .tc main_v56) = (addi : (⟨S8192x8, .i32⟩ : BufTy).Contents (Elt F) → (⟨S8192x8, .i32⟩ : BufTy).Contents (Elt F) → (⟨S8192x8, .i32⟩ : BufTy).Contents (Elt F)) (after ops V (Proc.devRef .tc main_v55)) (after ops V (Proc.devRef .tc main_v54)) :=
  aligned.binary_at V 124 (by rfl) (by decide) (by decide) (by decide)

theorem fin_main_c_20 (V : Valuation τ sig (Elt F)) :
    after ops V (Proc.devRef .tc main_c_20) = (constantI S_ 32 0#32) :=
  aligned.nullary_at V 125 (by rfl) (by decide)

theorem fin_main_c_21 (V : Valuation τ sig (Elt F)) :
    after ops V (Proc.devRef .tc main_c_21) = (constantI S_ 32 511#32) :=
  aligned.nullary_at V 126 (by rfl) (by decide)

theorem fin_main_call6_v0 (V : Valuation τ sig (Elt F)) :
    after ops V (Proc.devRef .tc main_call6_v0) = (id : (⟨S_, .i32⟩ : BufTy).Contents (Elt F) → (⟨S_, .i32⟩ : BufTy).Contents (Elt F)) (after ops V (Proc.devRef .tc main_c_20)) :=
  aligned.tunary_at V 127 (.of main_c_20 : StableHlo.TRef sig ⟨S_, .i32⟩) (.of main_call6_v0 : StableHlo.TRef sig ⟨S_, .i32⟩) id (by rfl) (by decide) (by decide)

theorem fin_main_call6_v1 (V : Valuation τ sig (Elt F)) :
    after ops V (Proc.devRef .tc main_call6_v1) = ((broadcastInDim S8192x8 ![] bcast_S_S8192x8) : (⟨S_, .i32⟩ : BufTy).Contents (Elt F) → (⟨S8192x8, .i32⟩ : BufTy).Contents (Elt F)) (after ops V (Proc.devRef .tc main_call6_v0)) :=
  aligned.tunary_at V 128 (.of main_call6_v0 : StableHlo.TRef sig ⟨S_, .i32⟩) (.of main_call6_v1 : StableHlo.TRef sig ⟨S8192x8, .i32⟩) (broadcastInDim S8192x8 ![] bcast_S_S8192x8) (by rfl) (by decide) (by decide)

theorem fin_main_call6_v2 (V : Valuation τ sig (Elt F)) :
    after ops V (Proc.devRef .tc main_call6_v2) = (maxsi : (⟨S8192x8, .i32⟩ : BufTy).Contents (Elt F) → (⟨S8192x8, .i32⟩ : BufTy).Contents (Elt F) → (⟨S8192x8, .i32⟩ : BufTy).Contents (Elt F)) (after ops V (Proc.devRef .tc main_call6_v1)) (after ops V (Proc.devRef .tc main_v41)) :=
  aligned.tbinary_at V 129 (.of main_call6_v1 : StableHlo.TRef sig ⟨S8192x8, .i32⟩) (.of main_v41 : StableHlo.TRef sig ⟨S8192x8, .i32⟩) (.of main_call6_v2 : StableHlo.TRef sig ⟨S8192x8, .i32⟩) maxsi (by rfl) (by decide) (by decide) (by decide)

theorem fin_main_call6_v3 (V : Valuation τ sig (Elt F)) :
    after ops V (Proc.devRef .tc main_call6_v3) = (id : (⟨S_, .i32⟩ : BufTy).Contents (Elt F) → (⟨S_, .i32⟩ : BufTy).Contents (Elt F)) (after ops V (Proc.devRef .tc main_c_21)) :=
  aligned.tunary_at V 130 (.of main_c_21 : StableHlo.TRef sig ⟨S_, .i32⟩) (.of main_call6_v3 : StableHlo.TRef sig ⟨S_, .i32⟩) id (by rfl) (by decide) (by decide)

theorem fin_main_call6_v4 (V : Valuation τ sig (Elt F)) :
    after ops V (Proc.devRef .tc main_call6_v4) = ((broadcastInDim S8192x8 ![] bcast_S_S8192x8) : (⟨S_, .i32⟩ : BufTy).Contents (Elt F) → (⟨S8192x8, .i32⟩ : BufTy).Contents (Elt F)) (after ops V (Proc.devRef .tc main_call6_v3)) :=
  aligned.tunary_at V 131 (.of main_call6_v3 : StableHlo.TRef sig ⟨S_, .i32⟩) (.of main_call6_v4 : StableHlo.TRef sig ⟨S8192x8, .i32⟩) (broadcastInDim S8192x8 ![] bcast_S_S8192x8) (by rfl) (by decide) (by decide)

theorem fin_main_v57 (V : Valuation τ sig (Elt F)) :
    after ops V (Proc.devRef .tc main_v57) = (minsi : (⟨S8192x8, .i32⟩ : BufTy).Contents (Elt F) → (⟨S8192x8, .i32⟩ : BufTy).Contents (Elt F) → (⟨S8192x8, .i32⟩ : BufTy).Contents (Elt F)) (after ops V (Proc.devRef .tc main_call6_v4)) (after ops V (Proc.devRef .tc main_call6_v2)) :=
  aligned.tbinary_at V 132 (.of main_call6_v4 : StableHlo.TRef sig ⟨S8192x8, .i32⟩) (.of main_call6_v2 : StableHlo.TRef sig ⟨S8192x8, .i32⟩) (.of main_v57 : StableHlo.TRef sig ⟨S8192x8, .i32⟩) minsi (by rfl) (by decide) (by decide) (by decide)

theorem fin_main_v58 (V : Valuation τ sig (Elt F)) :
    after ops V (Proc.devRef .tc main_v58) = (broadcastInDim S8192x8 ![0, 1] bcast_S1x8_S8192x8_0_1 : (⟨S1x8, .i32⟩ : BufTy).Contents (Elt F) → (⟨S8192x8, .i32⟩ : BufTy).Contents (Elt F)) (after ops V (Proc.devRef .tc main_v53)) :=
  aligned.unary_at V 133 (by rfl) (by decide) (by decide)

theorem fin_main_v59 (V : Valuation τ sig (Elt F)) :
    after ops V (Proc.devRef .tc main_v59) = (addi : (⟨S8192x8, .i32⟩ : BufTy).Contents (Elt F) → (⟨S8192x8, .i32⟩ : BufTy).Contents (Elt F) → (⟨S8192x8, .i32⟩ : BufTy).Contents (Elt F)) (after ops V (Proc.devRef .tc main_v58)) (after ops V (Proc.devRef .tc main_v57)) :=
  aligned.binary_at V 134 (by rfl) (by decide) (by decide) (by decide)

theorem fin_main_v60 (V : Valuation τ sig (Elt F)) :
    after ops V (Proc.devRef .tc main_v60) = (iotaInDim S8192 32 0) :=
  aligned.nullary_at V 135 (by rfl) (by decide)

theorem fin_main_v61 (V : Valuation τ sig (Elt F)) :
    after ops V (Proc.devRef .tc main_v61) = (broadcastInDim S8192x1 ![0] bcast_S8192_S8192x1_0 : (⟨S8192, .i32⟩ : BufTy).Contents (Elt F) → (⟨S8192x1, .i32⟩ : BufTy).Contents (Elt F)) (after ops V (Proc.devRef .tc main_v60)) :=
  aligned.unary_at V 136 (by rfl) (by decide) (by decide)

theorem fin_main_v62 (V : Valuation τ sig (Elt F)) :
    after ops V (Proc.devRef .tc main_v62) = (broadcastInDim S8192x8 ![0, 1] bcast_S8192x1_S8192x8_0_1 : (⟨S8192x1, .i32⟩ : BufTy).Contents (Elt F) → (⟨S8192x8, .i32⟩ : BufTy).Contents (Elt F)) (after ops V (Proc.devRef .tc main_v61)) :=
  aligned.unary_at V 137 (by rfl) (by decide) (by decide)

theorem fin_main_cst_22 (V : Valuation τ sig (Elt F)) :
    after ops V (Proc.devRef .tc main_cst_22) = (constant S_ .f32 0x00000000#32) :=
  aligned.nullary_at V 138 (by rfl) (by decide)

theorem fin_main_v63 (V : Valuation τ sig (Elt F)) :
    after ops V (Proc.devRef .tc main_v63) = (broadcastInDim S8192x4096 ![] bcast_S_S8192x4096 : (⟨S_, .f32⟩ : BufTy).Contents (Elt F) → (⟨S8192x4096, .f32⟩ : BufTy).Contents (Elt F)) (after ops V (Proc.devRef .tc main_cst_22)) :=
  aligned.unary_at V 139 (by rfl) (by decide) (by decide)

theorem fin_main_c_23 (V : Valuation τ sig (Elt F)) :
    after ops V (Proc.devRef .tc main_c_23) = (constantI S_ 32 0#32) :=
  aligned.nullary_at V 140 (by rfl) (by decide)

theorem fin_main_v64 (V : Valuation τ sig (Elt F)) :
    after ops V (Proc.devRef .tc main_v64) = (broadcastInDim S8192x8 ![] bcast_S_S8192x8 : (⟨S_, .i32⟩ : BufTy).Contents (Elt F) → (⟨S8192x8, .i32⟩ : BufTy).Contents (Elt F)) (after ops V (Proc.devRef .tc main_c_23)) :=
  aligned.unary_at V 141 (by rfl) (by decide) (by decide)

theorem fin_main_v65 (V : Valuation τ sig (Elt F)) :
    after ops V (Proc.devRef .tc main_v65) = (cmpi .slt : (⟨S8192x8, .i32⟩ : BufTy).Contents (Elt F) → (⟨S8192x8, .i32⟩ : BufTy).Contents (Elt F) → (⟨S8192x8, .i1⟩ : BufTy).Contents (Elt F)) (after ops V (Proc.devRef .tc main_v62)) (after ops V (Proc.devRef .tc main_v64)) :=
  aligned.binary_at V 142 (by rfl) (by decide) (by decide) (by decide)

theorem fin_main_c_24 (V : Valuation τ sig (Elt F)) :
    after ops V (Proc.devRef .tc main_c_24) = (constantI S_ 32 8192#32) :=
  aligned.nullary_at V 143 (by rfl) (by decide)

theorem fin_main_v66 (V : Valuation τ sig (Elt F)) :
    after ops V (Proc.devRef .tc main_v66) = (broadcastInDim S8192x8 ![] bcast_S_S8192x8 : (⟨S_, .i32⟩ : BufTy).Contents (Elt F) → (⟨S8192x8, .i32⟩ : BufTy).Contents (Elt F)) (after ops V (Proc.devRef .tc main_c_24)) :=
  aligned.unary_at V 144 (by rfl) (by decide) (by decide)

theorem fin_main_v67 (V : Valuation τ sig (Elt F)) :
    after ops V (Proc.devRef .tc main_v67) = (addi : (⟨S8192x8, .i32⟩ : BufTy).Contents (Elt F) → (⟨S8192x8, .i32⟩ : BufTy).Contents (Elt F) → (⟨S8192x8, .i32⟩ : BufTy).Contents (Elt F)) (after ops V (Proc.devRef .tc main_v62)) (after ops V (Proc.devRef .tc main_v66)) :=
  aligned.binary_at V 145 (by rfl) (by decide) (by decide) (by decide)

theorem fin_main_v68 (V : Valuation τ sig (Elt F)) :
    after ops V (Proc.devRef .tc main_v68) = (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)) (after ops V (Proc.devRef .tc main_v65)) (after ops V (Proc.devRef .tc main_v67)) (after ops V (Proc.devRef .tc main_v62)) :=
  aligned.ternary_at V 146 (by rfl) (by decide) (by decide) (by decide) (by decide)

theorem fin_main_c_25 (V : Valuation τ sig (Elt F)) :
    after ops V (Proc.devRef .tc main_c_25) = (constantI S_ 32 0#32) :=
  aligned.nullary_at V 147 (by rfl) (by decide)

theorem fin_main_v69 (V : Valuation τ sig (Elt F)) :
    after ops V (Proc.devRef .tc main_v69) = (broadcastInDim S8192x8 ![] bcast_S_S8192x8 : (⟨S_, .i32⟩ : BufTy).Contents (Elt F) → (⟨S8192x8, .i32⟩ : BufTy).Contents (Elt F)) (after ops V (Proc.devRef .tc main_c_25)) :=
  aligned.unary_at V 148 (by rfl) (by decide) (by decide)

theorem fin_main_v70 (V : Valuation τ sig (Elt F)) :
    after ops V (Proc.devRef .tc main_v70) = (cmpi .slt : (⟨S8192x8, .i32⟩ : BufTy).Contents (Elt F) → (⟨S8192x8, .i32⟩ : BufTy).Contents (Elt F) → (⟨S8192x8, .i1⟩ : BufTy).Contents (Elt F)) (after ops V (Proc.devRef .tc main_v56)) (after ops V (Proc.devRef .tc main_v69)) :=
  aligned.binary_at V 149 (by rfl) (by decide) (by decide) (by decide)

theorem fin_main_c_26 (V : Valuation τ sig (Elt F)) :
    after ops V (Proc.devRef .tc main_c_26) = (constantI S_ 32 4096#32) :=
  aligned.nullary_at V 150 (by rfl) (by decide)

theorem fin_main_v71 (V : Valuation τ sig (Elt F)) :
    after ops V (Proc.devRef .tc main_v71) = (broadcastInDim S8192x8 ![] bcast_S_S8192x8 : (⟨S_, .i32⟩ : BufTy).Contents (Elt F) → (⟨S8192x8, .i32⟩ : BufTy).Contents (Elt F)) (after ops V (Proc.devRef .tc main_c_26)) :=
  aligned.unary_at V 151 (by rfl) (by decide) (by decide)

theorem fin_main_v72 (V : Valuation τ sig (Elt F)) :
    after ops V (Proc.devRef .tc main_v72) = (addi : (⟨S8192x8, .i32⟩ : BufTy).Contents (Elt F) → (⟨S8192x8, .i32⟩ : BufTy).Contents (Elt F) → (⟨S8192x8, .i32⟩ : BufTy).Contents (Elt F)) (after ops V (Proc.devRef .tc main_v56)) (after ops V (Proc.devRef .tc main_v71)) :=
  aligned.binary_at V 152 (by rfl) (by decide) (by decide) (by decide)

theorem fin_main_v73 (V : Valuation τ sig (Elt F)) :
    after ops V (Proc.devRef .tc main_v73) = (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)) (after ops V (Proc.devRef .tc main_v70)) (after ops V (Proc.devRef .tc main_v72)) (after ops V (Proc.devRef .tc main_v56)) :=
  aligned.ternary_at V 153 (by rfl) (by decide) (by decide) (by decide) (by decide)

theorem fin_main_v74 (V : Valuation τ sig (Elt F)) :
    after ops V (Proc.devRef .tc main_v74) = (broadcastInDim S8192x8x1 ![0, 1] bcast_S8192x8_S8192x8x1_0_1 : (⟨S8192x8, .i32⟩ : BufTy).Contents (Elt F) → (⟨S8192x8x1, .i32⟩ : BufTy).Contents (Elt F)) (after ops V (Proc.devRef .tc main_v68)) :=
  aligned.unary_at V 154 (by rfl) (by decide) (by decide)

theorem fin_main_v75 (V : Valuation τ sig (Elt F)) :
    after ops V (Proc.devRef .tc main_v75) = (broadcastInDim S8192x8x1 ![0, 1] bcast_S8192x8_S8192x8x1_0_1 : (⟨S8192x8, .i32⟩ : BufTy).Contents (Elt F) → (⟨S8192x8x1, .i32⟩ : BufTy).Contents (Elt F)) (after ops V (Proc.devRef .tc main_v73)) :=
  aligned.unary_at V 155 (by rfl) (by decide) (by decide)

theorem fin_main_v76 (V : Valuation τ sig (Elt F)) :
    after ops V (Proc.devRef .tc main_v76) = ((fun a b => concatenate S8192x8x2 2 [⟨S8192x8x1, a⟩, ⟨S8192x8x1, b⟩] concatenates_S8192x8x1_S8192x8x1_S8192x8x2_d2) : (⟨S8192x8x1, .i32⟩ : BufTy).Contents (Elt F) → (⟨S8192x8x1, .i32⟩ : BufTy).Contents (Elt F) → (⟨S8192x8x2, .i32⟩ : BufTy).Contents (Elt F)) (after ops V (Proc.devRef .tc main_v74)) (after ops V (Proc.devRef .tc main_v75)) :=
  aligned.binary_at V 156 (by rfl) (by decide) (by decide) (by decide)

theorem fin_main_v77 (V : Valuation τ sig (Elt F)) :
    after ops V (Proc.devRef .tc main_v77) = ((fun x i u => Host.scatterAdd scatter_S8192x4096_S8192x8x2_S8192x8_n_01_01_2 x i u) : (⟨S8192x4096, .f32⟩ : BufTy).Contents (Elt F) → (⟨S8192x8x2, .i32⟩ : BufTy).Contents (Elt F) → (⟨S8192x8, .f32⟩ : BufTy).Contents (Elt F) → (⟨S8192x4096, .f32⟩ : BufTy).Contents (Elt F)) (after ops V (Proc.devRef .tc main_v63)) (after ops V (Proc.devRef .tc main_v76)) (after ops V (Proc.devRef .tc main_v49)) :=
  aligned.ternary_at V 157 (by rfl) (by decide) (by decide) (by decide) (by decide)

theorem fin_main_c_27 (V : Valuation τ sig (Elt F)) :
    after ops V (Proc.devRef .tc main_c_27) = (constantI S_ 32 0#32) :=
  aligned.nullary_at V 158 (by rfl) (by decide)

theorem fin_main_v78 (V : Valuation τ sig (Elt F)) :
    after ops V (Proc.devRef .tc main_v78) = (broadcastInDim S8192x8 ![] bcast_S_S8192x8 : (⟨S_, .i32⟩ : BufTy).Contents (Elt F) → (⟨S8192x8, .i32⟩ : BufTy).Contents (Elt F)) (after ops V (Proc.devRef .tc main_c_27)) :=
  aligned.unary_at V 159 (by rfl) (by decide) (by decide)

theorem fin_main_v79 (V : Valuation τ sig (Elt F)) :
    after ops V (Proc.devRef .tc main_v79) = (cmpi .slt : (⟨S8192x8, .i32⟩ : BufTy).Contents (Elt F) → (⟨S8192x8, .i32⟩ : BufTy).Contents (Elt F) → (⟨S8192x8, .i1⟩ : BufTy).Contents (Elt F)) (after ops V (Proc.devRef .tc main_v62)) (after ops V (Proc.devRef .tc main_v78)) :=
  aligned.binary_at V 160 (by rfl) (by decide) (by decide) (by decide)

theorem fin_main_c_28 (V : Valuation τ sig (Elt F)) :
    after ops V (Proc.devRef .tc main_c_28) = (constantI S_ 32 8192#32) :=
  aligned.nullary_at V 161 (by rfl) (by decide)

theorem fin_main_v80 (V : Valuation τ sig (Elt F)) :
    after ops V (Proc.devRef .tc main_v80) = (broadcastInDim S8192x8 ![] bcast_S_S8192x8 : (⟨S_, .i32⟩ : BufTy).Contents (Elt F) → (⟨S8192x8, .i32⟩ : BufTy).Contents (Elt F)) (after ops V (Proc.devRef .tc main_c_28)) :=
  aligned.unary_at V 162 (by rfl) (by decide) (by decide)

theorem fin_main_v81 (V : Valuation τ sig (Elt F)) :
    after ops V (Proc.devRef .tc main_v81) = (addi : (⟨S8192x8, .i32⟩ : BufTy).Contents (Elt F) → (⟨S8192x8, .i32⟩ : BufTy).Contents (Elt F) → (⟨S8192x8, .i32⟩ : BufTy).Contents (Elt F)) (after ops V (Proc.devRef .tc main_v62)) (after ops V (Proc.devRef .tc main_v80)) :=
  aligned.binary_at V 163 (by rfl) (by decide) (by decide) (by decide)

theorem fin_main_v82 (V : Valuation τ sig (Elt F)) :
    after ops V (Proc.devRef .tc main_v82) = (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)) (after ops V (Proc.devRef .tc main_v79)) (after ops V (Proc.devRef .tc main_v81)) (after ops V (Proc.devRef .tc main_v62)) :=
  aligned.ternary_at V 164 (by rfl) (by decide) (by decide) (by decide) (by decide)

theorem fin_main_c_29 (V : Valuation τ sig (Elt F)) :
    after ops V (Proc.devRef .tc main_c_29) = (constantI S_ 32 0#32) :=
  aligned.nullary_at V 165 (by rfl) (by decide)

theorem fin_main_v83 (V : Valuation τ sig (Elt F)) :
    after ops V (Proc.devRef .tc main_v83) = (broadcastInDim S8192x8 ![] bcast_S_S8192x8 : (⟨S_, .i32⟩ : BufTy).Contents (Elt F) → (⟨S8192x8, .i32⟩ : BufTy).Contents (Elt F)) (after ops V (Proc.devRef .tc main_c_29)) :=
  aligned.unary_at V 166 (by rfl) (by decide) (by decide)

theorem fin_main_v84 (V : Valuation τ sig (Elt F)) :
    after ops V (Proc.devRef .tc main_v84) = (cmpi .slt : (⟨S8192x8, .i32⟩ : BufTy).Contents (Elt F) → (⟨S8192x8, .i32⟩ : BufTy).Contents (Elt F) → (⟨S8192x8, .i1⟩ : BufTy).Contents (Elt F)) (after ops V (Proc.devRef .tc main_v59)) (after ops V (Proc.devRef .tc main_v83)) :=
  aligned.binary_at V 167 (by rfl) (by decide) (by decide) (by decide)

theorem fin_main_c_30 (V : Valuation τ sig (Elt F)) :
    after ops V (Proc.devRef .tc main_c_30) = (constantI S_ 32 4096#32) :=
  aligned.nullary_at V 168 (by rfl) (by decide)

theorem fin_main_v85 (V : Valuation τ sig (Elt F)) :
    after ops V (Proc.devRef .tc main_v85) = (broadcastInDim S8192x8 ![] bcast_S_S8192x8 : (⟨S_, .i32⟩ : BufTy).Contents (Elt F) → (⟨S8192x8, .i32⟩ : BufTy).Contents (Elt F)) (after ops V (Proc.devRef .tc main_c_30)) :=
  aligned.unary_at V 169 (by rfl) (by decide) (by decide)

theorem fin_main_v86 (V : Valuation τ sig (Elt F)) :
    after ops V (Proc.devRef .tc main_v86) = (addi : (⟨S8192x8, .i32⟩ : BufTy).Contents (Elt F) → (⟨S8192x8, .i32⟩ : BufTy).Contents (Elt F) → (⟨S8192x8, .i32⟩ : BufTy).Contents (Elt F)) (after ops V (Proc.devRef .tc main_v59)) (after ops V (Proc.devRef .tc main_v85)) :=
  aligned.binary_at V 170 (by rfl) (by decide) (by decide) (by decide)

theorem fin_main_v87 (V : Valuation τ sig (Elt F)) :
    after ops V (Proc.devRef .tc main_v87) = (select : (⟨S8192x8, .i1⟩ : BufTy).Contents (Elt F) → (⟨S8192x8, .i32⟩ : BufTy).Contents (Elt F) → (⟨S8192x8, .i32⟩ : BufTy).Contents (Elt F) → (⟨S8192x8, .i32⟩ : BufTy).Contents (Elt F)) (after ops V (Proc.devRef .tc main_v84)) (after ops V (Proc.devRef .tc main_v86)) (after ops V (Proc.devRef .tc main_v59)) :=
  aligned.ternary_at V 171 (by rfl) (by decide) (by decide) (by decide) (by decide)

theorem fin_main_v88 (V : Valuation τ sig (Elt F)) :
    after ops V (Proc.devRef .tc main_v88) = (broadcastInDim S8192x8x1 ![0, 1] bcast_S8192x8_S8192x8x1_0_1 : (⟨S8192x8, .i32⟩ : BufTy).Contents (Elt F) → (⟨S8192x8x1, .i32⟩ : BufTy).Contents (Elt F)) (after ops V (Proc.devRef .tc main_v82)) :=
  aligned.unary_at V 172 (by rfl) (by decide) (by decide)

theorem fin_main_v89 (V : Valuation τ sig (Elt F)) :
    after ops V (Proc.devRef .tc main_v89) = (broadcastInDim S8192x8x1 ![0, 1] bcast_S8192x8_S8192x8x1_0_1 : (⟨S8192x8, .i32⟩ : BufTy).Contents (Elt F) → (⟨S8192x8x1, .i32⟩ : BufTy).Contents (Elt F)) (after ops V (Proc.devRef .tc main_v87)) :=
  aligned.unary_at V 173 (by rfl) (by decide) (by decide)

theorem fin_main_v90 (V : Valuation τ sig (Elt F)) :
    after ops V (Proc.devRef .tc main_v90) = ((fun a b => concatenate S8192x8x2 2 [⟨S8192x8x1, a⟩, ⟨S8192x8x1, b⟩] concatenates_S8192x8x1_S8192x8x1_S8192x8x2_d2) : (⟨S8192x8x1, .i32⟩ : BufTy).Contents (Elt F) → (⟨S8192x8x1, .i32⟩ : BufTy).Contents (Elt F) → (⟨S8192x8x2, .i32⟩ : BufTy).Contents (Elt F)) (after ops V (Proc.devRef .tc main_v88)) (after ops V (Proc.devRef .tc main_v89)) :=
  aligned.binary_at V 174 (by rfl) (by decide) (by decide) (by decide)

theorem fin_main_v91 (V : Valuation τ sig (Elt F)) :
    after ops V (Proc.devRef .tc main_v91) = ((fun x i u => Host.scatterAdd scatter_S8192x4096_S8192x8x2_S8192x8_n_01_01_2 x i u) : (⟨S8192x4096, .f32⟩ : BufTy).Contents (Elt F) → (⟨S8192x8x2, .i32⟩ : BufTy).Contents (Elt F) → (⟨S8192x8, .f32⟩ : BufTy).Contents (Elt F) → (⟨S8192x4096, .f32⟩ : BufTy).Contents (Elt F)) (after ops V (Proc.devRef .tc main_v77)) (after ops V (Proc.devRef .tc main_v90)) (after ops V (Proc.devRef .tc main_v50)) :=
  aligned.ternary_at V 175 (by rfl) (by decide) (by decide) (by decide) (by decide)

theorem fin_main_v92 (V : Valuation τ sig (Elt F)) :
    after ops V (Proc.devRef .tc main_v92) = ((transpose S4096x8192 [1, 0] · transposes_S8192x4096_S4096x8192_1_0) : (⟨S8192x4096, .f32⟩ : BufTy).Contents (Elt F) → (⟨S4096x8192, .f32⟩ : BufTy).Contents (Elt F)) (after ops V (Proc.devRef .tc main_v91)) :=
  aligned.unary_at V 176 (by rfl) (by decide) (by decide)

theorem fin_main_v93 (V : Valuation τ sig (Elt F)) :
    after ops V (Proc.devRef .tc main_v93) = ((fun l r => Host.dotGeneral dot_S8192x4096_S4096x8192_S8192x8192_1_0_0_1_n_n none l r) : (⟨S8192x4096, .f32⟩ : BufTy).Contents (Elt F) → (⟨S4096x8192, .f32⟩ : BufTy).Contents (Elt F) → (⟨S8192x8192, .f32⟩ : BufTy).Contents (Elt F)) (after ops V (Proc.devRef .tc main_v91)) (after ops V (Proc.devRef .tc main_v92)) :=
  aligned.binary_at V 177 (by rfl) (by decide) (by decide) (by decide)

end Cert.ReferenceIdeal.RefRun

end
-- ==== Proof.RefTail.lean ====
/-
  The tail of the reference, as plain functions of four tables.

  From the two weight tables and the two clipped cell tables the reference builds, for each of the two cells, an
  array of (row, column) pairs — the row is the point's own number, the column is 512 times the band plus the cell,
  each passed through "count a negative index from the end" — scatter-adds the weights into a zero matrix of
  8192 rows and 4096 columns at those pairs, and multiplies the matrix by its transpose. This file writes that
  composition down operation by operation (refTail) and names its pieces.
-/
import proofs.«148301_j79766132621757_2_alg».proof.ReferenceIdeal
import Idealize.ShloMosaic.PureOps.Ideal

noncomputable section

namespace Cert.ReferenceIdeal.RefRead

open Idealize.ShloMosaic
open Cert.ReferenceIdeal Cert.ReferenceIdeal.Facts₀

variable [Cert.ReferenceIdeal.Facts]

/-- 512 times the band number, laid out over points and bands. -/
def bandBase : IVec S1x8 32 :=
  muli (broadcastInDim S1x8 ![] bcast_S_S1x8 (constantI S_ 32 512#32))
    (broadcastInDim S1x8 ![1] bcast_S8_S1x8_1 (iotaInDim S8 32 0))

/-- The column word of a cell table: 512 times the band plus the cell. -/
def colWord (c : IVec S8192x8 32) : IVec S8192x8 32 :=
  addi (broadcastInDim S8192x8 ![0, 1] bcast_S1x8_S8192x8_0_1 bandBase) c

/-- The row word: the point's own number, laid out over points and bands. -/
def rowWord : IVec S8192x8 32 :=
  broadcastInDim S8192x8 ![0, 1] bcast_S8192x1_S8192x8_0_1
    (broadcastInDim S8192x1 ![0] bcast_S8192_S8192x1_0 (iotaInDim S8192 32 0))

/-- "Count a negative index from the end" of an axis of extent n. -/
def wrapAt (n : BitVec 32) (v : IVec S8192x8 32) : IVec S8192x8 32 :=
  select (cmpi .slt v (broadcastInDim S8192x8 ![] bcast_S_S8192x8 (constantI S_ 32 0#32)))
    (addi v (broadcastInDim S8192x8 ![] bcast_S_S8192x8 (constantI S_ 32 n))) v

/-- The array of (row, column) pairs joined from a row table and a column table. -/
def pairsOf (r c : IVec S8192x8 32) : IVec S8192x8x2 32 :=
  concatenate S8192x8x2 2
    [⟨S8192x8x1, broadcastInDim S8192x8x1 ![0, 1] bcast_S8192x8_S8192x8x1_0_1 r⟩,
     ⟨S8192x8x1, broadcastInDim S8192x8x1 ![0, 1] bcast_S8192x8_S8192x8x1_0_1 c⟩]
    concatenates_S8192x8x1_S8192x8x1_S8192x8x2_d2

/-- The pairs of one cell table. -/
def cellPairs (c : IVec S8192x8 32) : IVec S8192x8x2 32 :=
  pairsOf (wrapAt 8192#32 rowWord) (wrapAt 4096#32 (colWord c))

/-- The zero matrix the weights are added into. -/
def zeroJ : FVec Ideal S8192x4096 .f32 :=
  broadcastInDim S8192x4096 ![] bcast_S_S8192x4096 (constant (F := Ideal) S_ .f32 0x00000000#32)

/-- The matrix after both scatter-adds: the left weights first, then the right weights. -/
def refJ (lw rw : FVec Ideal S8192x8 .f32) (cl cr : IVec S8192x8 32) : FVec Ideal S8192x4096 .f32 :=
  Host.scatterAdd (F := Ideal) scatter_S8192x4096_S8192x8x2_S8192x8_n_01_01_2
    (Host.scatterAdd (F := Ideal) scatter_S8192x4096_S8192x8x2_S8192x8_n_01_01_2 zeroJ (cellPairs cl) lw)
    (cellPairs cr) rw

/-- The reference's tail: the matrix times its transpose. -/
def refTail (lw rw : FVec Ideal S8192x8 .f32) (cl cr : IVec S8192x8 32) : FVec Ideal S8192x8192 .f32 :=
  Host.dotGeneral (F := Ideal) dot_S8192x4096_S4096x8192_S8192x8192_1_0_0_1_n_n none (refJ lw rw cl cr)
    (transpose S4096x8192 [1, 0] (refJ lw rw cl cr) transposes_S8192x4096_S4096x8192_1_0)

/-- The printed clip of a cell table: the larger of 0 and the word, then the smaller of 511 and that, compared
    signed (the call's two constants pass through a conversion that is the identity). -/
def clipFn (v : IVec S8192x8 32) : IVec S8192x8 32 :=
  minsi (broadcastInDim S8192x8 ![] bcast_S_S8192x8 (id (constantI S_ 32 511#32)))
    (maxsi (broadcastInDim S8192x8 ![] bcast_S_S8192x8 (id (constantI S_ 32 0#32))) v)

end Cert.ReferenceIdeal.RefRead

end
-- ==== Proof.RefStages.lean ====
/-
  The reference's buffers read in stages.

  With every buffer's final contents known as its operation's function of its operands' final contents, the contents
  of the result and of the four tables are read off by substitution, a stage at a time: the tables are the table
  functions of the argument array, and the result is the tail (two scatter-adds into a zero matrix, then the matrix
  times its transpose) of the four tables.
-/
import proofs.«148301_j79766132621757_2_alg».proof.Proof.RefLines
import proofs.«148301_j79766132621757_2_alg».proof.Proof.TableDefs
import proofs.«148301_j79766132621757_2_alg».proof.Proof.RefTail

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The tables as functions of the argument array

Stage by stage: each named piece of the table chain is the final contents of one buffer. -/

theorem at_bandIx (V : Valuation τ sig (Elt F)) :
    after ops V (Proc.devRef .tc main_v0) = (Cert.Gram.bandIx : (⟨S8, .i32⟩ : BufTy).Contents (Elt F)) := by
  rw [fin_main_v0 V] <;> rfl

theorem at_bandQuot (V : Valuation τ sig (Elt F)) :
    after ops V (Proc.devRef .tc main_call0_v2) = (Cert.Gram.bandQuot : (⟨S8, .i32⟩ : BufTy).Contents (Elt F)) := by
  rw [fin_main_call0_v2 V, fin_main_call0_v1 V, fin_main_call0_v0 V, fin_main_c V, at_bandIx V] <;> rfl

theorem at_halfBand (V : Valuation τ sig (Elt F)) :
    after ops V (Proc.devRef .tc main_v1) = (Cert.Gram.halfBand : (⟨S8, .i32⟩ : BufTy).Contents (Elt F)) := by
  rw [fin_main_v1 V, fin_main_call0_v13 V, fin_main_call0_v12 V, fin_main_call0_c_0 V, fin_main_call0_v11 V, fin_main_call0_v10 V, fin_main_call0_v9 V, fin_main_call0_c V, fin_main_call0_v8 V, fin_main_call0_v7 V, fin_main_call0_v6 V, fin_main_call0_v5 V, fin_main_call0_v4 V, fin_main_call0_v3 V, at_bandQuot V, fin_main_call0_v0 V, fin_main_c V, at_bandIx V] <;> rfl

theorem at_modulus (V : Valuation τ sig (Elt F)) :
    after ops V (Proc.devRef .tc main_call1_v2) = (Cert.Gram.modulus : (⟨S_, .i32⟩ : BufTy).Contents (Elt F)) := by
  rw [fin_main_call1_v2 V, fin_main_call1_c_0 V, fin_main_call1_v1 V, fin_main_call1_c V, fin_main_call1_v0 V, fin_main_c_1 V] <;> rfl

theorem at_bandRem (V : Valuation τ sig (Elt F)) :
    after ops V (Proc.devRef .tc main_call1_v4) = (Cert.Gram.bandRem : (⟨S8, .i32⟩ : BufTy).Contents (Elt F)) := by
  rw [fin_main_call1_v4 V, fin_main_call1_v3 V, at_modulus V, at_bandIx V] <;> rfl

theorem at_bandParity (V : Valuation τ sig (Elt F)) :
    after ops V (Proc.devRef .tc main_v12) = (Cert.Gram.bandParity : (⟨S8, .i32⟩ : BufTy).Contents (Elt F)) := by
  rw [fin_main_v12 V, fin_main_call1_v14 V, fin_main_call1_v13 V, fin_main_call1_v12 V, fin_main_call1_v11 V, fin_main_call1_v10 V, fin_main_call1_v9 V, fin_main_call1_c_3 V, fin_main_call1_v8 V, fin_main_call1_v7 V, fin_main_call1_c_2 V, fin_main_call1_v6 V, fin_main_call1_v5 V, fin_main_call1_c_1 V, at_bandRem V, at_modulus V] <;> rfl

theorem at_evenBand (V : Valuation τ sig (Elt F)) :
    after ops V (Proc.devRef .tc main_v14) = (Cert.Gram.evenBand : (⟨S8, .i1⟩ : BufTy).Contents (Elt F)) := by
  rw [fin_main_v14 V, fin_main_v13 V, fin_main_c_2 V, at_bandParity V] <;> rfl

theorem at_freq (V : Valuation τ sig (Elt F)) :
    after ops V (Proc.devRef .tc main_v7) = (Cert.Gram.freq (F := F) : (⟨S1x8, .f32⟩ : BufTy).Contents (Elt F)) := by
  rw [fin_main_v7 V, fin_main_v6 V, fin_main_cst V, fin_main_v5 V, fin_main_v4 V, fin_main_v3 V, fin_main_v2 V, fin_main_c_0 V, at_halfBand V] <;> rfl

theorem at_phase (V : Valuation τ sig (Elt F)) :
    after ops V (Proc.devRef .tc main_v11) = (Cert.Gram.phase (F := F) (after ops V (Proc.devRef .tc main_arg0)) : (⟨S8192x8, .f32⟩ : BufTy).Contents (Elt F)) := by
  rw [fin_main_v11 V, fin_main_v10 V, fin_main_v9 V, fin_main_v8 V, at_freq V] <;> rfl

theorem at_wave (V : Valuation τ sig (Elt F)) :
    after ops V (Proc.devRef .tc main_v17) = (Cert.Gram.wave (F := F) (after ops V (Proc.devRef .tc main_arg0)) : (⟨S8192x8, .f32⟩ : BufTy).Contents (Elt F)) := by
  rw [fin_main_v17 V, fin_main_call2_v0 V, fin_main_v16 V, fin_main_v15 V, at_evenBand V, at_phase V] <;> rfl

theorem at_fourier (V : Valuation τ sig (Elt F)) :
    after ops V (Proc.devRef .tc main_v21) = (Cert.Gram.fourier (F := F) (after ops V (Proc.devRef .tc main_arg0)) : (⟨S8192x8, .f32⟩ : BufTy).Contents (Elt F)) := by
  rw [fin_main_v21 V, fin_main_v20 V, fin_main_cst_4 V, fin_main_v19 V, fin_main_v18 V, fin_main_cst_3 V, at_wave V] <;> rfl

theorem at_leftF (V : Valuation τ sig (Elt F)) :
    after ops V (Proc.devRef .tc main_v24) = (Cert.Gram.leftF (F := F) (after ops V (Proc.devRef .tc main_arg0)) : (⟨S8192x8, .f32⟩ : BufTy).Contents (Elt F)) := by
  rw [fin_main_v24 V, fin_main_v23 V, fin_main_v22 V, fin_main_cst_5 V, at_fourier V] <;> rfl

theorem at_leftW (V : Valuation τ sig (Elt F)) :
    after ops V (Proc.devRef .tc main_v32) = (Cert.Gram.leftW (F := F) (after ops V (Proc.devRef .tc main_arg0)) : (⟨S8192x8, .f32⟩ : BufTy).Contents (Elt F)) := by
  rw [fin_main_v32 V, fin_main_v31 V, fin_main_cst_8 V, fin_main_v30 V, fin_main_v29 V, fin_main_v28 V, fin_main_v27 V, fin_main_cst_7 V, fin_main_v26 V, fin_main_v25 V, fin_main_cst_6 V, at_leftF V, at_fourier V] <;> rfl

theorem at_rightW (V : Valuation τ sig (Elt F)) :
    after ops V (Proc.devRef .tc main_v38) = (Cert.Gram.rightW (F := F) (after ops V (Proc.devRef .tc main_arg0)) : (⟨S8192x8, .f32⟩ : BufTy).Contents (Elt F)) := by
  rw [fin_main_v38 V, fin_main_v37 V, fin_main_cst_10 V, fin_main_v36 V, fin_main_v35 V, fin_main_v34 V, fin_main_v33 V, fin_main_cst_9 V, at_leftF V, at_fourier V] <;> rfl

theorem at_cellL (V : Valuation τ sig (Elt F)) :
    after ops V (Proc.devRef .tc main_v39) = (Cert.Gram.cellL (F := F) (after ops V (Proc.devRef .tc main_arg0)) : (⟨S8192x8, .i32⟩ : BufTy).Contents (Elt F)) := by
  rw [fin_main_v39 V, at_leftF V] <;> rfl

theorem at_cellR (V : Valuation τ sig (Elt F)) :
    after ops V (Proc.devRef .tc main_v41) = (Cert.Gram.cellR (F := F) (after ops V (Proc.devRef .tc main_arg0)) : (⟨S8192x8, .i32⟩ : BufTy).Contents (Elt F)) := by
  rw [fin_main_v41 V, fin_main_v40 V, fin_main_c_11 V, at_cellL V] <;> rfl

theorem at_maskL (V : Valuation τ sig (Elt F)) :
    after ops V (Proc.devRef .tc main_v46) = (Cert.Gram.maskL (F := F) (after ops V (Proc.devRef .tc main_arg0)) : (⟨S8192x8, .i1⟩ : BufTy).Contents (Elt F)) := by
  rw [fin_main_v46 V, fin_main_v45 V, fin_main_v44 V, fin_main_c_13 V, fin_main_v43 V, fin_main_v42 V, fin_main_c_12 V, at_cellL V] <;> rfl

theorem at_maskR (V : Valuation τ sig (Elt F)) :
    after ops V (Proc.devRef .tc main_v48) = (Cert.Gram.maskR (F := F) (after ops V (Proc.devRef .tc main_arg0)) : (⟨S8192x8, .i1⟩ : BufTy).Contents (Elt F)) := by
  rw [fin_main_v48 V, fin_main_v47 V, fin_main_c_14 V, at_cellR V] <;> rfl

theorem at_lwT (V : Valuation τ sig (Elt F)) :
    after ops V (Proc.devRef .tc main_v49) = (Cert.Gram.lwT (F := F) (after ops V (Proc.devRef .tc main_arg0)) : (⟨S8192x8, .f32⟩ : BufTy).Contents (Elt F)) := by
  rw [fin_main_v49 V, fin_main_call3_v1 V, fin_main_call3_v0 V, fin_main_cst_15 V, at_maskL V, at_leftW V] <;> rfl

theorem at_rwT (V : Valuation τ sig (Elt F)) :
    after ops V (Proc.devRef .tc main_v50) = (Cert.Gram.rwT (F := F) (after ops V (Proc.devRef .tc main_arg0)) : (⟨S8192x8, .f32⟩ : BufTy).Contents (Elt F)) := by
  rw [fin_main_v50 V, fin_main_call4_v1 V, fin_main_call4_v0 V, fin_main_cst_16 V, at_maskR V, at_rightW V] <;> rfl

theorem at_liT (V : Valuation τ sig (Elt F)) :
    after ops V (Proc.devRef .tc main_v54) = (Cert.Gram.liT (F := F) (after ops V (Proc.devRef .tc main_arg0)) : (⟨S8192x8, .i32⟩ : BufTy).Contents (Elt F)) := by
  rw [fin_main_v54 V, fin_main_call5_v4 V, fin_main_call5_v3 V, fin_main_call5_v2 V, fin_main_call5_v1 V, fin_main_call5_v0 V, fin_main_c_19 V, fin_main_c_18 V, at_cellL V] <;> rfl

theorem at_riT (V : Valuation τ sig (Elt F)) :
    after ops V (Proc.devRef .tc main_v57) = (Cert.Gram.riT (F := F) (after ops V (Proc.devRef .tc main_arg0)) : (⟨S8192x8, .i32⟩ : BufTy).Contents (Elt F)) := by
  rw [fin_main_v57 V, fin_main_call6_v4 V, fin_main_call6_v3 V, fin_main_call6_v2 V, fin_main_call6_v1 V, fin_main_call6_v0 V, fin_main_c_21 V, fin_main_c_20 V, at_cellR V] <;> rfl

/-- The four tables after the run are the table functions of the argument array as it was at the start. -/
theorem tables_eq (V : Valuation τ sig (Elt F)) :
    after ops V (Proc.devRef .tc main_v49) = Cert.Gram.lwT (F := F) (V (Proc.devRef .tc main_arg0))
    ∧ after ops V (Proc.devRef .tc main_v50) = Cert.Gram.rwT (F := F) (V (Proc.devRef .tc main_arg0))
    ∧ after ops V (Proc.devRef .tc main_v54) = Cert.Gram.liT (F := F) (V (Proc.devRef .tc main_arg0))
    ∧ after ops V (Proc.devRef .tc main_v57) = Cert.Gram.riT (F := F) (V (Proc.devRef .tc main_arg0)) := by
  rw [at_lwT, at_rwT, at_liT, at_riT, arg0_kept]
  exact ⟨rfl, rfl, rfl, rfl⟩

/-! ## The result as the tail of the four tables -/

/-- The result buffer ends at the tail of the four table buffers' final contents. -/
theorem tail_eq (V : Valuation τ sig (Elt Ideal)) :
    after ops V (Proc.devRef .tc main_v93) = RefRead.refTail (after ops V (Proc.devRef .tc main_v49)) (after ops V (Proc.devRef .tc main_v50)) (after ops V (Proc.devRef .tc main_v54)) (after ops V (Proc.devRef .tc main_v57)) := by
  rw [fin_main_v93 V, fin_main_v92 V, fin_main_v91 V, fin_main_v90 V, fin_main_v89 V, fin_main_v88 V, fin_main_v87 V, fin_main_v86 V, fin_main_v85 V, fin_main_c_30 V, fin_main_v84 V, fin_main_v83 V, fin_main_c_29 V, fin_main_v82 V, fin_main_v81 V, fin_main_v80 V, fin_main_c_28 V, fin_main_v79 V, fin_main_v78 V, fin_main_c_27 V, fin_main_v77 V, fin_main_v76 V, fin_main_v75 V, fin_main_v74 V, fin_main_v73 V, fin_main_v72 V, fin_main_v71 V, fin_main_c_26 V, fin_main_v70 V, fin_main_v69 V, fin_main_c_25 V, fin_main_v68 V, fin_main_v67 V, fin_main_v66 V, fin_main_c_24 V, fin_main_v65 V, fin_main_v64 V, fin_main_c_23 V, fin_main_v63 V, fin_main_cst_22 V, fin_main_v62 V, fin_main_v61 V, fin_main_v60 V, fin_main_v59 V, fin_main_v58 V, fin_main_v56 V, fin_main_v55 V, fin_main_v53 V, fin_main_v52 V, fin_main_c_17 V, fin_main_v51 V, fin_main_v0 V] <;> rfl

/-- The result buffer ends at the tail of the table functions of the argument array as it was at the start. -/
theorem result_eq (V : Valuation τ sig (Elt Ideal)) :
    after ops V (Proc.devRef .tc main_v93)
      = RefRead.refTail (Cert.Gram.lwT (F := Ideal) (V (Proc.devRef .tc main_arg0))) (Cert.Gram.rwT (F := Ideal) (V (Proc.devRef .tc main_arg0)))
          (Cert.Gram.liT (F := Ideal) (V (Proc.devRef .tc main_arg0))) (Cert.Gram.riT (F := Ideal) (V (Proc.devRef .tc main_arg0))) := by
  obtain ⟨h49, h50, h54, h57⟩ := tables_eq V
  rw [tail_eq, h49, h50, h54, h57]

/-- The run with the result named: every weakly fair execution of the reference terminates with the result buffer at
    the tail of the table functions of the argument array, and the argument array unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v93)
        = RefRead.refTail (Cert.Gram.lwT (F := Ideal) (m ((c.tc : Thread nD τ).loc main_arg0)))
            (Cert.Gram.rwT (F := Ideal) (m ((c.tc : Thread nD τ).loc main_arg0)))
            (Cert.Gram.liT (F := Ideal) (m ((c.tc : Thread nD τ).loc main_arg0)))
            (Cert.Gram.riT (F := Ideal) (m ((c.tc : Thread nD τ).loc main_arg0)))
      ∧ r.2.mem ((c.tc : Thread nD τ).loc main_arg0) = m ((c.tc : Thread nD τ).loc main_arg0)) :=
  (θ_run defs _ _).mono (fun _ h c => ⟨(h c).1.trans (result_eq _), (h c).2⟩) (run (F := Ideal) m ρ)

end Cert.ReferenceIdeal.RefRun

end
-- ==== Proof.LibPairScatterSum.lean ====
/-
  An accumulating scatter of single elements at (row, column) pairs is a sum over the pairs that land.

  An operand of extents N × K receives E · B updates, each one element; update (e, b) goes to the position whose row
  number and column number are the two components of the (e, b)-th entry of an E × B × 2 array of pairs, each read
  as a signed integer; an update whose row or column number is outside the operand is dropped. This file proves:
  update (e, b) lands at (n, k) exactly when its row number is n and its column number is k; hence the scatter's
  element at (n, k) is the operand's element there plus the sum over e and b of the update element (e, b) when its
  pair is (n, k) and 0 otherwise.
-/
import Idealize.ShloMosaic.Lib.ValueIdx

noncomputable section

open scoped BigOperators

namespace Cert.LibPairScatterSum

open Idealize.ShloMosaic Idealize.ShloMosaic.ValueIdx

/-! ## The landing index of an update -/

/-- An update lands at `i` exactly when, on every axis, its window start plus its window coordinate is `i`'s
    coordinate (the sum is then in range because `i`'s coordinate is). -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · rintro rfl a
      exact (Int.toNat_of_nonneg (h a).1).symm
    · intro hi
      funext a
      apply Fin.ext
      show (d.start j idx a + (d.window j a : ℤ)).toNat = (i a).val
      rw [hi a]; rfl
  · constructor
    · intro h'; cases h'
    · intro hi
      exfalso
      apply h
      intro a
      rw [hi a]
      exact ⟨Int.natCast_nonneg _, by exact_mod_cast (i a).isLt⟩

/-- The pair scatter's dimension numbers: the two index components choose the operand's row and column, the
    update has no window axis. -/
abbrev pairDims (N K E B : ℕ)
    (wf : ScatterDims.WF (⟨2, ![N, K]⟩ : Shape) (⟨3, ![E, B, 2]⟩ : Shape) (⟨2, ![E, B]⟩ : Shape) [] [0, 1] [0, 1] 2) :
    ScatterDims (⟨2, ![N, K]⟩ : Shape) (⟨3, ![E, B, 2]⟩ : Shape) (⟨2, ![E, B]⟩ : Shape) where
  updateWindowDims := []
  insertedWindowDims := [0, 1]
  scatterDimsToOperandDims := [0, 1]
  indexVectorDim := 2
  wf := wf

/-! Both operand axes are named by the index components and neither is a window axis: facts about lists of axis
numbers, independent of the extents. -/
theorem mem_map0 : (0 : Fin 2) ∈ ([0, 1] : List (Fin 2)) := by decide
theorem mem_map1 : (1 : Fin 2) ∈ ([0, 1] : List (Fin 2)) := by decide
theorem not_mem_kept (a : Fin 2) :
    ¬ a ∈ (List.finRange 2).filter (fun x : Fin 2 => decide (x ∉ ([0, 1] : List (Fin 2)))) := by
  revert a; decide

section Pair

variable {N K E B w : ℕ}
  (wf : ScatterDims.WF (⟨2, ![N, K]⟩ : Shape) (⟨3, ![E, B, 2]⟩ : Shape) (⟨2, ![E, B]⟩ : Shape) [] [0, 1] [0, 1] 2)

/-- On the row axis the window starts at the first component of the update's pair … -/
theorem start0 (e : Fin E) (b : Fin B) (idx : IVec (⟨3, ![E, B, 2]⟩ : Shape) w) :
    (pairDims N K E B wf).start (ix2 e b) idx 0 = (idx (ix3 e b (0 : Fin 2))).toInt := by
  unfold ScatterDims.start
  rw [dif_pos (show (0 : Fin (⟨2, ![N, K]⟩ : Shape).rank) ∈ (pairDims N K E B wf).scatterDimsToOperandDims from mem_map0)]
  congr 2
  funext c
  apply Fin.ext
  match c with
  | ⟨0, _⟩ => rfl
  | ⟨1, _⟩ => rfl
  | ⟨2, _⟩ => rfl

/-- … and on the column axis at its second component. -/
theorem start1 (e : Fin E) (b : Fin B) (idx : IVec (⟨3, ![E, B, 2]⟩ : Shape) w) :
    (pairDims N K E B wf).start (ix2 e b) idx 1 = (idx (ix3 e b (1 : Fin 2))).toInt := by
  unfold ScatterDims.start
  rw [dif_pos (show (1 : Fin (⟨2, ![N, K]⟩ : Shape).rank) ∈ (pairDims N K E B wf).scatterDimsToOperandDims from mem_map1)]
  congr 2
  funext c
  apply Fin.ext
  match c with
  | ⟨0, _⟩ => rfl
  | ⟨1, _⟩ => rfl
  | ⟨2, _⟩ => rfl

/-- There is no window: the window coordinate is zero on both axes. -/
theorem window_zero (e : Fin E) (b : Fin B) (a : Fin 2) : (pairDims N K E B wf).window (ix2 e b) a = 0 := by
  unfold ScatterDims.window
  rw [dif_neg (show ¬ a ∈ (pairDims N K E B wf).sKept from not_mem_kept a)]

/-- Update (e, b) lands at `i` exactly when its pair, read signed, is `i`'s row and column. -/
theorem lands_iff (e : Fin E) (b : Fin B) (idx : IVec (⟨3, ![E, B, 2]⟩ : Shape) w) (i : (⟨2, ![N, K]⟩ : Shape).Idx) :
    (pairDims N K E B wf).resultIdx? (ix2 e b) idx = some i
      ↔ (idx (ix3 e b (0 : Fin 2))).toInt = ((i 0).val : ℤ) ∧ (idx (ix3 e b (1 : Fin 2))).toInt = ((i 1).val : ℤ) := by
  rw [resultIdx?_eq_some_iff]
  constructor
  · intro h
    have h0 := h 0
    have h1 := h 1
    rw [start0, window_zero] at h0
    rw [start1, window_zero] at h1
    exact ⟨by simpa using h0, by simpa using h1⟩
  · rintro ⟨h0, h1⟩ c
    match c with
    | ⟨0, _⟩ =>
      show (pairDims N K E B wf).start (ix2 e b) idx 0 + (((pairDims N K E B wf).window (ix2 e b) 0 : ℕ) : ℤ) = ((i 0).val : ℤ)
      rw [start0, window_zero, h0]; simp
    | ⟨1, _⟩ =>
      show (pairDims N K E B wf).start (ix2 e b) idx 1 + (((pairDims N K E B wf).window (ix2 e b) 1 : ℕ) : ℤ) = ((i 1).val : ℤ)
      rw [start1, window_zero, h1]; simp

/-- The updates that land at `i`, summed: one term per update whose pair is `i`. -/
theorem sum_lands {M : Type*} [AddCommMonoid M] (idx : IVec (⟨3, ![E, B, 2]⟩ : Shape) w)
    (upd : (⟨2, ![E, B]⟩ : Shape).Idx → M) (i : (⟨2, ![N, K]⟩ : Shape).Idx)
    [DecidablePred fun j : (⟨2, ![E, B]⟩ : Shape).Idx => (pairDims N K E B wf).resultIdx? j idx = some i] :
    (∑ j ∈ Finset.univ.filter (fun j => (pairDims N K E B wf).resultIdx? j idx = some i), upd j)
      = ∑ e : Fin E, ∑ b : Fin B,
          if (idx (ix3 e b (0 : Fin 2))).toInt = ((i 0).val : ℤ) ∧ (idx (ix3 e b (1 : Fin 2))).toInt = ((i 1).val : ℤ)
          then upd (ix2 e b) else 0 := by
  rw [Finset.sum_filter, sum_idx2]
  refine Finset.sum_congr rfl fun e _ => Finset.sum_congr rfl fun b _ => ?_
  by_cases hc : (pairDims N K E B wf).resultIdx? (ix2 e b) idx = some i
  · rw [if_pos hc, if_pos ((lands_iff wf e b idx i).1 hc)]
  · rw [if_neg hc, if_neg (fun h => hc ((lands_iff wf e b idx i).2 h))]

/-- The accumulating pair scatter's element at `i` is the operand's element there plus the sum, over the updates
    whose pair is `i`, of the update's element. -/
theorem hostScatterAdd_pairs (x : (⟨2, ![N, K]⟩ : Shape).Idx → EReal) (idx : IVec (⟨3, ![E, B, 2]⟩ : Shape) w)
    (upd : (⟨2, ![E, B]⟩ : Shape).Idx → EReal) (i : (⟨2, ![N, K]⟩ : Shape).Idx) :
    Ideal.hostScatterAdd (pairDims N K E B wf) x idx upd i
      = x i + ∑ e : Fin E, ∑ b : Fin B,
          if (idx (ix3 e b (0 : Fin 2))).toInt = ((i 0).val : ℤ) ∧ (idx (ix3 e b (1 : Fin 2))).toInt = ((i 1).val : ℤ)
          then upd (ix2 e b) else 0 := by
  unfold Ideal.hostScatterAdd
  rw [sum_lands]

end Pair

end Cert.LibPairScatterSum

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.RefRead.lean ====
/-
  The reference's tail read at an entry: the Gram matrix of the banded Jacobian.

  The matrix the reference scatters the weights into has, at row n and column k = 512 · band + cell, the left
  weight of (n, band) when the cell is that point's left cell plus the right weight when it is the right cell:
  the row word of update (e, b) is e, so it lands on row n only for e = n, and its column word 512 · b + cell lies
  below 4096 and lands on column k only for b the band of k and the cell k mod 512. The product of the matrix with
  its transpose is then the sum over the 4096 columns of the products of two rows' entries.
-/
import proofs.«148301_j79766132621757_2_alg».proof.Proof.RefTail
import proofs.«148301_j79766132621757_2_alg».proof.Proof.Spec
import proofs.«148301_j79766132621757_2_alg».proof.Proof.LibPairScatterSum
import proofs.«148301_j79766132621757_2_alg».proof.Proof.LibMatmul
import proofs.«148301_j79766132621757_2_alg».proof.Proof.LibClipRange
import Idealize.ShloMosaic.Lib.Pipeline.Value
import Idealize.ShloMosaic.Lib.ValueIdx
import Idealize.ShloMosaic.PureOps.Ideal.Laws

noncomputable section

open scoped BigOperators

namespace Cert.ReferenceIdeal.RefRead

open Idealize.ShloMosaic Idealize.ShloMosaic.ValueIdx
open Cert.ReferenceIdeal Cert.ReferenceIdeal.Facts₀

/-! ## Words -/

/-- A 32-bit word below 2^31 is not negative. -/
theorem slt_zero_of_lt (x : BitVec 32) (h : x.toNat < 2 ^ 31) : IntOp.cmpi .slt x 0#32 = 0#1 := by
  have hx : x.toInt = (x.toNat : Int) := BitVec.toInt_eq_toNat_of_lt (by omega)
  have h0 : (0#32 : BitVec 32).toInt = 0 := rfl
  have hs : x.slt 0#32 = false := by
    show decide (x.toInt < (0#32 : BitVec 32).toInt) = false
    rw [hx, h0]
    exact decide_eq_false (by omega)
  show BitVec.ofBool (x.slt 0#32) = 0#1
  rw [hs]
  rfl

/-- "Count a negative index from the end" leaves a word below 2^31 alone. -/
theorem select_wrap (t a : BitVec 32) (h : t.toNat < 2 ^ 31) :
    Scalar.select (IntOp.cmpi .slt t 0#32) a t = t := by
  rw [slt_zero_of_lt t h, select_zero]

/-- The row word of point e, read signed, is n exactly when e is n. -/
theorem row_lands (e n : Fin 8192) : (BitVec.ofNat 32 e.val).toInt = ((n.val : ℕ) : ℤ) ↔ e = n := by
  have he := e.isLt
  have ht : (BitVec.ofNat 32 e.val).toNat = e.val := by rw [BitVec.toNat_ofNat]; omega
  rw [BitVec.toInt_eq_toNat_of_lt (by omega), ht]
  constructor
  · intro h; exact Fin.ext (by exact_mod_cast h)
  · rintro rfl; rfl

/-- The column word 512 · b + c of a cell c below 512 in band b is below 4096. -/
theorem col_toNat (b : Fin 8) (c : BitVec 32) (hc : c.toNat < 512) :
    (IntOp.addi (IntOp.muli 512#32 (BitVec.ofNat 32 b.val)) c).toNat = 512 * b.val + c.toNat := by
  have hb := b.isLt
  show (512#32 * BitVec.ofNat 32 b.val + c).toNat = _
  have h512 : (512#32 : BitVec 32).toNat = 512 := rfl
  rw [BitVec.toNat_add, BitVec.toNat_mul, h512, BitVec.toNat_ofNat]
  omega

/-- Read signed, that column word is k exactly when b is the band of k and c is the cell k mod 512. -/
theorem col_lands (b : Fin 8) (c : BitVec 32) (hc : c.toNat < 512) (k : Fin 4096) :
    (IntOp.addi (IntOp.muli 512#32 (BitVec.ofNat 32 b.val)) c).toInt = ((k.val : ℕ) : ℤ)
      ↔ b = Cert.Gram.band k ∧ BitVec.ofNat 32 (k.val % 512) = c := by
  have hb := b.isLt
  have hk := k.isLt
  have ht := col_toNat b c hc
  rw [BitVec.toInt_eq_toNat_of_lt (by omega), ht]
  constructor
  · intro h
    have h' : 512 * b.val + c.toNat = k.val := by exact_mod_cast h
    refine ⟨Fin.ext ?_, ?_⟩
    · show b.val = k.val / 512
      omega
    · apply BitVec.eq_of_toNat_eq
      rw [BitVec.toNat_ofNat]
      omega
  · rintro ⟨h1, h2⟩
    have hbv : b.val = k.val / 512 := congrArg Fin.val h1
    have hcv : c.toNat = k.val % 512 := by
      rw [← h2, BitVec.toNat_ofNat]; omega
    have : 512 * b.val + c.toNat = k.val := by omega
    exact_mod_cast this

/-- A double sum whose terms vanish off one pair of coordinates is the term there. -/
theorem sum_pick2 {M : Type*} [AddCommMonoid M] {n1 n2 : Nat} (s0 : Fin n1) (t0 : Fin n2)
    (p : Fin n1 → Fin n2 → Prop) [∀ s t, Decidable (p s t)] (g : Fin n1 → Fin n2 → M)
    (hp : ∀ s t, p s t → s = s0 ∧ t = t0) :
    (∑ s : Fin n1, ∑ t : Fin n2, if p s t then g s t else 0) = if p s0 t0 then g s0 t0 else 0 := by
  rw [Finset.sum_eq_single s0, Finset.sum_eq_single t0]
  · intro t _ ht
    rw [if_neg]
    intro h
    exact ht (hp _ _ h).2
  · intro h
    exact absurd (Finset.mem_univ _) h
  · intro s _ hs
    apply Finset.sum_eq_zero
    intro t _
    rw [if_neg]
    intro h
    exact hs (hp _ _ h).1
  · intro h
    exact absurd (Finset.mem_univ _) h

variable [Cert.ReferenceIdeal.Facts]

/-! ## The tables of words at an index -/

/-- The row word at (e, b) is the word of e. -/
theorem rowWord_apply (e : Fin 8192) (b : Fin 8) : rowWord (ix2 e b) = BitVec.ofNat 32 e.val := rfl

/-- The column word at (e, b) is 512 · b plus the cell. -/
theorem colWord_apply (c : IVec S8192x8 32) (e : Fin 8192) (b : Fin 8) :
    colWord c (ix2 e b) = IntOp.addi (IntOp.muli 512#32 (BitVec.ofNat 32 b.val)) (c (ix2 e b)) := rfl

/-- The wrap at an index is the select on the word's sign. -/
theorem wrapAt_apply (n : BitVec 32) (v : IVec S8192x8 32) (j : S8192x8.Idx) :
    wrapAt n v j = Scalar.select (IntOp.cmpi .slt (v j) 0#32) (IntOp.addi (v j) n) (v j) := rfl

/-- The wrapped row word is the word of e. -/
theorem wrap_row (e : Fin 8192) (b : Fin 8) : wrapAt 8192#32 rowWord (ix2 e b) = BitVec.ofNat 32 e.val := by
  rw [wrapAt_apply, rowWord_apply]
  apply select_wrap
  have he := e.isLt
  rw [BitVec.toNat_ofNat]; omega

/-- The wrapped column word of a cell below 512 is the column word. -/
theorem wrap_col (c : IVec S8192x8 32) (hc : ∀ j, (c j).toNat < 512) (e : Fin 8192) (b : Fin 8) :
    wrapAt 4096#32 (colWord c) (ix2 e b) = IntOp.addi (IntOp.muli 512#32 (BitVec.ofNat 32 b.val)) (c (ix2 e b)) := by
  rw [wrapAt_apply, colWord_apply]
  apply select_wrap
  have hb := b.isLt
  rw [col_toNat b _ (hc _)]
  have := hc (ix2 e b)
  omega

/-! ## The pairs -/

/-- The first component of pair (e, b) is the row table's word. -/
theorem pairsOf_fst (r c : IVec S8192x8 32) (e : Fin 8192) (b : Fin 8) :
    pairsOf r c (ix3 e b (0 : Fin 2)) = r (ix2 e b) := by
  unfold pairsOf
  rw [concatenate_pair_apply_left (t := S8192x8x2) (s₁ := S8192x8x1) (s₂ := S8192x8x1) (2 : Fin 3) _ _ _ (ix3 e b (0 : Fin 2)) rfl (ix3 e b (0 : Fin 1))
    (by intro a; match a with | ⟨0, _⟩ => rfl | ⟨1, _⟩ => rfl | ⟨2, _⟩ => rfl)]
  unfold broadcastInDim
  congr 1
  funext a
  apply Fin.ext
  match a with
  | ⟨0, _⟩ => rfl
  | ⟨1, _⟩ => rfl

/-- The second component of pair (e, b) is the column table's word. -/
theorem pairsOf_snd (r c : IVec S8192x8 32) (e : Fin 8192) (b : Fin 8) :
    pairsOf r c (ix3 e b (1 : Fin 2)) = c (ix2 e b) := by
  unfold pairsOf
  rw [concatenate_pair_apply_right (t := S8192x8x2) (s₁ := S8192x8x1) (s₂ := S8192x8x1) (2 : Fin 3) _ _ _ (ix3 e b (1 : Fin 2)) rfl rfl (ix3 e b (0 : Fin 1))
    (by intro a ha; match a with
      | ⟨0, _⟩ => rfl
      | ⟨1, _⟩ => rfl
      | ⟨2, _⟩ => exact absurd rfl ha)
    rfl]
  unfold broadcastInDim
  congr 1
  funext a
  apply Fin.ext
  match a with
  | ⟨0, _⟩ => rfl
  | ⟨1, _⟩ => rfl

/-! ## One scatter-add at an entry -/

/-- Scatter-adding a weight table at the pairs of a cell table below 512 adds, at (n, k), the weight of
    (n, band of k) when the cell there is k mod 512. -/
theorem scatter_cell (x : FVec Ideal S8192x4096 .f32) (c : IVec S8192x8 32) (hc : ∀ j, (c j).toNat < 512)
    (wt : FVec Ideal S8192x8 .f32) (n : Fin 8192) (k : Fin 4096) :
    Host.scatterAdd (F := Ideal) scatter_S8192x4096_S8192x8x2_S8192x8_n_01_01_2 x (cellPairs c) wt (ix2 n k)
      = x (ix2 n k) + (if BitVec.ofNat 32 (k.val % 512) = c (ix2 n (Cert.Gram.band k))
          then wt (ix2 n (Cert.Gram.band k)) else 0) := by
  show Ideal.hostScatterAdd (Cert.LibPairScatterSum.pairDims 8192 4096 8192 8
      scatter_S8192x4096_S8192x8x2_S8192x8_n_01_01_2_wf) x (cellPairs c) wt (ix2 n k) = _
  rw [Cert.LibPairScatterSum.hostScatterAdd_pairs]
  congr 1
  have hiff : ∀ (e : Fin 8192) (b : Fin 8),
      ((cellPairs c (ix3 e b (0 : Fin 2))).toInt = (((ix2 n k : S8192x4096.Idx) 0).val : ℤ)
        ∧ (cellPairs c (ix3 e b (1 : Fin 2))).toInt = (((ix2 n k : S8192x4096.Idx) 1).val : ℤ))
      ↔ (e = n ∧ b = Cert.Gram.band k ∧ BitVec.ofNat 32 (k.val % 512) = c (ix2 e b)) := by
    intro e b
    unfold cellPairs
    rw [pairsOf_fst, pairsOf_snd, wrap_row, wrap_col c hc]
    show ((BitVec.ofNat 32 e.val).toInt = ((n.val : ℕ) : ℤ)
      ∧ (IntOp.addi (IntOp.muli 512#32 (BitVec.ofNat 32 b.val)) (c (ix2 e b))).toInt = ((k.val : ℕ) : ℤ)) ↔ _
    rw [row_lands, col_lands b _ (hc _)]
  rw [sum_pick2 n (Cert.Gram.band k) _ _ (fun e b h => ⟨((hiff e b).1 h).1, ((hiff e b).1 h).2.1⟩)]
  by_cases hq : BitVec.ofNat 32 (k.val % 512) = c (ix2 n (Cert.Gram.band k))
  · rw [if_pos hq, if_pos ((hiff _ _).2 ⟨rfl, rfl, hq⟩)]
  · rw [if_neg hq, if_neg (fun h => hq ((hiff _ _).1 h).2.2)]

/-! ## The matrix, its transpose and the product -/

/-- The zero matrix reads zero. -/
theorem zeroJ_apply (j : S8192x4096.Idx) : zeroJ j = 0 := Ideal.ofBits_zero_f32

/-- The scattered matrix is the Jacobian. -/
theorem refJ_apply (lw rw : FVec Ideal S8192x8 .f32) (cl cr : IVec S8192x8 32)
    (hcl : ∀ j, (cl j).toNat < 512) (hcr : ∀ j, (cr j).toNat < 512) (n : Fin 8192) (k : Fin 4096) :
    refJ lw rw cl cr (ix2 n k) = Cert.Gram.J cl cr lw rw n k := by
  unfold refJ
  rw [scatter_cell _ cr hcr, scatter_cell _ cl hcl, zeroJ_apply, zero_add]
  rfl

/-- The transposed matrix at (k, q) is the matrix at (q, k). -/
theorem transpose_apply (x : FVec Ideal S8192x4096 .f32) (k : Fin 4096) (q : Fin 8192) :
    transpose S4096x8192 [1, 0] x transposes_S8192x4096_S4096x8192_1_0 (ix2 k q) = x (ix2 q k) := by
  unfold transpose
  congr 1
  funext a
  apply Fin.ext
  match a with
  | ⟨0, _⟩ => rfl
  | ⟨1, _⟩ => rfl

/-- THE TAIL AT AN ENTRY: the Gram matrix of the Jacobian of the four tables. -/
theorem refTail_apply (lw rw : FVec Ideal S8192x8 .f32) (cl cr : IVec S8192x8 32)
    (hcl : ∀ j, (cl j).toNat < 512) (hcr : ∀ j, (cr j).toNat < 512) (P Q : Fin 8192) :
    refTail lw rw cl cr (ix2 P Q) = Cert.Gram.gram cl cr lw rw P Q := by
  unfold refTail
  show FloatOps.dotGeneral dot_S8192x4096_S4096x8192_S8192x8192_1_0_0_1_n_n none .single _ _ (ix2 P Q) = _
  rw [dotGeneral_ix2 dot_S8192x4096_S4096x8192_S8192x8192_1_0_0_1_n_n rfl rfl rfl rfl rfl rfl]
  unfold Cert.Gram.gram
  refine Finset.sum_congr rfl fun k _ => ?_
  rw [transpose_apply, refJ_apply lw rw cl cr hcl hcr, refJ_apply lw rw cl cr hcl hcr]

/-! ## The clip's range -/

/-- The printed clip of a cell table has every word below 512. -/
theorem clipFn_lt (v : IVec S8192x8 32) (j : S8192x8.Idx) : (clipFn v j).toNat < 512 :=
  Cert.LibClipRange.clip_lt _ _ _ _ (fun _ => rfl) (fun _ => rfl) v j

end Cert.ReferenceIdeal.RefRead

end
-- ==== Proof.lean ====
/-
  The certificate: a Gram matrix of a banded interpolation Jacobian, built without materialising the Jacobian.

  Both programs compute, from the argument x : f32[8192], four tables over 8192 points × 8 bands — the clipped left
  and right grid cells li, ri (32-bit words in [0, 511]) and the interpolation weights lw, rw — by the same host
  operations (TableDefs: the two programs' buffers are literally the same functions of x).

  The kernel rebuilds, for each pair of 1024-row blocks, the two blocks of the Jacobian band by band with one-hot
  compares — entry (p, 512·b + g) is lw (p, b) if g is the left cell plus rw (p, b) if g is the right cell (Bands,
  BlockValue, KIBlock) — and stores their product over the 4096 columns; the blocks tile the result (KIValue), so the
  result at (P, Q) is the sum over k of J (P, k) · J (Q, k) (Spec's gram).

  The reference scatter-adds lw and rw into a zero 8192 × 4096 matrix at (row, 512·band + cell) and multiplies it
  by its transpose. Every pair (point, band) lands on its own column of its own row, so the scattered matrix has at
  (P, 512·b + g) exactly 0 + (lw if g is the left cell) + (rw if g is the right cell): the same J, the zero absorbed
  (RefRead); its product with its transpose is the same sum over k.

  On the extended reals the two sums have identical terms, so no finiteness is needed: the precondition is unused.

  The frames: the kernel's launch reads each table through two windows, so each table's buffer is split in two
  halves between them (KIRun, KRun; the body's run is KIBody, KBody); the reference is host operations only (RefRun).
  Nothing was rewritten by idealization: the preservation claim is trivial.
-/
import proofs.«148301_j79766132621757_2_alg».proof.Defs
import proofs.«148301_j79766132621757_2_alg».proof.Proof.Gen.Kernel
import proofs.«148301_j79766132621757_2_alg».proof.Proof.Gen.KernelIdeal
import proofs.«148301_j79766132621757_2_alg».proof.Proof.Gen.ReferenceIdeal
import proofs.«148301_j79766132621757_2_alg».proof.Proof.Gen.Pre_finite_inputs
import proofs.«148301_j79766132621757_2_alg».proof.Proof.KRun
import proofs.«148301_j79766132621757_2_alg».proof.Proof.KIRun
import proofs.«148301_j79766132621757_2_alg».proof.Proof.KIFinal
import proofs.«148301_j79766132621757_2_alg».proof.Proof.TableRange
import proofs.«148301_j79766132621757_2_alg».proof.Proof.RefStages
import proofs.«148301_j79766132621757_2_alg».proof.Proof.RefRead
import Idealize.ShloMosaic.Adequacy
import Idealize.ShloMosaic.Init

noncomputable section

namespace Cert.Proof

open Idealize.ShloMosaic Idealize.ShloMosaic.ValueIdx Idealize.SL.Sem

/-- The word-level kernel runs and leaves its argument as it was. -/
theorem frame_k : Cert.frame_Kernel (hKernel := Cert.Kernel.Gen.facts) (hPre_finite_inputs := Cert.Pre_finite_inputs.Gen.facts) :=
  fun m ρ _ => Cert.Kernel.Hand.frame m ρ

/-- So does the kernel read on the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- Both programs end with the Gram matrix of the same Jacobian: at (P, Q) the sum over the 4096 columns k of
    J (P, k) · J (Q, k), J built from the same four tables of the argument. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.dats (F := Ideal) m 0 c).arrAt 8 Cert.KernelIdeal.cfg0.N, ?_, ?_⟩
  · exact (θ_run Cert.KernelIdeal.defs _ _).mono
      (fun r h c => ⟨(h c).1 8, ((h c).2 Cert.KernelIdeal.main_arg0 (by decide)).trans (Cert.KernelIdeal.Hand.V_main_arg0 m c)⟩)
      (Cert.KernelIdeal.Hand.run_main (F := Ideal) m ρ)
  · refine (θ_run Cert.ReferenceIdeal.defs _ _).mono (fun r h c => ⟨(h c).1.trans ?_, (h c).2⟩)
      (Cert.ReferenceIdeal.RefRun.run_value m' ρ')
    rw [hagree c]
    show _ = (Cert.KernelIdeal.Hand.dats (F := Ideal) m 0 c).arrAt 8 Cert.KernelIdeal.cfg0.N
    rw [Cert.KernelIdeal.Hand.final8_arg m c]
    funext i
    obtain ⟨P, Q, rfl⟩ : ∃ (P Q : Fin 8192), i = ix2 P Q := ⟨i 0, i 1, eq_ix2 i⟩
    rw [Cert.KernelIdeal.Hand.gramArr_ix2]
    exact Cert.ReferenceIdeal.RefRead.refTail_apply _ _ _ _ (Cert.Gram.liT_lt _) (Cert.Gram.riT_lt _) P Q

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, trivial, algebraic⟩

end Cert.Proof

end
